-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S3x300000 : Shape := ⟨2, ![3, 300000]⟩
abbrev S10000x128 : Shape := ⟨2, ![10000, 128]⟩
abbrev S2x3x128x128 : Shape := ⟨4, ![2, 3, 128, 128]⟩
abbrev S2x3x128 : Shape := ⟨3, ![2, 3, 128]⟩
abbrev S128x384 : Shape := ⟨2, ![128, 384]⟩
abbrev S2x384 : Shape := ⟨2, ![2, 384]⟩
abbrev S256x384 : Shape := ⟨2, ![256, 384]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_
  bcast_S_S128x384 : S_.BroadcastsInDim S128x384 (![] : Fin 0 → Fin S128x384.rank)
  reducesTo_S128x384_S_d0_1 : S128x384.ReducesTo [0, 1] S_
  bcast_S_S2x384 : S_.BroadcastsInDim S2x384 (![] : Fin 0 → Fin S2x384.rank)
  reducesTo_S2x384_S_d0_1 : S2x384.ReducesTo [0, 1] S_
  bcast_S_S256x384 : S_.BroadcastsInDim S256x384 (![] : Fin 0 → Fin S256x384.rank)
  reducesTo_S256x384_S_d0_1 : S256x384.ReducesTo [0, 1] S_

variable [Facts]

def fn_part2 {F : FTy → Type} [FloatOps F] (main_arg11 : FVec F S128x384 .f32) (main_arg12 : FVec F S2x384 .f32) (main_v33 : IVec S_ 1) : IVec S_ 1 :=
  let main_v34 : FVec F S128x384 .f32 := Host.absf main_arg11
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S2x384 .f32 := Host.absf main_arg12
  let main_cst_14 : FVec F S_ .f32 := constant S_ .f32 0x7F800000#32
  let main_v40 : FVec F S2x384 .f32 := broadcastInDim S2x384 ![] bcast_S_S2x384 main_cst_14
  let main_v41 : IVec S2x384 1 := cmpf .olt main_v39 main_v40
  let main_c_15 : IVec S_ 1 := constantI S_ 1 1#1
  let main_v42 : IVec S_ 1 := (fun x v => Host.reduce IntOp.andi x v reducesTo_S2x384_S_d0_1 h_S_) main_v41 main_c_15
  let main_v43 : IVec S_ 1 := andi main_v38 main_v42
  main_v43

def fn_part1 {F : FTy → Type} [FloatOps F] (main_arg8 : FVec F S128x384 .f32) (main_arg9 : FVec F S2x384 .f32) (main_arg10 : FVec F S256x384 .f32) (main_arg11 : FVec F S128x384 .f32) (main_arg12 : FVec F S2x384 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128x384 .f32 := Host.absf main_arg8
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S2x384 .f32 := Host.absf main_arg9
  let main_cst_8 : FVec F S_ .f32 := constant S_ .f32 0x7F800000#32
  let main_v25 : FVec F S2x384 .f32 := broadcastInDim S2x384 ![] bcast_S_S2x384 main_cst_8
  let main_v26 : IVec S2x384 1 := cmpf .olt main_v24 main_v25
  let main_c_9 : IVec S_ 1 := constantI S_ 1 1#1
  let main_v27 : IVec S_ 1 := (fun x v => Host.reduce IntOp.andi x v reducesTo_S2x384_S_d0_1 h_S_) main_v26 main_c_9
  let main_v28 : IVec S_ 1 := andi main_v23 main_v27
  let main_v29 : FVec F S256x384 .f32 := Host.absf main_arg10
  let main_cst_10 : FVec F S_ .f32 := constant S_ .f32 0x7F800000#32
  let main_v30 : FVec F S256x384 .f32 := broadcastInDim S256x384 ![] bcast_S_S256x384 main_cst_10
  let main_v31 : IVec S256x384 1 := cmpf .olt main_v29 main_v30
  let main_c_11 : IVec S_ 1 := constantI S_ 1 1#1
  let main_v32 : IVec S_ 1 := (fun x v => Host.reduce IntOp.andi x v reducesTo_S256x384_S_d0_1 h_S_) main_v31 main_c_11
  let main_v33 : IVec S_ 1 := andi main_v28 main_v32
  fn_part2 (F := F) main_arg11 main_arg12 main_v33

def fn {F : FTy → Type} [FloatOps F] (main_arg0 : IVec S200000 32) (main_arg1 : IVec S200000 32) (main_arg2 : IVec S3x300000 32) (main_arg3 : IVec S3x300000 32) (main_arg4 : FVec F S10000x128 .f32) (main_arg5 : FVec F S2x3x128x128 .f32) (main_arg6 : FVec F S2x3x128 .f32) (main_arg7 : FVec F S128x384 .f32) (main_arg8 : FVec F S128x384 .f32) (main_arg9 : FVec F S2x384 .f32) (main_arg10 : FVec F S256x384 .f32) (main_arg11 : FVec F S128x384 .f32) (main_arg12 : FVec F S2x384 .f32) : IVec S_ 1 :=
  let main_v0 : FVec F S10000x128 .f32 := Host.absf main_arg4
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x3x128x128 .f32 := Host.absf main_arg5
  let main_cst_0 : FVec F S_ .f32 := constant S_ .f32 0x7F800000#32
  let main_v5 : FVec F S2x3x128x128 .f32 := broadcastInDim S2x3x128x128 ![] bcast_S_S2x3x128x128 main_cst_0
  let main_v6 : IVec S2x3x128x128 1 := cmpf .olt main_v4 main_v5
  let main_c_1 : IVec S_ 1 := constantI S_ 1 1#1
  let main_v7 : IVec S_ 1 := (fun x v => Host.reduce IntOp.andi x v reducesTo_S2x3x128x128_S_d0_1_2_3 h_S_) main_v6 main_c_1
  let main_v8 : IVec S_ 1 := andi main_v3 main_v7
  let main_v9 : FVec F S2x3x128 .f32 := Host.absf main_arg6
  let main_cst_2 : FVec F S_ .f32 := constant S_ .f32 0x7F800000#32
  let main_v10 : FVec F S2x3x128 .f32 := broadcastInDim S2x3x128 ![] bcast_S_S2x3x128 main_cst_2
  let main_v11 : IVec S2x3x128 1 := cmpf .olt main_v9 main_v10
  let main_c_3 : IVec S_ 1 := constantI S_ 1 1#1
  let main_v12 : IVec S_ 1 := (fun x v => Host.reduce IntOp.andi x v reducesTo_S2x3x128_S_d0_1_2 h_S_) main_v11 main_c_3
  let main_v13 : IVec S_ 1 := andi main_v8 main_v12
  let main_v14 : FVec F S128x384 .f32 := Host.absf main_arg7
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg8 main_arg9 main_arg10 main_arg11 main_arg12 main_v13 main_v16
-- ==== Kernel.lean ====
abbrev S200000 : Shape := ⟨1, ![200000]⟩
abbrev S3x300000 : Shape := ⟨2, ![3, 300000]⟩
abbrev S10000x128 : Shape := ⟨2, ![10000, 128]⟩
abbrev S2x3x128x128 : Shape := ⟨4, ![2, 3, 128, 128]⟩
abbrev S2x3x128 : Shape := ⟨3, ![2, 3, 128]⟩
abbrev S128x384 : Shape := ⟨2, ![128, 384]⟩
abbrev S2x384 : Shape := ⟨2, ![2, 384]⟩
abbrev S256x384 : Shape := ⟨2, ![256, 384]⟩
abbrev S_ : Shape := ⟨0, ![]⟩
abbrev S200000x1 : Shape := ⟨2, ![200000, 1]⟩
abbrev S200000x128 : Shape := ⟨2, ![200000, 128]⟩
abbrev S100000x128 : Shape := ⟨2, ![100000, 128]⟩
abbrev S1x3x128x128 : Shape := ⟨4, ![1, 3, 128, 128]⟩
abbrev S3x128x128 : Shape := ⟨3, ![3, 128, 128]⟩
abbrev S1x3x128 : Shape := ⟨3, ![1, 3, 128]⟩
abbrev S3x128 : Shape := ⟨2, ![3, 128]⟩
abbrev S3x300000x1 : Shape := ⟨3, ![3, 300000, 1]⟩
abbrev S3x300000x128 : Shape := ⟨3, ![3, 300000, 128]⟩
abbrev S3x1x128 : Shape := ⟨3, ![3, 1, 128]⟩
abbrev S1x10000x128 : Shape := ⟨3, ![1, 10000, 128]⟩
abbrev S1x128x128 : Shape := ⟨3, ![1, 128, 128]⟩
abbrev S1x1x128 : Shape := ⟨3, ![1, 1, 128]⟩
abbrev S128x128 : Shape := ⟨2, ![128, 128]⟩
abbrev S1x128 : Shape := ⟨2, ![1, 128]⟩
abbrev S900000x128 : Shape := ⟨2, ![900000, 128]⟩
abbrev S900000 : Shape := ⟨1, ![900000]⟩
abbrev S900000x1 : Shape := ⟨2, ![900000, 1]⟩
abbrev S2000x128 : Shape := ⟨2, ![2000, 128]⟩
abbrev S2000x384 : Shape := ⟨2, ![2000, 384]⟩
abbrev S1x384 : Shape := ⟨2, ![1, 384]⟩
abbrev S384 : Shape := ⟨1, ![384]⟩
abbrev S100000x256 : Shape := ⟨2, ![100000, 256]⟩
abbrev S2000x256 : Shape := ⟨2, ![2000, 256]⟩

abbrev nBuf : Space → Nat
  | .hbm => 94
  | .vmem => 51
  | .smem => 0
  | _ => 0

abbrev bufTy : (tb : Table) → Fin (tcTables nBuf tb) → BufTy
  | .hbm, ⟨0, _⟩ => ⟨S200000, .i32⟩
  | .hbm, ⟨1, _⟩ => ⟨S200000, .i32⟩
  | .hbm, ⟨2, _⟩ => ⟨S3x300000, .i32⟩
  | .hbm, ⟨3, _⟩ => ⟨S3x300000, .i32⟩
  | .hbm, ⟨4, _⟩ => ⟨S10000x128, .f32⟩
  | .hbm, ⟨5, _⟩ => ⟨S2x3x128x128, .f32⟩
  | .hbm, ⟨6, _⟩ => ⟨S2x3x128, .f32⟩
  | .hbm, ⟨7, _⟩ => ⟨S128x384, .f32⟩
  | .hbm, ⟨8, _⟩ => ⟨S128x384, .f32⟩
  | .hbm, ⟨9, _⟩ => ⟨S2x384, .f32⟩
  | .hbm, ⟨10, _⟩ => ⟨S256x384, .f32⟩
  | .hbm, ⟨11, _⟩ => ⟨S128x384, .f32⟩
  | .hbm, ⟨12, _⟩ => ⟨S2x384, .f32⟩
  | .hbm, ⟨13, _⟩ => ⟨S_, .i32⟩
  | .hbm, ⟨14, _⟩ => ⟨S200000, .i32⟩
  | .hbm, ⟨15, _⟩ => ⟨S200000, .i1⟩
  | .hbm, ⟨16, _⟩ => ⟨S_, .i32⟩
  | .hbm, ⟨17, _⟩ => ⟨S200000, .i32⟩
  | .hbm, ⟨18, _⟩ => ⟨S200000, .i32⟩
  | .hbm, ⟨19, _⟩ => ⟨S200000, .i32⟩
  | .hbm, ⟨20, _⟩ => ⟨S200000x1, .i32⟩
  | .hbm, ⟨21, _⟩ => ⟨S200000x128, .f32⟩
  | .hbm, ⟨22, _⟩ => ⟨S_, .f32⟩
  | .hbm, ⟨23, _⟩ => ⟨S100000x128, .f32⟩
  | .hbm, ⟨24, _⟩ => ⟨S200000x1, .i32⟩
  | .hbm, ⟨25, _⟩ => ⟨S100000x128, .f32⟩
  | .hbm, ⟨26, _⟩ => ⟨S1x3x128x128, .f32⟩
  | .hbm, ⟨27, _⟩ => ⟨S3x128x128, .f32⟩
  | .hbm, ⟨28, _⟩ => ⟨S3x128x128, .bf16⟩
  | .hbm, ⟨29, _⟩ => ⟨S1x3x128, .f32⟩
  | .hbm, ⟨30, _⟩ => ⟨S3x128, .f32⟩
  | .hbm, ⟨31, _⟩ => ⟨S_, .i32⟩
  | .hbm, ⟨32, _⟩ => ⟨S3x300000, .i32⟩
  | .hbm, ⟨33, _⟩ => ⟨S3x300000, .i1⟩
  | .hbm, ⟨34, _⟩ => ⟨S_, .i32⟩
  | .hbm, ⟨35, _⟩ => ⟨S3x300000, .i32⟩
  | .hbm, ⟨36, _⟩ => ⟨S3x300000, .i32⟩
  | .hbm, ⟨37, _⟩ => ⟨S3x300000, .i32⟩
  | .hbm, ⟨38, _⟩ => ⟨S3x300000x1, .i32⟩
  | .hbm, ⟨39, _⟩ => ⟨S3x300000x128, .f32⟩
  | .hbm, ⟨40, _⟩ => ⟨S3x300000x128, .bf16⟩
  | .hbm, ⟨41, _⟩ => ⟨S3x1x128, .f32⟩
  | .hbm, ⟨42, _⟩ => ⟨S3x300000x128, .f32⟩
  | .hbm, ⟨43, _⟩ => ⟨S900000x128, .f32⟩
  | .hbm, ⟨44, _⟩ => ⟨S900000, .i32⟩
  | .hbm, ⟨45, _⟩ => ⟨S_, .f32⟩
  | .hbm, ⟨46, _⟩ => ⟨S100000x128, .f32⟩
  | .hbm, ⟨47, _⟩ => ⟨S900000x1, .i32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S3x300000, .i32⟩
  | .hbm, ⟨52, _⟩ => ⟨S3x300000, .i1⟩
  | .hbm, ⟨53, _⟩ => ⟨S_, .i32⟩
  | .hbm, ⟨54, _⟩ => ⟨S3x300000, .i32⟩
  | .hbm, ⟨55, _⟩ => ⟨S3x300000, .i32⟩
  | .hbm, ⟨56, _⟩ => ⟨S3x300000, .i32⟩
  | .hbm, ⟨57, _⟩ => ⟨S3x300000x1, .i32⟩
  | .hbm, ⟨58, _⟩ => ⟨S3x300000x128, .f32⟩
  | .hbm, ⟨59, _⟩ => ⟨S3x300000x128, .bf16⟩
  | .hbm, ⟨60, _⟩ => ⟨S3x1x128, .f32⟩
  | .hbm, ⟨61, _⟩ => ⟨S3x300000x128, .f32⟩
  | .hbm, ⟨62, _⟩ => ⟨S900000x128, .f32⟩
  | .hbm, ⟨63, _⟩ => ⟨S900000, .i32⟩
  | .hbm, ⟨64, _⟩ => ⟨S_, .f32⟩
  | .hbm, ⟨65, _⟩ => ⟨S100000x128, .f32⟩
  | .hbm, ⟨66, _⟩ => ⟨S900000x1, .i32⟩
  | .hbm, ⟨67, _⟩ => ⟨S100000x128, .f32⟩
  | .hbm, ⟨68, _⟩ => ⟨S100000x128, .f32⟩
  | .hbm, ⟨69, _⟩ => ⟨S1x3x128x128, .f32⟩
  | .hbm, ⟨70, _⟩ => ⟨S3x128x128, .f32⟩
  | .hbm, ⟨71, _⟩ => ⟨S3x128x128, .bf16⟩
  | .hbm, ⟨72, _⟩ => ⟨S1x3x128, .f32⟩
  | .hbm, ⟨73, _⟩ => ⟨S3x128, .f32⟩
  | .hbm, ⟨74, _⟩ => ⟨S_, .i32⟩
  | .hbm, ⟨75, _⟩ => ⟨S3x300000, .i32⟩
  | .hbm, ⟨76, _⟩ => ⟨S3x300000, .i1⟩
  | .hbm, ⟨77, _⟩ => ⟨S_, .i32⟩
  | .hbm, ⟨78, _⟩ => ⟨S3x300000, .i32⟩
  | .hbm, ⟨79, _⟩ => ⟨S3x300000, .i32⟩
  | .hbm, ⟨80, _⟩ => ⟨S3x300000, .i32⟩
  | .hbm, ⟨81, _⟩ => ⟨S3x300000x1, .i32⟩
  | .hbm, ⟨82, _⟩ => ⟨S3x300000x128, .f32⟩
  | .hbm, ⟨83, _⟩ => ⟨S3x300000x128, .bf16⟩
  | .hbm, ⟨84, _⟩ => ⟨S3x1x128, .f32⟩
  | .hbm, ⟨85, _⟩ => ⟨S3x300000x128, .f32⟩
  | .hbm, ⟨86, _⟩ => ⟨S900000x128, .f32⟩
  | .hbm, ⟨87, _⟩ => ⟨S900000, .i32⟩
  | .hbm, ⟨88, _⟩ => ⟨S_, .f32⟩
  | .hbm, ⟨89, _⟩ => ⟨S100000x128, .f32⟩
  | .hbm, ⟨90, _⟩ => ⟨S900000x1, .i32⟩
  | .hbm, ⟨91, _⟩ => ⟨S100000x128, .f32⟩
  | .hbm, ⟨92, _⟩ => ⟨S100000x256, .f32⟩
  | .hbm, ⟨93, _⟩ => ⟨S100000x128, .f32⟩
  | .local _ .vmem, ⟨0, _⟩ => ⟨S1x10000x128, .bf16⟩
  | .local _ .vmem, ⟨1, _⟩ => ⟨S1x10000x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x1x128, .f32⟩
  | .local _ .vmem, ⟨5, _⟩ => ⟨S1x1x128, .f32⟩
  | .local _ .vmem, ⟨6, _⟩ => ⟨S1x10000x128, .f32⟩
  | .local _ .vmem, ⟨7, _⟩ => ⟨S1x10000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x384, .f32⟩
  | .local _ .vmem, ⟨13, _⟩ => ⟨S128x384, .f32⟩
  | .local _ .vmem, ⟨14, _⟩ => ⟨S2x384, .f32⟩
  | .local _ .vmem, ⟨15, _⟩ => ⟨S2000x128, .f32⟩
  | .local _ .vmem, ⟨16, _⟩ => ⟨S2000x128, .f32⟩
  | .local _ .vmem, ⟨17, _⟩ => ⟨S1x10000x128, .bf16⟩
  | .local _ .vmem, ⟨18, _⟩ => ⟨S1x10000x128, .bf16⟩
  | .local _ .vmem, ⟨19, _⟩ => ⟨S1x128x128, .bf16⟩
  | .local _ .vmem, ⟨20, _⟩ => ⟨S1x128x128, .bf16⟩
  | .local _ .vmem, ⟨21, _⟩ => ⟨S1x1x128, .f32⟩
  | .local _ .vmem, ⟨22, _⟩ => ⟨S1x1x128, .f32⟩
  | .local _ .vmem, ⟨23, _⟩ => ⟨S1x10000x128, .f32⟩
  | .local _ .vmem, ⟨24, _⟩ => ⟨S1x10000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x384, .f32⟩
  | .local _ .vmem, ⟨30, _⟩ => ⟨S128x384, .f32⟩
  | .local _ .vmem, ⟨31, _⟩ => ⟨S2x384, .f32⟩
  | .local _ .vmem, ⟨32, _⟩ => ⟨S2000x128, .f32⟩
  | .local _ .vmem, ⟨33, _⟩ => ⟨S2000x128, .f32⟩
  | .local _ .vmem, ⟨34, _⟩ => ⟨S1x10000x128, .bf16⟩
  | .local _ .vmem, ⟨35, _⟩ => ⟨S1x10000x128, .bf16⟩
  | .local _ .vmem, ⟨36, _⟩ => ⟨S1x128x128, .bf16⟩
  | .local _ .vmem, ⟨37, _⟩ => ⟨S1x128x128, .bf16⟩
  | .local _ .vmem, ⟨38, _⟩ => ⟨S1x1x128, .f32⟩
  | .local _ .vmem, ⟨39, _⟩ => ⟨S1x1x128, .f32⟩
  | .local _ .vmem, ⟨40, _⟩ => ⟨S1x10000x128, .f32⟩
  | .local _ .vmem, ⟨41, _⟩ => ⟨S1x10000x128, .f32⟩
  | .local _ .vmem, ⟨42, _⟩ => ⟨S2000x256, .f32⟩
  | .local _ .vmem, ⟨43, _⟩ => ⟨S2000x256, .f32⟩
  | .local _ .vmem, ⟨44, _⟩ => ⟨S2000x128, .f32⟩
  | .local _ .vmem, ⟨45, _⟩ => ⟨S2000x128, .f32⟩
  | .local _ .vmem, ⟨46, _⟩ => ⟨S256x384, .f32⟩
  | .local _ .vmem, ⟨47, _⟩ => ⟨S128x384, .f32⟩
  | .local _ .vmem, ⟨48, _⟩ => ⟨S2x384, .f32⟩
  | .local _ .vmem, ⟨49, _⟩ => ⟨S2000x128, .f32⟩
  | .local _ .vmem, ⟨50, _⟩ => ⟨S2000x128, .f32⟩
  | _, _ => ⟨S200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_7 : Ref sig .tc := ⟨.hbm, 74, rfl⟩
abbrev main_v52 : Ref sig .tc := ⟨.hbm, 75, rfl⟩
abbrev main_v53 : Ref sig .tc := ⟨.hbm, 76, rfl⟩
abbrev main_c_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50

abbrev nD : Nat := 1
abbrev τ : Topo := Topo.v7x

variable {F : FTy → Type} [FloatOps F]

abbrev grid0 : Pipeline.Grid := ⟨2, ![3, 30], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![3, 30], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![3, 30], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x10000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x128x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x384 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2x384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S100000x128 : S_.BroadcastsInDim S100000x128 (![] : Fin 0 → Fin S100000x128.rank)
  slices_S2x3x128x128_S1x3x128x128_0_0_0_0 : S2x3x128x128.Slices ![0, 0, 0, 0] S1x3x128x128
  shapeCasts_S1x3x128x128_S3x128x128 : S1x3x128x128.ShapeCasts S3x128x128
  bitsLt_bf16_f32 : FTy.bits .bf16 < FTy.bits .f32
  slices_S2x3x128_S1x3x128_0_0_0 : S2x3x128.Slices ![0, 0, 0] S1x3x128
  shapeCasts_S1x3x128_S3x128 : S1x3x128.ShapeCasts S3x128
  bcast_S_S3x300000 : S_.BroadcastsInDim S3x300000 (![] : Fin 0 → Fin S3x300000.rank)
  bcast_S3x300000_S3x300000x1_0_1 : S3x300000.BroadcastsInDim S3x300000x1 (![0, 1] : Fin 2 → Fin S3x300000x1.rank)
  shapeCasts_S3x128_S3x1x128 : S3x128.ShapeCasts S3x1x128
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S10000x128 : S1x128.Broadcasts S10000x128
  shapeCasts_S10000x128_S1x10000x128 : S10000x128.ShapeCasts S1x10000x128
  shapeCasts_S3x300000x128_S900000x128 : S3x300000x128.ShapeCasts S900000x128
  shapeCasts_S3x300000_S900000 : S3x300000.ShapeCasts S900000
  bcast_S900000_S900000x1_0 : S900000.BroadcastsInDim S900000x1 (![0] : Fin 1 → Fin S900000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  inb_S2x384_S2x384_0_0 : ∀ a, (![0, 0] : Fin 2 → Nat) a + S2x384.size a ≤ S2x384.size a
  h_S2x384 : 0 < S2x384.numel
  slices_S2x384_o0_0_S1x384 : S2x384.Slices ![0, 0] S1x384
  shapeCasts_S1x384_S384 : S1x384.ShapeCasts S384
  shapeCasts_S384_S1x384 : S384.ShapeCasts S1x384
  broadcasts_S1x384_S2000x384 : S1x384.Broadcasts S2000x384
  slices_S2x384_o1_0_S1x384 : S2x384.Slices ![1, 0] S1x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S2x3x128x128_S1x3x128x128_1_0_0_0 : S2x3x128x128.Slices ![1, 0, 0, 0] S1x3x128x128
  slices_S2x3x128_S1x3x128_1_0_0 : S2x3x128.Slices ![1, 0, 0] S1x3x128
  concatenates_S100000x128_S100000x128_S100000x256_d1 : Shape.Concatenates [S100000x128, S100000x128] S100000x256 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x384_S256x384_0_0 : ∀ a, (![0, 0] : Fin 2 → Nat) a + S256x384.size a ≤ S256x384.size a
  h_S256x384 : 0 < S256x384.numel
  gather_S10000x128_S200000x1_S200000x128_1_0_n_n_0_1_1128_wf : GatherDims.WF S10000x128 S200000x1 S200000x128 [1] [0] [] [0] [] 1 ![1, 128]
  scatter_S100000x128_S200000x1_S200000x128_1_0_0_1_wf : ScatterDims.WF S100000x128 S200000x1 S200000x128 [1] [0] [0] 1
  gather_S100000x128_S3x300000x1_S3x300000x128_2_0_n_n_0_2_1128_wf : GatherDims.WF S100000x128 S3x300000x1 S3x300000x128 [2] [0] [] [0] [] 2 ![1, 128]
  dot_S10000x128_S128x128_S10000x128_1_0_0_1_n_n_wf : DotDims.WF S10000x128 S128x128 S10000x128 [1] [0] [0] [1] [] []
  scatter_S100000x128_S900000x1_S900000x128_1_0_0_1_wf : ScatterDims.WF S100000x128 S900000x1 S900000x128 [1] [0] [0] 1
  dot_S2000x128_S128x384_S2000x384_1_0_0_1_n_n_wf : DotDims.WF S2000x128 S128x384 S2000x384 [1] [0] [0] [1] [] []
  dot_S2000x256_S256x384_S2000x384_1_0_0_1_n_n_wf : DotDims.WF S2000x256 S256x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S3x300000x128.size a
  hwx0_0 : ∀ i : grid0.Coords, EltTy.bits .bf16 = 32 ∨ (Rect.block (s := S3x300000x128) S1x10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S3x128x128.size a
  hwx0_1 : ∀ i : grid0.Coords, EltTy.bits .bf16 = 32 ∨ (Rect.block (s := S3x128x128) S1x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S3x1x128.size a
  hwx0_2 : ∀ i : grid0.Coords, EltTy.bits .f32 = 32 ∨ (Rect.block (s := S3x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10000x128.size a ≤ S3x300000x128.size a
  hwx0_3 : ∀ i : grid0.Coords, EltTy.bits .f32 = 32 ∨ (Rect.block (s := S3x300000x128) S1x10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x384.size a ≤ S2x384.size a
  hwx1_4 : ∀ i : grid1.Coords, EltTy.bits .f32 = 32 ∨ (Rect.block (s := S2x384) S2x384.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x10000x128.size a ≤ S3x300000x128.size a
  hwx2_0 : ∀ i : grid2.Coords, EltTy.bits .bf16 = 32 ∨ (Rect.block (s := S3x300000x128) S1x10000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x128.size a ≤ S3x128x128.size a
  hwx2_1 : ∀ i : grid2.Coords, EltTy.bits .bf16 = 32 ∨ (Rect.block (s := S3x128x128) S1x128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S3x1x128.size a
  hwx2_2 : ∀ i : grid2.Coords, EltTy.bits .f32 = 32 ∨ (Rect.block (s := S3x1x128) S1x1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x10000x128.size a ≤ S3x300000x128.size a
  hwx2_3 : ∀ i : grid2.Coords, EltTy.bits .f32 = 32 ∨ (Rect.block (s := S3x300000x128) S1x10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2x384.size a ≤ S2x384.size a
  hwx3_4 : ∀ i : grid3.Coords, EltTy.bits .f32 = 32 ∨ (Rect.block (s := S2x384) S2x384.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x10000x128.size a ≤ S3x300000x128.size a
  hwx4_0 : ∀ i : grid4.Coords, EltTy.bits .bf16 = 32 ∨ (Rect.block (s := S3x300000x128) S1x10000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x128x128.size a ≤ S3x128x128.size a
  hwx4_1 : ∀ i : grid4.Coords, EltTy.bits .bf16 = 32 ∨ (Rect.block (s := S3x128x128) S1x128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x128.size a ≤ S3x1x128.size a
  hwx4_2 : ∀ i : grid4.Coords, EltTy.bits .f32 = 32 ∨ (Rect.block (s := S3x1x128) S1x1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x10000x128.size a ≤ S3x300000x128.size a
  hwx4_3 : ∀ i : grid4.Coords, EltTy.bits .f32 = 32 ∨ (Rect.block (s := S3x300000x128) S1x10000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x384.size a ≤ S256x384.size a
  hwx5_2 : ∀ i : grid5.Coords, EltTy.bits .f32 = 32 ∨ (Rect.block (s := S256x384) S256x384.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x384.size a ≤ S128x384.size a
  hwx5_3 : ∀ i : grid5.Coords, EltTy.bits .f32 = 32 ∨ (Rect.block (s := S128x384) S128x384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2x384.size a ≤ S2x384.size a
  hwx5_4 : ∀ i : grid5.Coords, EltTy.bits .f32 = 32 ∨ (Rect.block (s := S2x384) S2x384.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)

variable [Facts₀]

def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def gather_S100000x128_S3x300000x1_S3x300000x128_2_0_n_n_0_2_1128 : GatherDims S100000x128 S3x300000x1 S3x300000x128 where
  offsetDims := [2]
  collapsedSliceDims := [0]
  operandBatchingDims := []
  startIndicesBatchingDims := []
  startIndexMap := [0]
  indexVectorDim := 2
  sliceSizes := ![1, 128]
  wf := gather_S100000x128_S3x300000x1_S3x300000x128_2_0_n_n_0_2_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x256_S256x384_S2000x384_1_0_0_1_n_n : DotDims S2000x256 S256x384 S2000x384 where
  lhsContracting := [1]
  rhsContracting := [0]
  lhsNonContracting := [0]
  rhsNonContracting := [1]
  lhsBatch := []
  rhsBatch := []
  wf := dot_S2000x256_S256x384_S2000x384_1_0_0_1_n_n_wf

abbrev win0_0 : Pipeline.Window sig grid0 :=
  Pipeline.Window.ofSpec (Memref.whole main_v22) S1x10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S2x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S1x10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x1x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S2x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59) S1x10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S1x128x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x1x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v61) S1x10000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v67) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S256x384.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S128x384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg12) S2x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v68) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S200000 : Shape := ⟨1, ![200000]⟩
abbrev S3x300000 : Shape := ⟨2, ![3, 300000]⟩
abbrev S10000x128 : Shape := ⟨2, ![10000, 128]⟩
abbrev S2x3x128x128 : Shape := ⟨4, ![2, 3, 128, 128]⟩
abbrev S2x3x128 : Shape := ⟨3, ![2, 3, 128]⟩
abbrev S128x384 : Shape := ⟨2, ![128, 384]⟩
abbrev S2x384 : Shape := ⟨2, ![2, 384]⟩
abbrev S256x384 : Shape := ⟨2, ![256, 384]⟩
abbrev S_ : Shape := ⟨0, ![]⟩
abbrev S200000x1 : Shape := ⟨2, ![200000, 1]⟩
abbrev S200000x128 : Shape := ⟨2, ![200000, 128]⟩
abbrev S100000x128 : Shape := ⟨2, ![100000, 128]⟩
abbrev S3x300000x1 : Shape := ⟨3, ![3, 300000, 1]⟩
abbrev S3x300000x128 : Shape := ⟨3, ![3, 300000, 128]⟩
abbrev S1x3x128x128 : Shape := ⟨4, ![1, 3, 128, 128]⟩
abbrev S3x128x128 : Shape := ⟨3, ![3, 128, 128]⟩
abbrev S1x3x128 : Shape := ⟨3, ![1, 3, 128]⟩
abbrev S3x128 : Shape := ⟨2, ![3, 128]⟩
abbrev S3x1x128 : Shape := ⟨3, ![3, 1, 128]⟩
abbrev S900000x128 : Shape := ⟨2, ![900000, 128]⟩
abbrev S900000 : Shape := ⟨1, ![900000]⟩
abbrev S900000x1 : Shape := ⟨2, ![900000, 1]⟩
abbrev S100000x384 : Shape := ⟨2, ![100000, 384]⟩
abbrev S1x384 : Shape := ⟨2, ![1, 384]⟩
abbrev S384 : Shape := ⟨1, ![384]⟩
abbrev S100000x256 : Shape := ⟨2, ![100000, 256]⟩

abbrev nBuf : Space → Nat
  | .hbm => 231
  | .vmem => 0
  | .smem => 0
  | _ => 0

abbrev hbmTy0_0 (i : Nat) : BufTy := match i % 128 with
  | 0 => ⟨S200000, .i32⟩
  | 1 => ⟨S200000, .i32⟩
  | 2 => ⟨S3x300000, .i32⟩
  | 3 => ⟨S3x300000, .i32⟩
  | 4 => ⟨S10000x128, .f32⟩
  | 5 => ⟨S2x3x128x128, .f32⟩
  | 6 => ⟨S2x3x128, .f32⟩
  | 7 => ⟨S128x384, .f32⟩
  | 8 => ⟨S128x384, .f32⟩
  | 9 => ⟨S2x384, .f32⟩
  | 10 => ⟨S256x384, .f32⟩
  | 11 => ⟨S128x384, .f32⟩
  | 12 => ⟨S2x384, .f32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S200000x128, .f32⟩
  | 22 => ⟨S_, .f32⟩
  | 23 => ⟨S100000x128, .f32⟩
  | 24 => ⟨S200000x1, .i32⟩
  | 25 => ⟨S100000x128, .f32⟩
  | 26 => ⟨S_, .i32⟩
  | 27 => ⟨S3x300000, .i32⟩
  | 28 => ⟨S3x300000, .i1⟩
  | 29 => ⟨S_, .i32⟩
  | 30 => ⟨S3x300000, .i32⟩
  | 31 => ⟨S3x300000, .i32⟩
  | 32 => ⟨S3x300000, .i32⟩
  | 33 => ⟨S3x300000x1, .i32⟩
  | 34 => ⟨S3x300000x128, .f32⟩
  | 35 => ⟨S1x3x128x128, .f32⟩
  | 36 => ⟨S3x128x128, .f32⟩
  | 37 => ⟨S3x300000x128, .f32⟩
  | 38 => ⟨S1x3x128, .f32⟩
  | 39 => ⟨S3x128, .f32⟩
  | 40 => ⟨S3x1x128, .f32⟩
  | 41 => ⟨S3x300000x128, .f32⟩
  | 42 => ⟨S3x300000x128, .f32⟩
  | 43 => ⟨S900000x128, .f32⟩
  | 44 => ⟨S900000, .i32⟩
  | 45 => ⟨S_, .f32⟩
  | 46 => ⟨S100000x128, .f32⟩
  | 47 => ⟨S900000x1, .i32⟩
  | 48 => ⟨S100000x128, .f32⟩
  | 49 => ⟨S100000x384, .f32⟩
  | 50 => ⟨S1x384, .f32⟩
  | 51 => ⟨S384, .f32⟩
  | 52 => ⟨S1x384, .f32⟩
  | 53 => ⟨S100000x384, .f32⟩
  | 54 => ⟨S100000x384, .f32⟩
  | 55 => ⟨S100000x384, .f32⟩
  | 56 => ⟨S1x384, .f32⟩
  | 57 => ⟨S384, .f32⟩
  | 58 => ⟨S1x384, .f32⟩
  | 59 => ⟨S100000x384, .f32⟩
  | 60 => ⟨S100000x384, .f32⟩
  | 61 => ⟨S100000x128, .f32⟩
  | 62 => ⟨S100000x128, .f32⟩
  | 63 => ⟨S100000x128, .f32⟩
  | 64 => ⟨S100000x128, .f32⟩
  | 65 => ⟨S100000x128, .f32⟩
  | 66 => ⟨S100000x128, .f32⟩
  | 67 => ⟨S100000x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S100000x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S100000x128, .f32⟩
  | 93 => ⟨S100000x128, .f32⟩
  | 94 => ⟨S_, .i32⟩
  | 95 => ⟨S3x300000, .i32⟩
  | 96 => ⟨S3x300000, .i1⟩
  | 97 => ⟨S_, .i32⟩
  | 98 => ⟨S3x300000, .i32⟩
  | 99 => ⟨S3x300000, .i32⟩
  | 100 => ⟨S3x300000, .i32⟩
  | 101 => ⟨S3x300000x1, .i32⟩
  | 102 => ⟨S3x300000x128, .f32⟩
  | 103 => ⟨S1x3x128x128, .f32⟩
  | 104 => ⟨S3x128x128, .f32⟩
  | 105 => ⟨S3x300000x128, .f32⟩
  | 106 => ⟨S1x3x128, .f32⟩
  | 107 => ⟨S3x128, .f32⟩
  | 108 => ⟨S3x1x128, .f32⟩
  | 109 => ⟨S3x300000x128, .f32⟩
  | 110 => ⟨S3x300000x128, .f32⟩
  | 111 => ⟨S900000x128, .f32⟩
  | 112 => ⟨S900000, .i32⟩
  | 113 => ⟨S_, .f32⟩
  | 114 => ⟨S100000x128, .f32⟩
  | 115 => ⟨S900000x1, .i32⟩
  | 116 => ⟨S100000x128, .f32⟩
  | 117 => ⟨S100000x384, .f32⟩
  | 118 => ⟨S1x384, .f32⟩
  | 119 => ⟨S384, .f32⟩
  | 120 => ⟨S1x384, .f32⟩
  | 121 => ⟨S100000x384, .f32⟩
  | 122 => ⟨S100000x384, .f32⟩
  | 123 => ⟨S100000x384, .f32⟩
  | 124 => ⟨S1x384, .f32⟩
  | 125 => ⟨S384, .f32⟩
  | 126 => ⟨S1x384, .f32⟩
  | 127 => ⟨S100000x384, .f32⟩
  | _ => ⟨S200000, .i32⟩

abbrev hbmTy0_1 (i : Nat) : BufTy := match i % 128 with
  | 0 => ⟨S100000x384, .f32⟩
  | 1 => ⟨S100000x128, .f32⟩
  | 2 => ⟨S100000x128, .f32⟩
  | 3 => ⟨S100000x128, .f32⟩
  | 4 => ⟨S100000x128, .f32⟩
  | 5 => ⟨S100000x128, .f32⟩
  | 6 => ⟨S100000x128, .f32⟩
  | 7 => ⟨S100000x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S100000x128, .f32⟩
  | 26 => ⟨S100000x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x128, .f32⟩
  | 33 => ⟨S100000x128, .f32⟩
  | 34 => ⟨S_, .i32⟩
  | 35 => ⟨S3x300000, .i32⟩
  | 36 => ⟨S3x300000, .i1⟩
  | 37 => ⟨S_, .i32⟩
  | 38 => ⟨S3x300000, .i32⟩
  | 39 => ⟨S3x300000, .i32⟩
  | 40 => ⟨S3x300000, .i32⟩
  | 41 => ⟨S3x300000x1, .i32⟩
  | 42 => ⟨S3x300000x128, .f32⟩
  | 43 => ⟨S1x3x128x128, .f32⟩
  | 44 => ⟨S3x128x128, .f32⟩
  | 45 => ⟨S3x300000x128, .f32⟩
  | 46 => ⟨S1x3x128, .f32⟩
  | 47 => ⟨S3x128, .f32⟩
  | 48 => ⟨S3x1x128, .f32⟩
  | 49 => ⟨S3x300000x128, .f32⟩
  | 50 => ⟨S3x300000x128, .f32⟩
  | 51 => ⟨S900000x128, .f32⟩
  | 52 => ⟨S900000, .i32⟩
  | 53 => ⟨S_, .f32⟩
  | 54 => ⟨S100000x128, .f32⟩
  | 55 => ⟨S900000x1, .i32⟩
  | 56 => ⟨S100000x128, .f32⟩
  | 57 => ⟨S100000x256, .f32⟩
  | 58 => ⟨S100000x384, .f32⟩
  | 59 => ⟨S1x384, .f32⟩
  | 60 => ⟨S384, .f32⟩
  | 61 => ⟨S1x384, .f32⟩
  | 62 => ⟨S100000x384, .f32⟩
  | 63 => ⟨S100000x384, .f32⟩
  | 64 => ⟨S100000x384, .f32⟩
  | 65 => ⟨S1x384, .f32⟩
  | 66 => ⟨S384, .f32⟩
  | 67 => ⟨S1x384, .f32⟩
  | 68 => ⟨S100000x384, .f32⟩
  | 69 => ⟨S100000x384, .f32⟩
  | 70 => ⟨S100000x128, .f32⟩
  | 71 => ⟨S100000x128, .f32⟩
  | 72 => ⟨S100000x128, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S100000x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S100000x128, .f32⟩
  | _ => ⟨S200000, .i32⟩

abbrev hbmTy (i : Nat) : BufTy := match i / 128 with
  | 0 => hbmTy0_0 i
  | 1 => hbmTy0_1 i
  | _ => ⟨S200000, .i32⟩

abbrev bufTy : (tb : Table) → Fin (tcTables nBuf tb) → BufTy
  | .hbm, ⟨i, _⟩ => hbmTy i
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_8 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_9 : Ref sig .tc := ⟨.hbm, 94, rfl⟩
abbrev main_v70 : Ref sig .tc := ⟨.hbm, 95, rfl⟩
abbrev main_v71 : Ref sig .tc := ⟨.hbm, 96, rfl⟩
abbrev main_c_10 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_11 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_12 : Ref sig .tc := ⟨.hbm, 138, rfl⟩
abbrev main_v111 : Ref sig .tc := ⟨.hbm, 139, rfl⟩
abbrev main_v112 : Ref sig .tc := ⟨.hbm, 140, rfl⟩
abbrev main_cst_13 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_14 : Ref sig .tc := ⟨.hbm, 147, rfl⟩
abbrev main_v118 : Ref sig .tc := ⟨.hbm, 148, rfl⟩
abbrev main_v119 : Ref sig .tc := ⟨.hbm, 149, rfl⟩
abbrev main_cst_15 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_16 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_c_17 : Ref sig .tc := ⟨.hbm, 162, rfl⟩
abbrev main_v130 : Ref sig .tc := ⟨.hbm, 163, rfl⟩
abbrev main_v131 : Ref sig .tc := ⟨.hbm, 164, rfl⟩
abbrev main_c_18 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_19 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_cst_20 : Ref sig .tc := ⟨.hbm, 207, rfl⟩
abbrev main_v172 : Ref sig .tc := ⟨.hbm, 208, rfl⟩
abbrev main_v173 : Ref sig .tc := ⟨.hbm, 209, rfl⟩
abbrev main_cst_21 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_cst_22 : Ref sig .tc := ⟨.hbm, 216, rfl⟩
abbrev main_v179 : Ref sig .tc := ⟨.hbm, 217, rfl⟩
abbrev main_v180 : Ref sig .tc := ⟨.hbm, 218, rfl⟩
abbrev main_cst_23 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_cst_24 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S100000x128 : S_.BroadcastsInDim S100000x128 (![] : Fin 0 → Fin S100000x128.rank)
  bcast_S_S3x300000 : S_.BroadcastsInDim S3x300000 (![] : Fin 0 → Fin S3x300000.rank)
  bcast_S3x300000_S3x300000x1_0_1 : S3x300000.BroadcastsInDim S3x300000x1 (![0, 1] : Fin 2 → Fin S3x300000x1.rank)
  slices_S2x3x128x128_S1x3x128x128_0_0_0_0 : S2x3x128x128.Slices ![0, 0, 0, 0] S1x3x128x128
  shapeCasts_S1x3x128x128_S3x128x128 : S1x3x128x128.ShapeCasts S3x128x128
  slices_S2x3x128_S1x3x128_0_0_0 : S2x3x128.Slices ![0, 0, 0] S1x3x128
  shapeCasts_S1x3x128_S3x128 : S1x3x128.ShapeCasts S3x128
  bcast_S3x128_S3x1x128_0_2 : S3x128.BroadcastsInDim S3x1x128 (![0, 2] : Fin 2 → Fin S3x1x128.rank)
  bcast_S3x1x128_S3x300000x128_0_1_2 : S3x1x128.BroadcastsInDim S3x300000x128 (![0, 1, 2] : Fin 3 → Fin S3x300000x128.rank)
  shapeCasts_S3x300000x128_S900000x128 : S3x300000x128.ShapeCasts S900000x128
  shapeCasts_S3x300000_S900000 : S3x300000.ShapeCasts S900000
  bcast_S900000_S900000x1_0 : S900000.BroadcastsInDim S900000x1 (![0] : Fin 1 → Fin S900000x1.rank)
  slices_S2x384_S1x384_0_0 : S2x384.Slices ![0, 0] S1x384
  shapeCasts_S1x384_S384 : S1x384.ShapeCasts S384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S2x384_S1x384_1_0 : S2x384.Slices ![1, 0] S1x384
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S2x3x128x128_S1x3x128x128_1_0_0_0 : S2x3x128x128.Slices ![1, 0, 0, 0] S1x3x128x128
  slices_S2x3x128_S1x3x128_1_0_0 : S2x3x128.Slices ![1, 0, 0] S1x3x128
  concatenates_S100000x128_S100000x128_S100000x256_d1 : Shape.Concatenates [S100000x128, S100000x128] S100000x256 1
  gather_S10000x128_S200000x1_S200000x128_1_0_n_n_0_1_1128_wf : GatherDims.WF S10000x128 S200000x1 S200000x128 [1] [0] [] [0] [] 1 ![1, 128]
  scatter_S100000x128_S200000x1_S200000x128_1_0_0_1_wf : ScatterDims.WF S100000x128 S200000x1 S200000x128 [1] [0] [0] 1
  gather_S100000x128_S3x300000x1_S3x300000x128_2_0_n_n_0_2_1128_wf : GatherDims.WF S100000x128 S3x300000x1 S3x300000x128 [2] [0] [] [0] [] 2 ![1, 128]
  dot_S3x300000x128_S3x128x128_S3x300000x128_2_1_1_2_0_0_wf : DotDims.WF S3x300000x128 S3x128x128 S3x300000x128 [2] [1] [1] [2] [0] [0]
  scatter_S100000x128_S900000x1_S900000x128_1_0_0_1_wf : ScatterDims.WF S100000x128 S900000x1 S900000x128 [1] [0] [0] 1
  dot_S100000x128_S128x384_S100000x384_1_0_0_1_n_n_wf : DotDims.WF S100000x128 S128x384 S100000x384 [1] [0] [0] [1] [] []
  dot_S100000x256_S256x384_S100000x384_1_0_0_1_n_n_wf : DotDims.WF S100000x256 S256x384 S100000x384 [1] [0] [0] [1] [] []

variable [Facts₀]

def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def gather_S100000x128_S3x300000x1_S3x300000x128_2_0_n_n_0_2_1128 : GatherDims S100000x128 S3x300000x1 S3x300000x128 where
  offsetDims := [2]
  collapsedSliceDims := [0]
  operandBatchingDims := []
  startIndicesBatchingDims := []
  startIndexMap := [0]
  indexVectorDim := 2
  sliceSizes := ![1, 128]
  wf := gather_S100000x128_S3x300000x1_S3x300000x128_2_0_n_n_0_2_1128_wf
def dot_S3x300000x128_S3x128x128_S3x300000x128_2_1_1_2_0_0 : DotDims S3x300000x128 S3x128x128 S3x300000x128 where
  lhsContracting := [2]
  rhsContracting := [1]
  lhsNonContracting := [1]
  rhsNonContracting := [2]
  lhsBatch := [0]
  rhsBatch := [0]
  wf := dot_S3x300000x128_S3x128x128_S3x300000x128_2_1_1_2_0_0_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def dot_S100000x256_S256x384_S100000x384_1_0_0_1_n_n : DotDims S100000x256 S256x384 S100000x384 where
  lhsContracting := [1]
  rhsContracting := [0]
  lhsNonContracting := [0]
  rhsNonContracting := [1]
  lhsBatch := []
  rhsBatch := []
  wf := dot_S100000x256_S256x384_S100000x384_1_0_0_1_n_n_wf

class Facts : Prop extends Facts₀ where

variable [Facts]
-- ==== Proof.Spec.lean ====
/-
  The mathematics both programs compute, stated once, index by index, over the exact extended reals.

  A message-passing layer sends along every edge of type t the source node's state through that type's
  weight matrix and adds the type's bias:  msg[t,e,d] = Σ_k src[t,e,k] · W[t,k,d] + B[t,d].
  A gated recurrent cell with the reset gate applied after the recurrent product takes the aggregated messages x
  and the state h to   z·h + (1 − z)·tanh(xh + r·rh),   z = σ(xz + rz),  r = σ(xr + rr),
  where (xz | xr | xh) = x·K + b₀ and (rz | rr | rh) = h·R + b₁ are the three 128-column bands of two affine maps
  into 384 columns, and σ(u) = 1 / (1 + e^(−u)).
-/
import Idealize.ShloMosaic.Lib.ValueIdx
import Idealize.ShloMosaic.PureOps.Ideal

noncomputable section

namespace Cert.Gnn

open Idealize.ShloMosaic Idealize.ShloMosaic.ValueIdx

/-- The message along edge `e` of type `t`, component `d`. -/
def msgAt (src : (⟨3, ![3, 300000, 128]⟩ : Shape).Idx → EReal) (W : (⟨3, ![3, 128, 128]⟩ : Shape).Idx → EReal)
    (B : (⟨2, ![3, 128]⟩ : Shape).Idx → EReal) (t : Fin 3) (e : Fin 300000) (d : Fin 128) : EReal :=
  (∑ k : Fin 128, src (ix3 t e k) * W (ix3 t k d)) + B (ix2 t d)

/-- All messages of a layer, as one array. -/
def msg (src : (⟨3, ![3, 300000, 128]⟩ : Shape).Idx → EReal) (W : (⟨3, ![3, 128, 128]⟩ : Shape).Idx → EReal)
    (B : (⟨2, ![3, 128]⟩ : Shape).Idx → EReal) : (⟨3, ![3, 300000, 128]⟩ : Shape).Idx → EReal :=
  fun i => msgAt src W B (i 0) (i 1) (i 2)

/-- A bias stack that carries a unit middle axis, read as the matrix it is. -/
def dropMid (b3 : (⟨3, ![3, 1, 128]⟩ : Shape).Idx → EReal) : (⟨2, ![3, 128]⟩ : Shape).Idx → EReal :=
  fun j => b3 (ix3 (j 0) (0 : Fin 1) (j 1))

theorem dropMid_ix2 (b3) (t : Fin 3) (d : Fin 128) : dropMid b3 (ix2 t d) = b3 (ix3 t (0 : Fin 1) d) := rfl

theorem msg_ix3 (src W B) (t : Fin 3) (e : Fin 300000) (d : Fin 128) :
    msg src W B (ix3 t e d) = msgAt src W B t e d := rfl

/-- Row `n`, column `j` of the affine map `x·K + b[row]` into 384 columns. -/
def lin {K : ℕ} (x : (⟨2, ![100000, K]⟩ : Shape).Idx → EReal) (k : (⟨2, ![K, 384]⟩ : Shape).Idx → EReal)
    (b : (⟨2, ![2, 384]⟩ : Shape).Idx → EReal) (row : Fin 2) (n : Fin 100000) (j : Fin 384) : EReal :=
  (∑ kk : Fin K, x (ix2 n kk) * k (ix2 kk j)) + b (ix2 row j)

/-- Column `c` of the band of 128 columns that starts at column `o`. -/
def col (o : ℕ) (ho : o + 128 ≤ 384) (c : Fin 128) : Fin 384 := ⟨o + c.val, by have := c.isLt; omega⟩

/-- The gated recurrent cell at node `n`, component `c`. -/
def gruAt {K : ℕ} (x : (⟨2, ![100000, K]⟩ : Shape).Idx → EReal) (k : (⟨2, ![K, 384]⟩ : Shape).Idx → EReal)
    (rk : (⟨2, ![128, 384]⟩ : Shape).Idx → EReal) (b : (⟨2, ![2, 384]⟩ : Shape).Idx → EReal)
    (h : (⟨2, ![100000, 128]⟩ : Shape).Idx → EReal) (n : Fin 100000) (c : Fin 128) : EReal :=
  Ideal.logistic (lin x k b 0 n (col 0 (by omega) c) + lin h rk b 1 n (col 0 (by omega) c)) * h (ix2 n c)
    + (1 - Ideal.logistic (lin x k b 0 n (col 0 (by omega) c) + lin h rk b 1 n (col 0 (by omega) c)))
      * Ideal.tanh (lin x k b 0 n (col 256 (by omega) c)
          + Ideal.logistic (lin x k b 0 n (col 128 (by omega) c) + lin h rk b 1 n (col 128 (by omega) c))
            * lin h rk b 1 n (col 256 (by omega) c))

/-- The new states of all nodes, as one array. -/
def gru {K : ℕ} (x : (⟨2, ![100000, K]⟩ : Shape).Idx → EReal) (k : (⟨2, ![K, 384]⟩ : Shape).Idx → EReal)
    (rk : (⟨2, ![128, 384]⟩ : Shape).Idx → EReal) (b : (⟨2, ![2, 384]⟩ : Shape).Idx → EReal)
    (h : (⟨2, ![100000, 128]⟩ : Shape).Idx → EReal) : (⟨2, ![100000, 128]⟩ : Shape).Idx → EReal :=
  fun i => gruAt x k rk b h (i 0) (i 1)

theorem gru_ix2 {K : ℕ} (x k rk b h) (n : Fin 100000) (c : Fin 128) :
    gru (K := K) x k rk b h (ix2 n c) = gruAt x k rk b h n c := rfl

/-- The single-precision pattern of one is the number one. -/
theorem ofBits_one_f32 : Ideal.ofBits .f32 0x3F800000#32 = 1 := by
  simp [Ideal.ofBits, Ideal.ieee, -EReal.coe_mul]; norm_num

/-- The sigmoid spelt with a quotient, as a host program writes it, is the logistic function. -/
theorem div_one_add_exp_neg (u : EReal) : Ideal.div 1 (1 + Ideal.exp (-u)) = Ideal.logistic u := rfl

end Cert.Gnn

end
-- ==== Proof.Net.lean ====
/-
  The whole network as one function of the thirteen argument arrays.

  Node states start as the pooled token embeddings; a message-passing step gathers the states of every edge's
  source node, sends them through the edge type's affine map (`Cert.Gnn.msg`), sums the messages arriving at
  each node, and updates the states with a gated recurrent cell (`Cert.Gnn.gru`). Two steps share the first layer's
  parameters; the third step uses the second layer's, and its cell sees the initial states joined to the summed
  messages. The gathers, the sums over incoming edges and the joins are the host's own operations, kept as they are.
-/
import proofs.«114658_j8254927143009_2_alg».proof.Proof.Gen.ReferenceIdeal
import proofs.«114658_j8254927143009_2_alg».proof.Proof.Spec

noncomputable section

namespace Cert.Gnn

open Cert.ReferenceIdeal Cert.ReferenceIdeal.Gen Idealize.ShloMosaic

/-- The initial node states: every token's embedding row, summed into its node's slot. -/
def embed (a0 a1 : IVec S200000 32) (a4 : FVec Ideal S10000x128 .f32) : FVec Ideal S100000x128 .f32 :=
  Host.scatterAdd scatter_S100000x128_S200000x1_S200000x128_1_0_0_1 (broadcastInDim S100000x128 ![] bcast_S_S100000x128 (constant S_ .f32 0x00000000#32)) (broadcastInDim S200000x1 ![0] bcast_S200000_S200000x1_0 a1) (Host.gather gather_S10000x128_S200000x1_S200000x128_1_0_n_n_0_1_1128 a4 (broadcastInDim S200000x1 ![0] bcast_S200000_S200000x1_0 (select (cmpi .slt a0 (broadcastInDim S200000 ![] bcast_S_S200000 (constantI S_ 32 0#32))) (addi a0 (broadcastInDim S200000 ![] bcast_S_S200000 (constantI S_ 32 10000#32))) a0)))

/-- The state of every edge's source node. -/
def srcOf (S : FVec Ideal S100000x128 .f32) (a2 : IVec S3x300000 32) : FVec Ideal S3x300000x128 .f32 :=
  Host.gather gather_S100000x128_S3x300000x1_S3x300000x128_2_0_n_n_0_2_1128 S (broadcastInDim S3x300000x1 ![0, 1] bcast_S3x300000_S3x300000x1_0_1 (select (cmpi .slt a2 (broadcastInDim S3x300000 ![] bcast_S_S3x300000 (constantI S_ 32 0#32))) (addi a2 (broadcastInDim S3x300000 ![] bcast_S_S3x300000 (constantI S_ 32 100000#32))) a2))

/-- The messages summed at each edge's target node. -/
def aggOf (M : FVec Ideal S3x300000x128 .f32) (a3 : IVec S3x300000 32) : FVec Ideal S100000x128 .f32 :=
  Host.scatterAdd scatter_S100000x128_S900000x1_S900000x128_1_0_0_1 (broadcastInDim S100000x128 ![] bcast_S_S100000x128 (constant S_ .f32 0x00000000#32)) (broadcastInDim S900000x1 ![0] bcast_S900000_S900000x1_0 (shapeCast _ a3 shapeCasts_S3x300000_S900000)) (shapeCast _ M shapeCasts_S3x300000x128_S900000x128)

/-- The first layer's per-type weight matrices and biases, and the second layer's. -/
def wts0 (a5 : FVec Ideal S2x3x128x128 .f32) : FVec Ideal S3x128x128 .f32 :=
  shapeCast _ (extractStridedSlice S1x3x128x128 ![0, 0, 0, 0] a5 slices_S2x3x128x128_S1x3x128x128_0_0_0_0) shapeCasts_S1x3x128x128_S3x128x128
def wts1 (a5 : FVec Ideal S2x3x128x128 .f32) : FVec Ideal S3x128x128 .f32 :=
  shapeCast _ (extractStridedSlice S1x3x128x128 ![1, 0, 0, 0] a5 slices_S2x3x128x128_S1x3x128x128_1_0_0_0) shapeCasts_S1x3x128x128_S3x128x128
def bias0 (a6 : FVec Ideal S2x3x128 .f32) : FVec Ideal S3x128 .f32 :=
  shapeCast _ (extractStridedSlice S1x3x128 ![0, 0, 0] a6 slices_S2x3x128_S1x3x128_0_0_0) shapeCasts_S1x3x128_S3x128
def bias1 (a6 : FVec Ideal S2x3x128 .f32) : FVec Ideal S3x128 .f32 :=
  shapeCast _ (extractStridedSlice S1x3x128 ![1, 0, 0] a6 slices_S2x3x128_S1x3x128_1_0_0) shapeCasts_S1x3x128_S3x128

/-- Two state arrays joined side by side. -/
def cat (a b : FVec Ideal S100000x128 .f32) : FVec Ideal S100000x256 .f32 :=
  concatenate S100000x256 1 [⟨S100000x128, a⟩, ⟨S100000x128, b⟩] concatenates_S100000x128_S100000x128_S100000x256_d1

/-- What the nodes receive in one step: the messages of all edges, summed per target node. -/
def recv (S : FVec Ideal S100000x128 .f32) (a2 a3 : IVec S3x300000 32) (W : FVec Ideal S3x128x128 .f32) (B : FVec Ideal S3x128 .f32) :
    FVec Ideal S100000x128 .f32 :=
  aggOf (msg (srcOf S a2) W B) a3

/-- One step of the first layer. -/
def step (S : FVec Ideal S100000x128 .f32) (a2 a3 : IVec S3x300000 32) (W : FVec Ideal S3x128x128 .f32) (B : FVec Ideal S3x128 .f32)
    (k rk : FVec Ideal S128x384 .f32) (b : FVec Ideal S2x384 .f32) : FVec Ideal S100000x128 .f32 :=
  gru (recv S a2 a3 W B) k rk b S

/-- The network: two steps of the first layer, one of the second, whose cell also sees the initial states. -/
def net (a0 a1 : IVec S200000 32) (a2 a3 : IVec S3x300000 32) (a4 : FVec Ideal S10000x128 .f32) (a5 : FVec Ideal S2x3x128x128 .f32)
    (a6 : FVec Ideal S2x3x128 .f32) (a7 a8 : FVec Ideal S128x384 .f32) (a9 : FVec Ideal S2x384 .f32) (a10 : FVec Ideal S256x384 .f32)
    (a11 : FVec Ideal S128x384 .f32) (a12 : FVec Ideal S2x384 .f32) : FVec Ideal S100000x128 .f32 :=
  gru (cat (embed a0 a1 a4)
        (recv (step (step (embed a0 a1 a4) a2 a3 (wts0 a5) (bias0 a6) a7 a8 a9) a2 a3 (wts0 a5) (bias0 a6) a7 a8 a9) a2 a3 (wts1 a5) (bias1 a6)))
    a10 a11 a12
    (step (step (embed a0 a1 a4) a2 a3 (wts0 a5) (bias0 a6) a7 a8 a9) a2 a3 (wts0 a5) (bias0 a6) a7 a8 a9)

end Cert.Gnn

end
-- ==== Proof.KernelRun.lean ====
/-
  The idealized kernel's run, read: which array each stretch of host operations and each pallas region
  leaves in every buffer the next one reads, from the launch memory to the returned array.
-/
import proofs.«114658_j8254927143009_2_alg».proof.Proof.Gen.KernelIdeal.Frame
import proofs.«114658_j8254927143009_2_alg».proof.Proof.Net

set_option maxRecDepth 16384

noncomputable section

namespace Cert.KernelIdeal.NetValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the idealized kernel terminates without a fault; the returned buffer then holds
    what the last region's write-backs leave in it, and the thirteen argument arrays are as launched. -/
theorem run_last : θ_run defs (onTc (τ := τ) (main (F := Ideal))) ⟨m, fun _ => 0, ρ⟩ (fun r => ∀ c : Dev nD,
      r.2.mem ((c.tc : Thread nD τ).loc main_v68) = W12 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v68 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.NetValue

end
-- ==== Proof.KernelFold.lean ====
/-
  What each stretch of host operations of the idealized kernel leaves in the buffers the regions read, and what every
  stretch and every region leaves untouched: the buffer contents at each boundary of the run, as functions of the
  launch memory.
-/
import proofs.«114658_j8254927143009_2_alg».proof.Proof.Gen.KernelIdeal.Frame
import proofs.«114658_j8254927143009_2_alg».proof.Proof.Net
import Idealize.ShloMosaic.Lib.Pipeline.Value
import Idealize.ShloMosaic.Lib.ValueIdx

set_option maxRecDepth 16384

noncomputable section

namespace Cert.KernelIdeal.NetValue

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## What a stretch of host operations leaves alone -/

/-- The buffers the first stretch of host operations writes. -/
abbrev H0W : List (Ref sig .tc) := [main_c, main_v0, main_v1, main_c_0, main_v2, main_v3, main_v4, main_v5, main_v6, main_cst, main_v7, main_v8, main_v9, main_v10, main_v11, main_v12, main_v13, main_v14, main_c_1, main_v15, main_v16, main_c_2, main_v17, main_v18, main_v19, main_v20, main_v21, main_v22, main_v23]
theorem H0_writes : (hostOps0 : List (HloOp τ sig (Elt Ideal))).Forall fun op => op.writes ⊆ (H0W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch does not write keeps its contents through it. -/
theorem keepH0 (W : Valuation τ sig (Elt Ideal)) (r : Ref sig .tc) (h : r ∉ H0W) :
    StableHlo.after hostOps0 W (Proc.devRef .tc r) = W (Proc.devRef .tc r) :=
  after_of_writes_sub hostOps0 W H0_writes h

/-- The buffers the second stretch of host operations writes. -/
abbrev H1W : List (Ref sig .tc) := [main_v25, main_v26, main_cst_3, main_v27, main_v28, main_v29]
theorem H1_writes : (hostOps1 : List (HloOp τ sig (Elt Ideal))).Forall fun op => op.writes ⊆ (H1W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch does not write keeps its contents through it. -/
theorem keepH1 (W : Valuation τ sig (Elt Ideal)) (r : Ref sig .tc) (h : r ∉ H1W) :
    StableHlo.after hostOps1 W (Proc.devRef .tc r) = W (Proc.devRef .tc r) :=
  after_of_writes_sub hostOps1 W H1_writes h

/-- The buffers the third stretch of host operations writes. -/
abbrev H2W : List (Ref sig .tc) := [main_c_4, main_v31, main_v32, main_c_5, main_v33, main_v34, main_v35, main_v36, main_v37, main_v38, main_v39]
theorem H2_writes : (hostOps2 : List (HloOp τ sig (Elt Ideal))).Forall fun op => op.writes ⊆ (H2W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch does not write keeps its contents through it. -/
theorem keepH2 (W : Valuation τ sig (Elt Ideal)) (r : Ref sig .tc) (h : r ∉ H2W) :
    StableHlo.after hostOps2 W (Proc.devRef .tc r) = W (Proc.devRef .tc r) :=
  after_of_writes_sub hostOps2 W H2_writes h

/-- The buffers the fourth stretch of host operations writes. -/
abbrev H3W : List (Ref sig .tc) := [main_v41, main_v42, main_cst_6, main_v43, main_v44, main_v45]
theorem H3_writes : (hostOps3 : List (HloOp τ sig (Elt Ideal))).Forall fun op => op.writes ⊆ (H3W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch does not write keeps its contents through it. -/
theorem keepH3 (W : Valuation τ sig (Elt Ideal)) (r : Ref sig .tc) (h : r ∉ H3W) :
    StableHlo.after hostOps3 W (Proc.devRef .tc r) = W (Proc.devRef .tc r) :=
  after_of_writes_sub hostOps3 W H3_writes h

/-- The buffers the fifth stretch of host operations writes. -/
abbrev H4W : List (Ref sig .tc) := [main_v47, main_v48, main_v49, main_v50, main_v51, main_c_7, main_v52, main_v53, main_c_8, main_v54, main_v55, main_v56, main_v57, main_v58, main_v59, main_v60]
theorem H4_writes : (hostOps4 : List (HloOp τ sig (Elt Ideal))).Forall fun op => op.writes ⊆ (H4W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch does not write keeps its contents through it. -/
theorem keepH4 (W : Valuation τ sig (Elt Ideal)) (r : Ref sig .tc) (h : r ∉ H4W) :
    StableHlo.after hostOps4 W (Proc.devRef .tc r) = W (Proc.devRef .tc r) :=
  after_of_writes_sub hostOps4 W H4_writes h

/-- The buffers the sixth stretch of host operations writes. -/
abbrev H5W : List (Ref sig .tc) := [main_v62, main_v63, main_cst_9, main_v64, main_v65, main_v66, main_v67]
theorem H5_writes : (hostOps5 : List (HloOp τ sig (Elt Ideal))).Forall fun op => op.writes ⊆ (H5W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch does not write keeps its contents through it. -/
theorem keepH5 (W : Valuation τ sig (Elt Ideal)) (r : Ref sig .tc) (h : r ∉ H5W) :
    StableHlo.after hostOps5 W (Proc.devRef .tc r) = W (Proc.devRef .tc r) :=
  after_of_writes_sub hostOps5 W H5_writes h

/-! ## What a region leaves alone: every buffer but its output array (an input array ends as it was entered) -/

theorem regKeep0 (c : Dev nD) (r : Ref sig .tc) (hr : r ≠ main_v24) :
    W2 m ρ c (Proc.devRef .tc r) = W1 m ρ c (Proc.devRef .tc r) := by
  by_cases h0 : r = main_v22
  · subst h0; exact (W2_arr m ρ c 0).trans (((dat0 (V1 m ρ) c).arrAt_in 0 rfl _).trans (A_eq0 (V1 m ρ) c 0))
  by_cases h1 : r = main_v12
  · subst h1; exact (W2_arr m ρ c 1).trans (((dat0 (V1 m ρ) c).arrAt_in 1 rfl _).trans (A_eq0 (V1 m ρ) c 1))
  by_cases h2 : r = main_v23
  · subst h2; exact (W2_arr m ρ c 2).trans (((dat0 (V1 m ρ) c).arrAt_in 2 rfl _).trans (A_eq0 (V1 m ρ) c 2))
  refine W2_of_ne m ρ c r fun w => ?_
  fin_cases w
  · exact fun e => h0 e.symm
  · exact fun e => h1 e.symm
  · exact fun e => h2 e.symm
  · exact fun e => hr e.symm

theorem regKeep1 (c : Dev nD) (r : Ref sig .tc) (hr : r ≠ main_v30) :
    W4 m ρ c (Proc.devRef .tc r) = W3 m ρ c (Proc.devRef .tc r) := by
  by_cases h0 : r = main_v29
  · subst h0; exact (W4_arr m ρ c 0).trans (((dat1 (V3 m ρ) c).arrAt_in 0 rfl _).trans (A_eq1 (V3 m ρ) c 0))
  by_cases h1 : r = main_v9
  · subst h1; exact (W4_arr m ρ c 1).trans (((dat1 (V3 m ρ) c).arrAt_in 1 rfl _).trans (A_eq1 (V3 m ρ) c 1))
  by_cases h2 : r = main_arg7
  · subst h2; exact (W4_arr m ρ c 2).trans (((dat1 (V3 m ρ) c).arrAt_in 2 rfl _).trans (A_eq1 (V3 m ρ) c 2))
  by_cases h3 : r = main_arg8
  · subst h3; exact (W4_arr m ρ c 3).trans (((dat1 (V3 m ρ) c).arrAt_in 3 rfl _).trans (A_eq1 (V3 m ρ) c 3))
  by_cases h4 : r = main_arg9
  · subst h4; exact (W4_arr m ρ c 4).trans (((dat1 (V3 m ρ) c).arrAt_in 4 rfl _).trans (A_eq1 (V3 m ρ) c 4))
  refine W4_of_ne m ρ c r fun w => ?_
  fin_cases w
  · exact fun e => h0 e.symm
  · exact fun e => h1 e.symm
  · exact fun e => h2 e.symm
  · exact fun e => h3 e.symm
  · exact fun e => h4 e.symm
  · exact fun e => hr e.symm

theorem regKeep2 (c : Dev nD) (r : Ref sig .tc) (hr : r ≠ main_v40) :
    W6 m ρ c (Proc.devRef .tc r) = W5 m ρ c (Proc.devRef .tc r) := by
  by_cases h0 : r = main_v38
  · subst h0; exact (W6_arr m ρ c 0).trans (((dat2 (V5 m ρ) c).arrAt_in 0 rfl _).trans (A_eq2 (V5 m ρ) c 0))
  by_cases h1 : r = main_v12
  · subst h1; exact (W6_arr m ρ c 1).trans (((dat2 (V5 m ρ) c).arrAt_in 1 rfl _).trans (A_eq2 (V5 m ρ) c 1))
  by_cases h2 : r = main_v39
  · subst h2; exact (W6_arr m ρ c 2).trans (((dat2 (V5 m ρ) c).arrAt_in 2 rfl _).trans (A_eq2 (V5 m ρ) c 2))
  refine W6_of_ne m ρ c r fun w => ?_
  fin_cases w
  · exact fun e => h0 e.symm
  · exact fun e => h1 e.symm
  · exact fun e => h2 e.symm
  · exact fun e => hr e.symm

theorem regKeep3 (c : Dev nD) (r : Ref sig .tc) (hr : r ≠ main_v46) :
    W8 m ρ c (Proc.devRef .tc r) = W7 m ρ c (Proc.devRef .tc r) := by
  by_cases h0 : r = main_v45
  · subst h0; exact (W8_arr m ρ c 0).trans (((dat3 (V7 m ρ) c).arrAt_in 0 rfl _).trans (A_eq3 (V7 m ρ) c 0))
  by_cases h1 : r = main_v30
  · subst h1; exact (W8_arr m ρ c 1).trans (((dat3 (V7 m ρ) c).arrAt_in 1 rfl _).trans (A_eq3 (V7 m ρ) c 1))
  by_cases h2 : r = main_arg7
  · subst h2; exact (W8_arr m ρ c 2).trans (((dat3 (V7 m ρ) c).arrAt_in 2 rfl _).trans (A_eq3 (V7 m ρ) c 2))
  by_cases h3 : r = main_arg8
  · subst h3; exact (W8_arr m ρ c 3).trans (((dat3 (V7 m ρ) c).arrAt_in 3 rfl _).trans (A_eq3 (V7 m ρ) c 3))
  by_cases h4 : r = main_arg9
  · subst h4; exact (W8_arr m ρ c 4).trans (((dat3 (V7 m ρ) c).arrAt_in 4 rfl _).trans (A_eq3 (V7 m ρ) c 4))
  refine W8_of_ne m ρ c r fun w => ?_
  fin_cases w
  · exact fun e => h0 e.symm
  · exact fun e => h1 e.symm
  · exact fun e => h2 e.symm
  · exact fun e => h3 e.symm
  · exact fun e => h4 e.symm
  · exact fun e => hr e.symm

theorem regKeep4 (c : Dev nD) (r : Ref sig .tc) (hr : r ≠ main_v61) :
    W10 m ρ c (Proc.devRef .tc r) = W9 m ρ c (Proc.devRef .tc r) := by
  by_cases h0 : r = main_v59
  · subst h0; exact (W10_arr m ρ c 0).trans (((dat4 (V9 m ρ) c).arrAt_in 0 rfl _).trans (A_eq4 (V9 m ρ) c 0))
  by_cases h1 : r = main_v49
  · subst h1; exact (W10_arr m ρ c 1).trans (((dat4 (V9 m ρ) c).arrAt_in 1 rfl _).trans (A_eq4 (V9 m ρ) c 1))
  by_cases h2 : r = main_v60
  · subst h2; exact (W10_arr m ρ c 2).trans (((dat4 (V9 m ρ) c).arrAt_in 2 rfl _).trans (A_eq4 (V9 m ρ) c 2))
  refine W10_of_ne m ρ c r fun w => ?_
  fin_cases w
  · exact fun e => h0 e.symm
  · exact fun e => h1 e.symm
  · exact fun e => h2 e.symm
  · exact fun e => hr e.symm

/-! ## The argument arrays at every boundary: nothing writes them -/

/-- Every buffer some stretch of host operations writes, and every region's output array. -/
abbrev AllW : List (Ref sig .tc) :=
  H0W ++ (H1W ++ (H2W ++ (H3W ++ (H4W ++ (H5W ++ [main_v24, main_v30, main_v40, main_v46, main_v61, main_v68])))))

theorem at1 (c : Dev nD) (r : Ref sig .tc) (h : r ∉ AllW) : W1 m ρ c (Proc.devRef .tc r) = m ((c : Thread nD τ).loc r) :=
  keepH0 (W0 m ρ c) r fun hm => h (by simp only [AllW, List.mem_append]; exact Or.inl hm)
theorem at2 (c : Dev nD) (r : Ref sig .tc) (h : r ∉ AllW) : W2 m ρ c (Proc.devRef .tc r) = m ((c : Thread nD τ).loc r) :=
  (regKeep0 m ρ c r fun e => h (by subst e; decide)).trans (at1 m ρ c r h)
theorem at3 (c : Dev nD) (r : Ref sig .tc) (h : r ∉ AllW) : W3 m ρ c (Proc.devRef .tc r) = m ((c : Thread nD τ).loc r) :=
  (keepH1 (W2 m ρ c) r fun hm => h (by simp only [AllW, List.mem_append]; exact Or.inr (Or.inl hm))).trans (at2 m ρ c r h)
theorem at4 (c : Dev nD) (r : Ref sig .tc) (h : r ∉ AllW) : W4 m ρ c (Proc.devRef .tc r) = m ((c : Thread nD τ).loc r) :=
  (regKeep1 m ρ c r fun e => h (by subst e; decide)).trans (at3 m ρ c r h)
theorem at5 (c : Dev nD) (r : Ref sig .tc) (h : r ∉ AllW) : W5 m ρ c (Proc.devRef .tc r) = m ((c : Thread nD τ).loc r) :=
  (keepH2 (W4 m ρ c) r fun hm => h (by simp only [AllW, List.mem_append]; exact Or.inr (Or.inr (Or.inl hm)))).trans (at4 m ρ c r h)
theorem at6 (c : Dev nD) (r : Ref sig .tc) (h : r ∉ AllW) : W6 m ρ c (Proc.devRef .tc r) = m ((c : Thread nD τ).loc r) :=
  (regKeep2 m ρ c r fun e => h (by subst e; decide)).trans (at5 m ρ c r h)
theorem at7 (c : Dev nD) (r : Ref sig .tc) (h : r ∉ AllW) : W7 m ρ c (Proc.devRef .tc r) = m ((c : Thread nD τ).loc r) :=
  (keepH3 (W6 m ρ c) r fun hm => h (by simp only [AllW, List.mem_append]; exact Or.inr (Or.inr (Or.inr (Or.inl hm))))).trans (at6 m ρ c r h)
theorem at8 (c : Dev nD) (r : Ref sig .tc) (h : r ∉ AllW) : W8 m ρ c (Proc.devRef .tc r) = m ((c : Thread nD τ).loc r) :=
  (regKeep3 m ρ c r fun e => h (by subst e; decide)).trans (at7 m ρ c r h)
theorem at9 (c : Dev nD) (r : Ref sig .tc) (h : r ∉ AllW) : W9 m ρ c (Proc.devRef .tc r) = m ((c : Thread nD τ).loc r) :=
  (keepH4 (W8 m ρ c) r fun hm => h (by simp only [AllW, List.mem_append]; exact Or.inr (Or.inr (Or.inr (Or.inr (Or.inl hm)))))).trans (at8 m ρ c r h)
theorem at10 (c : Dev nD) (r : Ref sig .tc) (h : r ∉ AllW) : W10 m ρ c (Proc.devRef .tc r) = m ((c : Thread nD τ).loc r) :=
  (regKeep4 m ρ c r fun e => h (by subst e; decide)).trans (at9 m ρ c r h)
theorem at11 (c : Dev nD) (r : Ref sig .tc) (h : r ∉ AllW) : W11 m ρ c (Proc.devRef .tc r) = m ((c : Thread nD τ).loc r) :=
  (keepH5 (W10 m ρ c) r fun hm => h (by simp only [AllW, List.mem_append]; exact Or.inr (Or.inr (Or.inr (Or.inr (Or.inr (Or.inl hm))))))).trans (at10 m ρ c r h)

/-! ## The node states and messages along the run -/

/-- The initial node states, and the states after one and after two steps of the first layer. -/
def st0 (c : Dev nD) : FVec Ideal Cert.ReferenceIdeal.S100000x128 .f32 := Cert.Gnn.embed (m ((c : Thread nD τ).loc main_arg0)) (m ((c : Thread nD τ).loc main_arg1)) (m ((c : Thread nD τ).loc main_arg4))
def st1 (c : Dev nD) : FVec Ideal Cert.ReferenceIdeal.S100000x128 .f32 :=
  Cert.Gnn.step (st0 m c) (m ((c : Thread nD τ).loc main_arg2)) (m ((c : Thread nD τ).loc main_arg3)) (Cert.Gnn.wts0 (m ((c : Thread nD τ).loc main_arg5))) (Cert.Gnn.bias0 (m ((c : Thread nD τ).loc main_arg6))) (m ((c : Thread nD τ).loc main_arg7)) (m ((c : Thread nD τ).loc main_arg8)) (m ((c : Thread nD τ).loc main_arg9))
def st2 (c : Dev nD) : FVec Ideal Cert.ReferenceIdeal.S100000x128 .f32 :=
  Cert.Gnn.step (st1 m c) (m ((c : Thread nD τ).loc main_arg2)) (m ((c : Thread nD τ).loc main_arg3)) (Cert.Gnn.wts0 (m ((c : Thread nD τ).loc main_arg5))) (Cert.Gnn.bias0 (m ((c : Thread nD τ).loc main_arg6))) (m ((c : Thread nD τ).loc main_arg7)) (m ((c : Thread nD τ).loc main_arg8)) (m ((c : Thread nD τ).loc main_arg9))

/-- A bias matrix given a unit middle axis and read back without it is itself. -/
theorem dropMid_shapeCast (B : FVec Ideal Cert.ReferenceIdeal.S3x128 .f32) (h : Shape.ShapeCasts S3x128 S3x1x128) :
    Cert.Gnn.dropMid (shapeCast S3x1x128 B h) = B := by
  funext j
  obtain ⟨t, d, rfl⟩ : ∃ (t : Fin 3) (d : Fin 128), j = ValueIdx.ix2 t d := ⟨j 0, j 1, ValueIdx.eq_ix2 j⟩
  rw [Cert.Gnn.dropMid_ix2]
  refine shapeCast_apply B h (ValueIdx.ix3 t (0 : Fin 1) d) (ValueIdx.ix2 t d) ?_
  rw [Shape.rowMajor_val_two, Shape.rowMajor_val_three]
  show t.val * 128 + d.val = (t.val * 1 + 0) * 128 + d.val
  omega

/-! ### The first stretch: the pooled embeddings, the first layer's parameters, the first gather -/

set_option maxHeartbeats 1000000 in
theorem W1_v9 (c : Dev nD) : W1 m ρ c (Proc.devRef .tc main_v9) = st0 m c := by
  show StableHlo.after hostOps0 (W0 m ρ c) (Proc.devRef .tc main_v9) = _
  simp only [hostOps0]
  after_results_simp
  rfl
set_option maxHeartbeats 1000000 in
theorem W1_v12 (c : Dev nD) : W1 m ρ c (Proc.devRef .tc main_v12) = Cert.Gnn.wts0 (m ((c : Thread nD τ).loc main_arg5)) := by
  show StableHlo.after hostOps0 (W0 m ρ c) (Proc.devRef .tc main_v12) = _
  simp only [hostOps0]
  after_results_simp
  rfl
set_option maxHeartbeats 1000000 in
theorem W1_v14 (c : Dev nD) : W1 m ρ c (Proc.devRef .tc main_v14) = Cert.Gnn.bias0 (m ((c : Thread nD τ).loc main_arg6)) := by
  show StableHlo.after hostOps0 (W0 m ρ c) (Proc.devRef .tc main_v14) = _
  simp only [hostOps0]
  after_results_simp
  rfl
set_option maxHeartbeats 1000000 in
theorem W1_v22 (c : Dev nD) : W1 m ρ c (Proc.devRef .tc main_v22) = Cert.Gnn.srcOf (st0 m c) (m ((c : Thread nD τ).loc main_arg2)) := by
  show StableHlo.after hostOps0 (W0 m ρ c) (Proc.devRef .tc main_v22) = _
  simp only [hostOps0]
  after_results_simp
  rfl
set_option maxHeartbeats 1000000 in
theorem W1_v23 (c : Dev nD) : W1 m ρ c (Proc.devRef .tc main_v23) = shapeCast S3x1x128 (Cert.Gnn.bias0 (m ((c : Thread nD τ).loc main_arg6))) shapeCasts_S3x128_S3x1x128 := by
  show StableHlo.after hostOps0 (W0 m ρ c) (Proc.devRef .tc main_v23) = _
  simp only [hostOps0]
  after_results_simp
  rfl

/-! ### What the six regions are assumed to compute (proved in the region modules) -/

def MsgFinal0 : Prop := ∀ (V : (c : Dev nD) → (b : Ref sig .tc) → Buf (Elt Ideal) ((c : Thread nD τ).loc b)) (c : Dev nD),
    (dat0 (F := Ideal) V c).arrAt 3 cfg0.N = Cert.Gnn.msg (V c (Pipeline.arrRef spec0 0)) (V c (Pipeline.arrRef spec0 1)) (Cert.Gnn.dropMid (V c (Pipeline.arrRef spec0 2)))
def MsgFinal2 : Prop := ∀ (V : (c : Dev nD) → (b : Ref sig .tc) → Buf (Elt Ideal) ((c : Thread nD τ).loc b)) (c : Dev nD),
    (dat2 (F := Ideal) V c).arrAt 3 cfg2.N = Cert.Gnn.msg (V c (Pipeline.arrRef spec2 0)) (V c (Pipeline.arrRef spec2 1)) (Cert.Gnn.dropMid (V c (Pipeline.arrRef spec2 2)))
def MsgFinal4 : Prop := ∀ (V : (c : Dev nD) → (b : Ref sig .tc) → Buf (Elt Ideal) ((c : Thread nD τ).loc b)) (c : Dev nD),
    (dat4 (F := Ideal) V c).arrAt 3 cfg4.N = Cert.Gnn.msg (V c (Pipeline.arrRef spec4 0)) (V c (Pipeline.arrRef spec4 1)) (Cert.Gnn.dropMid (V c (Pipeline.arrRef spec4 2)))
def GruFinal1 : Prop := ∀ (V : (c : Dev nD) → (b : Ref sig .tc) → Buf (Elt Ideal) ((c : Thread nD τ).loc b)) (c : Dev nD),
    (dat1 (F := Ideal) V c).arrAt 5 cfg1.N = Cert.Gnn.gru (V c (Pipeline.arrRef spec1 0)) (V c (Pipeline.arrRef spec1 2)) (V c (Pipeline.arrRef spec1 3)) (V c (Pipeline.arrRef spec1 4)) (V c (Pipeline.arrRef spec1 1))
def GruFinal3 : Prop := ∀ (V : (c : Dev nD) → (b : Ref sig .tc) → Buf (Elt Ideal) ((c : Thread nD τ).loc b)) (c : Dev nD),
    (dat3 (F := Ideal) V c).arrAt 5 cfg3.N = Cert.Gnn.gru (V c (Pipeline.arrRef spec3 0)) (V c (Pipeline.arrRef spec3 2)) (V c (Pipeline.arrRef spec3 3)) (V c (Pipeline.arrRef spec3 4)) (V c (Pipeline.arrRef spec3 1))
def GruFinal5 : Prop := ∀ (V : (c : Dev nD) → (b : Ref sig .tc) → Buf (Elt Ideal) ((c : Thread nD τ).loc b)) (c : Dev nD),
    (dat5 (F := Ideal) V c).arrAt 5 cfg5.N = Cert.Gnn.gru (V c (Pipeline.arrRef spec5 0)) (V c (Pipeline.arrRef spec5 2)) (V c (Pipeline.arrRef spec5 3)) (V c (Pipeline.arrRef spec5 4)) (V c (Pipeline.arrRef spec5 1))

/-! ### The first step -/

theorem W2_v24 (h0 : MsgFinal0) (c : Dev nD) : W2 m ρ c (Proc.devRef .tc main_v24)
    = Cert.Gnn.msg (Cert.Gnn.srcOf (st0 m c) (m ((c : Thread nD τ).loc main_arg2))) (Cert.Gnn.wts0 (m ((c : Thread nD τ).loc main_arg5))) (Cert.Gnn.bias0 (m ((c : Thread nD τ).loc main_arg6))) := by
  have e := h0 (V1 m ρ) c
  rw [show V1 m ρ c (Pipeline.arrRef spec0 0) = _ from W1_v22 m ρ c, show V1 m ρ c (Pipeline.arrRef spec0 1) = _ from W1_v12 m ρ c,
    show V1 m ρ c (Pipeline.arrRef spec0 2) = _ from W1_v23 m ρ c, dropMid_shapeCast] at e
  exact (W2_arr m ρ c 3).trans e

set_option maxHeartbeats 1000000 in
theorem W3_v29 (h0 : MsgFinal0) (c : Dev nD) : W3 m ρ c (Proc.devRef .tc main_v29)
    = Cert.Gnn.recv (st0 m c) (m ((c : Thread nD τ).loc main_arg2)) (m ((c : Thread nD τ).loc main_arg3)) (Cert.Gnn.wts0 (m ((c : Thread nD τ).loc main_arg5))) (Cert.Gnn.bias0 (m ((c : Thread nD τ).loc main_arg6))) := by
  have e : W3 m ρ c (Proc.devRef .tc main_v29) = Cert.Gnn.aggOf (W2 m ρ c (Proc.devRef .tc main_v24)) (W2 m ρ c (Proc.devRef .tc main_arg3)) := by
    show StableHlo.after hostOps1 (W2 m ρ c) (Proc.devRef .tc main_v29) = _
    simp only [hostOps1]
    after_results_simp
    rfl
  rw [e, W2_v24 m ρ h0 c, at2 m ρ c main_arg3 (by decide)]
  rfl

theorem W3_v9 (c : Dev nD) : W3 m ρ c (Proc.devRef .tc main_v9) = st0 m c :=
  (keepH1 (W2 m ρ c) main_v9 (by decide)).trans ((regKeep0 m ρ c main_v9 (by decide)).trans (W1_v9 m ρ c))

theorem W4_v30 (h0 : MsgFinal0) (h1 : GruFinal1) (c : Dev nD) : W4 m ρ c (Proc.devRef .tc main_v30) = st1 m c := by
  have e := h1 (V3 m ρ) c
  rw [show V3 m ρ c (Pipeline.arrRef spec1 0) = _ from W3_v29 m ρ h0 c, show V3 m ρ c (Pipeline.arrRef spec1 1) = _ from W3_v9 m ρ c,
    show V3 m ρ c (Pipeline.arrRef spec1 2) = _ from at3 m ρ c main_arg7 (by decide),
    show V3 m ρ c (Pipeline.arrRef spec1 3) = _ from at3 m ρ c main_arg8 (by decide),
    show V3 m ρ c (Pipeline.arrRef spec1 4) = _ from at3 m ρ c main_arg9 (by decide)] at e
  exact (W4_arr m ρ c 5).trans e

/-! ### The second step -/

theorem W4_v14 (c : Dev nD) : W4 m ρ c (Proc.devRef .tc main_v14) = Cert.Gnn.bias0 (m ((c : Thread nD τ).loc main_arg6)) :=
  (regKeep1 m ρ c main_v14 (by decide)).trans ((keepH1 (W2 m ρ c) main_v14 (by decide)).trans
    ((regKeep0 m ρ c main_v14 (by decide)).trans (W1_v14 m ρ c)))
theorem W5_v12 (c : Dev nD) : W5 m ρ c (Proc.devRef .tc main_v12) = Cert.Gnn.wts0 (m ((c : Thread nD τ).loc main_arg5)) :=
  (keepH2 (W4 m ρ c) main_v12 (by decide)).trans ((regKeep1 m ρ c main_v12 (by decide)).trans
    ((keepH1 (W2 m ρ c) main_v12 (by decide)).trans ((regKeep0 m ρ c main_v12 (by decide)).trans (W1_v12 m ρ c))))

set_option maxHeartbeats 1000000 in
theorem W5_v38 (h0 : MsgFinal0) (h1 : GruFinal1) (c : Dev nD) : W5 m ρ c (Proc.devRef .tc main_v38) = Cert.Gnn.srcOf (st1 m c) (m ((c : Thread nD τ).loc main_arg2)) := by
  have e : W5 m ρ c (Proc.devRef .tc main_v38) = Cert.Gnn.srcOf (W4 m ρ c (Proc.devRef .tc main_v30)) (W4 m ρ c (Proc.devRef .tc main_arg2)) := by
    show StableHlo.after hostOps2 (W4 m ρ c) (Proc.devRef .tc main_v38) = _
    simp only [hostOps2]
    after_results_simp
    rfl
  rw [e, W4_v30 m ρ h0 h1 c, at4 m ρ c main_arg2 (by decide)]
set_option maxHeartbeats 1000000 in
theorem W5_v39 (c : Dev nD) : W5 m ρ c (Proc.devRef .tc main_v39) = shapeCast S3x1x128 (Cert.Gnn.bias0 (m ((c : Thread nD τ).loc main_arg6))) shapeCasts_S3x128_S3x1x128 := by
  have e : W5 m ρ c (Proc.devRef .tc main_v39) = shapeCast S3x1x128 (W4 m ρ c (Proc.devRef .tc main_v14)) shapeCasts_S3x128_S3x1x128 := by
    show StableHlo.after hostOps2 (W4 m ρ c) (Proc.devRef .tc main_v39) = _
    simp only [hostOps2]
    after_results_simp
    rfl
  rw [e, W4_v14 m ρ c]

theorem W6_v40 (h0 : MsgFinal0) (h1 : GruFinal1) (h2 : MsgFinal2) (c : Dev nD) : W6 m ρ c (Proc.devRef .tc main_v40)
    = Cert.Gnn.msg (Cert.Gnn.srcOf (st1 m c) (m ((c : Thread nD τ).loc main_arg2))) (Cert.Gnn.wts0 (m ((c : Thread nD τ).loc main_arg5))) (Cert.Gnn.bias0 (m ((c : Thread nD τ).loc main_arg6))) := by
  have e := h2 (V5 m ρ) c
  rw [show V5 m ρ c (Pipeline.arrRef spec2 0) = _ from W5_v38 m ρ h0 h1 c, show V5 m ρ c (Pipeline.arrRef spec2 1) = _ from W5_v12 m ρ c,
    show V5 m ρ c (Pipeline.arrRef spec2 2) = _ from W5_v39 m ρ c, dropMid_shapeCast] at e
  exact (W6_arr m ρ c 3).trans e

set_option maxHeartbeats 1000000 in
theorem W7_v45 (h0 : MsgFinal0) (h1 : GruFinal1) (h2 : MsgFinal2) (c : Dev nD) : W7 m ρ c (Proc.devRef .tc main_v45)
    = Cert.Gnn.recv (st1 m c) (m ((c : Thread nD τ).loc main_arg2)) (m ((c : Thread nD τ).loc main_arg3)) (Cert.Gnn.wts0 (m ((c : Thread nD τ).loc main_arg5))) (Cert.Gnn.bias0 (m ((c : Thread nD τ).loc main_arg6))) := by
  have e : W7 m ρ c (Proc.devRef .tc main_v45) = Cert.Gnn.aggOf (W6 m ρ c (Proc.devRef .tc main_v40)) (W6 m ρ c (Proc.devRef .tc main_arg3)) := by
    show StableHlo.after hostOps3 (W6 m ρ c) (Proc.devRef .tc main_v45) = _
    simp only [hostOps3]
    after_results_simp
    rfl
  rw [e, W6_v40 m ρ h0 h1 h2 c, at6 m ρ c main_arg3 (by decide)]
  rfl

theorem W7_v30 (h0 : MsgFinal0) (h1 : GruFinal1) (c : Dev nD) : W7 m ρ c (Proc.devRef .tc main_v30) = st1 m c :=
  (keepH3 (W6 m ρ c) main_v30 (by decide)).trans ((regKeep2 m ρ c main_v30 (by decide)).trans
    ((keepH2 (W4 m ρ c) main_v30 (by decide)).trans (W4_v30 m ρ h0 h1 c)))

theorem W8_v46 (h0 : MsgFinal0) (h1 : GruFinal1) (h2 : MsgFinal2) (h3 : GruFinal3) (c : Dev nD) :
    W8 m ρ c (Proc.devRef .tc main_v46) = st2 m c := by
  have e := h3 (V7 m ρ) c
  rw [show V7 m ρ c (Pipeline.arrRef spec3 0) = _ from W7_v45 m ρ h0 h1 h2 c, show V7 m ρ c (Pipeline.arrRef spec3 1) = _ from W7_v30 m ρ h0 h1 c,
    show V7 m ρ c (Pipeline.arrRef spec3 2) = _ from at7 m ρ c main_arg7 (by decide),
    show V7 m ρ c (Pipeline.arrRef spec3 3) = _ from at7 m ρ c main_arg8 (by decide),
    show V7 m ρ c (Pipeline.arrRef spec3 4) = _ from at7 m ρ c main_arg9 (by decide)] at e
  exact (W8_arr m ρ c 5).trans e

/-! ### The third step: the second layer -/

set_option maxHeartbeats 1000000 in
theorem W9_v59 (h0 : MsgFinal0) (h1 : GruFinal1) (h2 : MsgFinal2) (h3 : GruFinal3) (c : Dev nD) :
    W9 m ρ c (Proc.devRef .tc main_v59) = Cert.Gnn.srcOf (st2 m c) (m ((c : Thread nD τ).loc main_arg2)) := by
  have e : W9 m ρ c (Proc.devRef .tc main_v59) = Cert.Gnn.srcOf (W8 m ρ c (Proc.devRef .tc main_v46)) (W8 m ρ c (Proc.devRef .tc main_arg2)) := by
    show StableHlo.after hostOps4 (W8 m ρ c) (Proc.devRef .tc main_v59) = _
    simp only [hostOps4]
    after_results_simp
    rfl
  rw [e, W8_v46 m ρ h0 h1 h2 h3 c, at8 m ρ c main_arg2 (by decide)]
set_option maxHeartbeats 1000000 in
theorem W9_v49 (c : Dev nD) : W9 m ρ c (Proc.devRef .tc main_v49) = Cert.Gnn.wts1 (m ((c : Thread nD τ).loc main_arg5)) := by
  have e : W9 m ρ c (Proc.devRef .tc main_v49) = Cert.Gnn.wts1 (W8 m ρ c (Proc.devRef .tc main_arg5)) := by
    show StableHlo.after hostOps4 (W8 m ρ c) (Proc.devRef .tc main_v49) = _
    simp only [hostOps4]
    after_results_simp
    rfl
  rw [e, at8 m ρ c main_arg5 (by decide)]
set_option maxHeartbeats 1000000 in
theorem W9_v60 (c : Dev nD) : W9 m ρ c (Proc.devRef .tc main_v60) = shapeCast S3x1x128 (Cert.Gnn.bias1 (m ((c : Thread nD τ).loc main_arg6))) shapeCasts_S3x128_S3x1x128 := by
  have e : W9 m ρ c (Proc.devRef .tc main_v60) = shapeCast S3x1x128 (Cert.Gnn.bias1 (W8 m ρ c (Proc.devRef .tc main_arg6))) shapeCasts_S3x128_S3x1x128 := by
    show StableHlo.after hostOps4 (W8 m ρ c) (Proc.devRef .tc main_v60) = _
    simp only [hostOps4]
    after_results_simp
    rfl
  rw [e, at8 m ρ c main_arg6 (by decide)]

theorem W10_v61 (h0 : MsgFinal0) (h1 : GruFinal1) (h2 : MsgFinal2) (h3 : GruFinal3) (h4 : MsgFinal4) (c : Dev nD) :
    W10 m ρ c (Proc.devRef .tc main_v61)
      = Cert.Gnn.msg (Cert.Gnn.srcOf (st2 m c) (m ((c : Thread nD τ).loc main_arg2))) (Cert.Gnn.wts1 (m ((c : Thread nD τ).loc main_arg5))) (Cert.Gnn.bias1 (m ((c : Thread nD τ).loc main_arg6))) := by
  have e := h4 (V9 m ρ) c
  rw [show V9 m ρ c (Pipeline.arrRef spec4 0) = _ from W9_v59 m ρ h0 h1 h2 h3 c, show V9 m ρ c (Pipeline.arrRef spec4 1) = _ from W9_v49 m ρ c,
    show V9 m ρ c (Pipeline.arrRef spec4 2) = _ from W9_v60 m ρ c, dropMid_shapeCast] at e
  exact (W10_arr m ρ c 3).trans e

theorem W10_v9 (c : Dev nD) : W10 m ρ c (Proc.devRef .tc main_v9) = st0 m c :=
  (regKeep4 m ρ c main_v9 (by decide)).trans ((keepH4 (W8 m ρ c) main_v9 (by decide)).trans
    ((regKeep3 m ρ c main_v9 (by decide)).trans ((keepH3 (W6 m ρ c) main_v9 (by decide)).trans
      ((regKeep2 m ρ c main_v9 (by decide)).trans ((keepH2 (W4 m ρ c) main_v9 (by decide)).trans
        ((regKeep1 m ρ c main_v9 (by decide)).trans (W3_v9 m ρ c)))))))

set_option maxHeartbeats 1000000 in
theorem W11_v67 (h0 : MsgFinal0) (h1 : GruFinal1) (h2 : MsgFinal2) (h3 : GruFinal3) (h4 : MsgFinal4) (c : Dev nD) :
    W11 m ρ c (Proc.devRef .tc main_v67)
      = Cert.Gnn.cat (st0 m c) (Cert.Gnn.recv (st2 m c) (m ((c : Thread nD τ).loc main_arg2)) (m ((c : Thread nD τ).loc main_arg3)) (Cert.Gnn.wts1 (m ((c : Thread nD τ).loc main_arg5))) (Cert.Gnn.bias1 (m ((c : Thread nD τ).loc main_arg6)))) := by
  have e : W11 m ρ c (Proc.devRef .tc main_v67) = Cert.Gnn.cat (W10 m ρ c (Proc.devRef .tc main_v9))
      (Cert.Gnn.aggOf (W10 m ρ c (Proc.devRef .tc main_v61)) (W10 m ρ c (Proc.devRef .tc main_arg3))) := by
    show StableHlo.after hostOps5 (W10 m ρ c) (Proc.devRef .tc main_v67) = _
    simp only [hostOps5]
    after_results_simp
    rfl
  rw [e, W10_v9 m ρ c, W10_v61 m ρ h0 h1 h2 h3 h4 c, at10 m ρ c main_arg3 (by decide)]
  rfl

theorem W11_v46 (h0 : MsgFinal0) (h1 : GruFinal1) (h2 : MsgFinal2) (h3 : GruFinal3) (c : Dev nD) :
    W11 m ρ c (Proc.devRef .tc main_v46) = st2 m c :=
  (keepH5 (W10 m ρ c) main_v46 (by decide)).trans ((regKeep4 m ρ c main_v46 (by decide)).trans
    ((keepH4 (W8 m ρ c) main_v46 (by decide)).trans (W8_v46 m ρ h0 h1 h2 h3 c)))

/-- THE RETURNED ARRAY is the network of the launch contents of the thirteen arguments. -/
theorem W12_v68 (h0 : MsgFinal0) (h1 : GruFinal1) (h2 : MsgFinal2) (h3 : GruFinal3) (h4 : MsgFinal4) (h5 : GruFinal5) (c : Dev nD) :
    W12 m ρ c (Proc.devRef .tc main_v68)
      = Cert.Gnn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e := h5 (V11 m ρ) c
  rw [show V11 m ρ c (Pipeline.arrRef spec5 0) = _ from W11_v67 m ρ h0 h1 h2 h3 h4 c, show V11 m ρ c (Pipeline.arrRef spec5 1) = _ from W11_v46 m ρ h0 h1 h2 h3 c,
    show V11 m ρ c (Pipeline.arrRef spec5 2) = _ from at11 m ρ c main_arg10 (by decide),
    show V11 m ρ c (Pipeline.arrRef spec5 3) = _ from at11 m ρ c main_arg11 (by decide),
    show V11 m ρ c (Pipeline.arrRef spec5 4) = _ from at11 m ρ c main_arg12 (by decide)] at e
  exact (W12_arr m ρ c 5).trans e

end Cert.KernelIdeal.NetValue

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.MsgPayload.lean ====
/-
  The message kernel's arithmetic on one block, read at an index.

  The kernel drops the block's leading unit axis from the source rows and from the weight matrix, multiplies them
  with the matrix unit into a zero accumulator, adds the bias row to every row, and puts the unit axis back. Over
  the exact extended reals the result at (0, e, d) is  Σ_k x0(0,e,k) · x1(0,k,d) + x2(0,0,d).
  The three message regions run the same arithmetic; the statement is made for each region's kernel.
-/
import proofs.«114658_j8254927143009_2_alg».proof.Proof.Gen.KernelIdeal.Skeleton
import proofs.«114658_j8254927143009_2_alg».proof.Proof.LibPlainProduct
import Idealize.ShloMosaic.Lib.ValueLayout
import Idealize.ShloMosaic.Lib.Pipeline.Value

noncomputable section

namespace Cert.KernelIdeal.MsgValue

open Cert.KernelIdeal Cert.KernelIdeal.Gen Idealize.ShloMosaic Idealize.ShloMosaic.ValueIdx

/-- The zero offsets of a load or store of a whole block, as a constant function. -/
theorem zero_offsets : (![0, 0, 0] : Fin 3 → Nat) = fun _ => 0 := funext fun a => by fin_cases a <;> rfl

/-- One block's messages at row `e`, component `d`, for the first message region's kernel: the row of the source block
    against column `d` of the weight block, plus the bias row's component `d`. -/
theorem msg_block0_apply (x0 : Vec Ideal S1x10000x128 .bf16) (x1 : Vec Ideal S1x128x128 .bf16) (x2 : Vec Ideal S1x1x128 .f32)
    (e : Fin 10000) (d : Fin 128) :
    (k0_pay1 (F := Ideal) x0 x1 x2 : S1x10000x128.Idx → EReal) (ix3 (0 : Fin 1) e d)
      = (∑ k : Fin 128, x0 (ix3 (0 : Fin 1) e k) * x1 (ix3 (0 : Fin 1) k d)) + x2 (ix3 (0 : Fin 1) (0 : Fin 1) d) := by
  unfold k0_pay1
  refine (shapeCast_ab_1ab_apply _ _ (0 : Fin 1) e d).trans ?_
  refine (addf_apply _ _ _).trans ?_
  refine congrArg₂ (· + ·) ?_ ?_
  · refine (matmul_zero_plain_apply dot_S10000x128_S128x128_S10000x128_1_0_0_1_n_n rfl rfl rfl rfl rfl rfl none _ _ e d).trans ?_
    refine Finset.sum_congr rfl fun k _ => ?_
    refine congrArg₂ (· * ·) ?_ ?_
    · exact shapeCast_1ab_ab_apply _ _ e k
    · exact shapeCast_1ab_ab_apply _ _ k d
  · refine (broadcastTo_1b_ab_apply _ _ e d).trans ?_
    exact shapeCast_1ab_ab_apply _ _ (0 : Fin 1) d

/-- One block's messages at row `e`, component `d`, for the second message region's kernel: the row of the source block
    against column `d` of the weight block, plus the bias row's component `d`. -/
theorem msg_block2_apply (x0 : Vec Ideal S1x10000x128 .bf16) (x1 : Vec Ideal S1x128x128 .bf16) (x2 : Vec Ideal S1x1x128 .f32)
    (e : Fin 10000) (d : Fin 128) :
    (k2_pay1 (F := Ideal) x0 x1 x2 : S1x10000x128.Idx → EReal) (ix3 (0 : Fin 1) e d)
      = (∑ k : Fin 128, x0 (ix3 (0 : Fin 1) e k) * x1 (ix3 (0 : Fin 1) k d)) + x2 (ix3 (0 : Fin 1) (0 : Fin 1) d) := by
  unfold k2_pay1
  refine (shapeCast_ab_1ab_apply _ _ (0 : Fin 1) e d).trans ?_
  refine (addf_apply _ _ _).trans ?_
  refine congrArg₂ (· + ·) ?_ ?_
  · refine (matmul_zero_plain_apply dot_S10000x128_S128x128_S10000x128_1_0_0_1_n_n rfl rfl rfl rfl rfl rfl none _ _ e d).trans ?_
    refine Finset.sum_congr rfl fun k _ => ?_
    refine congrArg₂ (· * ·) ?_ ?_
    · exact shapeCast_1ab_ab_apply _ _ e k
    · exact shapeCast_1ab_ab_apply _ _ k d
  · refine (broadcastTo_1b_ab_apply _ _ e d).trans ?_
    exact shapeCast_1ab_ab_apply _ _ (0 : Fin 1) d

/-- One block's messages at row `e`, component `d`, for the third message region's kernel: the row of the source block
    against column `d` of the weight block, plus the bias row's component `d`. -/
theorem msg_block4_apply (x0 : Vec Ideal S1x10000x128 .bf16) (x1 : Vec Ideal S1x128x128 .bf16) (x2 : Vec Ideal S1x1x128 .f32)
    (e : Fin 10000) (d : Fin 128) :
    (k4_pay1 (F := Ideal) x0 x1 x2 : S1x10000x128.Idx → EReal) (ix3 (0 : Fin 1) e d)
      = (∑ k : Fin 128, x0 (ix3 (0 : Fin 1) e k) * x1 (ix3 (0 : Fin 1) k d)) + x2 (ix3 (0 : Fin 1) (0 : Fin 1) d) := by
  unfold k4_pay1
  refine (shapeCast_ab_1ab_apply _ _ (0 : Fin 1) e d).trans ?_
  refine (addf_apply _ _ _).trans ?_
  refine congrArg₂ (· + ·) ?_ ?_
  · refine (matmul_zero_plain_apply dot_S10000x128_S128x128_S10000x128_1_0_0_1_n_n rfl rfl rfl rfl rfl rfl none _ _ e d).trans ?_
    refine Finset.sum_congr rfl fun k _ => ?_
    refine congrArg₂ (· * ·) ?_ ?_
    · exact shapeCast_1ab_ab_apply _ _ e k
    · exact shapeCast_1ab_ab_apply _ _ k d
  · refine (broadcastTo_1b_ab_apply _ _ e d).trans ?_
    exact shapeCast_1ab_ab_apply _ _ (0 : Fin 1) d

end Cert.KernelIdeal.MsgValue

end
-- ==== Proof.MsgRegion0.lean ====
/-
  The first message region, read as one array.

  The region runs the message kernel over a grid of 3 × 30 points. Point (a, b) takes rows 10000·b … 10000·b + 9999 of
  edge type a's source states, that type's weight matrix and bias row, and writes the same rows of the output. Every
  output index (a, r, d) lies in the block of point (a, r / 10000), so after the region the output array is
  Σ_k src(a, r, k) · W(a, k, d) + bias(a, 0, d) at every index, whatever the arrays held on entry.
-/
import proofs.«114658_j8254927143009_2_alg».proof.Proof.Gen.KernelIdeal.Frame
import proofs.«114658_j8254927143009_2_alg».proof.Proof.Spec
import proofs.«114658_j8254927143009_2_alg».proof.Proof.MsgPayload
import Idealize.ShloMosaic.Lib.Pipeline.Value

noncomputable section

namespace Cert.KernelIdeal.MsgValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The messages determined by the three arrays the region reads, index by index. -/
abbrev messages0 (c : Dev nD) : S3x300000x128.Idx → EReal :=
  Cert.Gnn.msg (V c (Pipeline.arrRef spec0 0)) (V c (Pipeline.arrRef spec0 1)) (Cert.Gnn.dropMid (V c (Pipeline.arrRef spec0 2)))

/-- The printed index maps over the grid: every window's leading block index is the output's, the source rows move with
    the output rows, every other block index is zero, and the output's block indices stay inside 3 × 30. -/
theorem index_facts0 : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 2
    ∧ win0_3.index t (1 : Fin 3) ≤ 29
    ∧ win0_3.index t (2 : Fin 3) = 0 :=
  (by decide +kernel : ∀ t : Fin grid0.N, _)

/-- Every block of the output is some point's. -/
theorem index_onto0 : ∀ (q0 : Fin 3) (q1 : Fin 30), ∃ t : Fin cfg0.N, win0_3.index t = ![q0.val, q1.val, 0] :=
  (by decide +kernel : ∀ (q0 : Fin 3) (q1 : Fin 30), ∃ t : Fin grid0.N, win0_3.index t = ![q0.val, q1.val, 0])

/-- The source block at a point holds rows of the source array: its entry (0, e, k) is the array's entry (a, r, k)
    when a is the block's type and r the block's first row plus e. -/
theorem src_block0_apply (c : Dev nD) (t : Fin cfg0.N) (e : Fin 10000) (k : Fin 128) (a : Fin 3) (r : Fin 300000)
    (ha : a.val = win0_0.index t (0 : Fin 3)) (hr : r.val = win0_0.index t (1 : Fin 3) * 10000 + e.val)
    (hk : win0_0.index t (2 : Fin 3) = 0) :
    (iblk0 V c 0 t : S1x10000x128.Idx → EReal) (ix3 (0 : Fin 1) e k)
      = (V c (Pipeline.arrRef spec0 0) : S3x300000x128.Idx → EReal) (ix3 a r k) := by
  unfold iblk0
  show V c (Pipeline.arrRef spec0 0) (((cfg0.win 0).blk t).view.emb (ix3 (0 : Fin 1) e k)) = V c (Pipeline.arrRef spec0 0) (ix3 a r k)
  refine congrArg _ (funext fun x => Fin.ext ?_)
  match x with
  | ⟨0, _⟩ => show win0_0.index t (0 : Fin 3) * 1 + 1 * 0 = a.val; omega
  | ⟨1, _⟩ => show win0_0.index t (1 : Fin 3) * 10000 + 1 * e.val = r.val; omega
  | ⟨2, _⟩ => show win0_0.index t (2 : Fin 3) * 128 + 1 * k.val = k.val; omega

/-- The weight block at a point is one type's weight matrix. -/
theorem weight_block0_apply (c : Dev nD) (t : Fin cfg0.N) (k d : Fin 128) (a : Fin 3)
    (ha : a.val = win0_1.index t (0 : Fin 3)) (h1 : win0_1.index t (1 : Fin 3) = 0) (h2 : win0_1.index t (2 : Fin 3) = 0) :
    (iblk0 V c 1 t : S1x128x128.Idx → EReal) (ix3 (0 : Fin 1) k d)
      = (V c (Pipeline.arrRef spec0 1) : S3x128x128.Idx → EReal) (ix3 a k d) := by
  unfold iblk0
  show V c (Pipeline.arrRef spec0 1) (((cfg0.win 1).blk t).view.emb (ix3 (0 : Fin 1) k d)) = V c (Pipeline.arrRef spec0 1) (ix3 a k d)
  refine congrArg _ (funext fun x => Fin.ext ?_)
  match x with
  | ⟨0, _⟩ => show win0_1.index t (0 : Fin 3) * 1 + 1 * 0 = a.val; omega
  | ⟨1, _⟩ => show win0_1.index t (1 : Fin 3) * 128 + 1 * k.val = k.val; omega
  | ⟨2, _⟩ => show win0_1.index t (2 : Fin 3) * 128 + 1 * d.val = d.val; omega

/-- The bias block at a point is one type's bias row. -/
theorem bias_block0_apply (c : Dev nD) (t : Fin cfg0.N) (d : Fin 128) (a : Fin 3)
    (ha : a.val = win0_2.index t (0 : Fin 3)) (h1 : win0_2.index t (1 : Fin 3) = 0) (h2 : win0_2.index t (2 : Fin 3) = 0) :
    (iblk0 V c 2 t : S1x1x128.Idx → EReal) (ix3 (0 : Fin 1) (0 : Fin 1) d)
      = (V c (Pipeline.arrRef spec0 2) : S3x1x128.Idx → EReal) (ix3 a (0 : Fin 1) d) := by
  unfold iblk0
  show V c (Pipeline.arrRef spec0 2) (((cfg0.win 2).blk t).view.emb (ix3 (0 : Fin 1) (0 : Fin 1) d)) = V c (Pipeline.arrRef spec0 2) (ix3 a (0 : Fin 1) d)
  refine congrArg _ (funext fun x => Fin.ext ?_)
  match x with
  | ⟨0, _⟩ => show win0_2.index t (0 : Fin 3) * 1 + 1 * 0 = a.val; omega
  | ⟨1, _⟩ => show win0_2.index t (1 : Fin 3) * 1 + 1 * 0 = 0; omega
  | ⟨2, _⟩ => show win0_2.index t (2 : Fin 3) * 128 + 1 * d.val = d.val; omega

/-- The kernel's arithmetic on a point's three blocks is the messages at the output index the block entry lands on. -/
theorem block_messages0 (c : Dev nD) (t : Fin cfg0.N) (e : Fin 10000) (d : Fin 128) (i : S3x300000x128.Idx)
    (h0 : (i 0).val = win0_3.index t (0 : Fin 3)) (h1 : (i 1).val = win0_3.index t (1 : Fin 3) * 10000 + e.val)
    (h2 : (i 2).val = d.val) :
    (k0_pay1 (F := Ideal) (iblk0 V c 0 t) (iblk0 V c 1 t) (iblk0 V c 2 t) : S1x10000x128.Idx → EReal) (ix3 (0 : Fin 1) e d)
      = messages0 V c i := by
  obtain ⟨f00, f01, f02, f10, f11, f12, f20, f21, f22, -, -, -⟩ := index_facts0 t
  obtain ⟨a, r, d', rfl⟩ : ∃ (a : Fin 3) (r : Fin 300000) (d' : Fin 128), i = ix3 a r d' := ⟨i 0, i 1, i 2, eq_ix3 i⟩
  have ha : a.val = win0_3.index t (0 : Fin 3) := h0
  have hr : r.val = win0_3.index t (1 : Fin 3) * 10000 + e.val := h1
  obtain rfl : d' = d := Fin.ext h2
  refine (msg_block0_apply (iblk0 V c 0 t) (iblk0 V c 1 t) (iblk0 V c 2 t) e d').trans ?_
  show _ = Cert.Gnn.msgAt _ _ _ a r d'
  unfold Cert.Gnn.msgAt
  refine congrArg₂ (· + ·) (Finset.sum_congr rfl fun k _ => congrArg₂ (· * ·) ?_ ?_) ?_
  · exact src_block0_apply V c t e k a r (by rw [f00]; exact ha) (by rw [f01]; exact hr) f02
  · exact weight_block0_apply V c t k d' a (by rw [f10]; exact ha) f11 f12
  · exact (bias_block0_apply V c t d' a (by rw [f20]; exact ha) f21 f22).trans (Cert.Gnn.dropMid_ix2 (V c (Pipeline.arrRef spec0 2)) a d').symm

/-- What a point writes back is its block of the messages. -/
theorem flushed0_eq (c : Dev nD) (t : Fin cfg0.N) :
    (dat0 (F := Ideal) V c).flushed 3 t = ((cfg0.win 3).blk t).view.read (Elt Ideal) (messages0 V c) := by
  show (cfg0.win 3).cut (grid0.coords t) ((dat0 V c).after 3 t) = _
  rw [after0_3]
  unfold out0_3
  rw [View.canon_unit_zero zero_offsets]
  simp only [View.ld_unit_zero (S := S1x10000x128) zero_offsets, View.ld_unit_zero (S := S1x128x128) zero_offsets,
    View.ld_unit_zero (S := S1x1x128) zero_offsets]
  refine funext fun (j : S1x10000x128.Idx) => ?_
  obtain ⟨u, e, d, rfl⟩ : ∃ (u : Fin 1) (e : Fin 10000) (d : Fin 128), j = ix3 u e d := ⟨j 0, j 1, j 2, eq_ix3 j⟩
  obtain rfl : u = 0 := Subsingleton.elim _ _
  show (k0_pay1 (F := Ideal) (iblk0 V c 0 t) (iblk0 V c 1 t) (iblk0 V c 2 t) : S1x10000x128.Idx → EReal) (ix3 (0 : Fin 1) e d)
    = messages0 V c (((cfg0.win 3).blk t).view.emb (ix3 (0 : Fin 1) e d))
  refine block_messages0 V c t e d _ ?_ ?_ ?_
  · show win0_3.index t (0 : Fin 3) * 1 + 1 * 0 = win0_3.index t (0 : Fin 3); omega
  · show win0_3.index t (1 : Fin 3) * 10000 + 1 * e.val = win0_3.index t (1 : Fin 3) * 10000 + e.val; omega
  · show win0_3.index t (2 : Fin 3) * 128 + 1 * d.val = d.val
    have := (index_facts0 t).2.2.2.2.2.2.2.2.2.2.2; omega

/-- An index of the output array is in a point's block iff each coordinate is in the block's range on its axis. -/
theorem mem_block0 (t : Fin cfg0.N) (i : S3x300000x128.Idx) :
    i ∈ ((cfg0.win 3).blk t).view.set ↔ ∀ a : Fin 3, win0_3.index t a * S1x10000x128.size a ≤ (i a).val
      ∧ (i a).val < win0_3.index t a * S1x10000x128.size a + S1x10000x128.size a := by
  show i ∈ ((View.whole main_v24).slice (win0_3.rect t)).set ↔ _
  rw [View.set_slice_whole, Rect.mem_set_unit]
  exact Iff.rfl

/-- Every output index is in the block of the point for its type and its row's group of 10000. -/
theorem covered0 (i : S3x300000x128.Idx) :
    ∃ t : Fin cfg0.N, (cfg0.win 3).flush t = true ∧ i ∈ ((cfg0.win 3).blk t).view.set := by
  have hi0 : (i 0).val < 3 := (i 0).isLt
  have hi1 : (i 1).val < 300000 := (i 1).isLt
  have hi2 : (i 2).val < 128 := (i 2).isLt
  obtain ⟨t, ht⟩ := index_onto0 ⟨(i 0).val, hi0⟩ ⟨(i 1).val / 10000, by omega⟩
  have q0 : win0_3.index t (0 : Fin 3) = (i 0).val := congrFun ht 0
  have q1 : win0_3.index t (1 : Fin 3) = (i 1).val / 10000 := congrFun ht 1
  have q2 : win0_3.index t (2 : Fin 3) = 0 := congrFun ht 2
  refine ⟨t, flush0_3 t, ?_⟩
  rw [mem_block0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 10000 ≤ (i 1).val ∧ (i 1).val < win0_3.index t (1 : Fin 3) * 10000 + 10000; omega
  | ⟨2, _⟩ => show win0_3.index t (2 : Fin 3) * 128 ≤ (i 2).val ∧ (i 2).val < win0_3.index t (2 : Fin 3) * 128 + 128; omega

/-- The output array after the region is the messages of the three arrays the region read, for any entry contents. -/
theorem final0 (V : (c : Dev nD) → (b : Ref sig .tc) → Buf (Elt Ideal) ((c : Thread nD τ).loc b)) (c : Dev nD) :
    (dat0 (F := Ideal) V c).arrAt 3 cfg0.N
      = Cert.Gnn.msg (V c (Pipeline.arrRef spec0 0)) (V c (Pipeline.arrRef spec0 1)) (Cert.Gnn.dropMid (V c (Pipeline.arrRef spec0 2))) :=
  (dat0 (F := Ideal) V c).arrAt_eq_of_cover 3 (messages0 V c) (fun t _ => flushed0_eq V c t) covered0

end Cert.KernelIdeal.MsgValue

end
-- ==== Proof.MsgRegion2.lean ====
/-
  The second message region, read as one array.

  The region runs the message kernel over a grid of 3 × 30 points. Point (a, b) takes rows 10000·b … 10000·b + 9999 of
  edge type a's source states, that type's weight matrix and bias row, and writes the same rows of the output. Every
  output index (a, r, d) lies in the block of point (a, r / 10000), so after the region the output array is
  Σ_k src(a, r, k) · W(a, k, d) + bias(a, 0, d) at every index, whatever the arrays held on entry.
-/
import proofs.«114658_j8254927143009_2_alg».proof.Proof.Gen.KernelIdeal.Frame
import proofs.«114658_j8254927143009_2_alg».proof.Proof.Spec
import proofs.«114658_j8254927143009_2_alg».proof.Proof.MsgPayload
import Idealize.ShloMosaic.Lib.Pipeline.Value

noncomputable section

namespace Cert.KernelIdeal.MsgValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The messages determined by the three arrays the region reads, index by index. -/
abbrev messages2 (c : Dev nD) : S3x300000x128.Idx → EReal :=
  Cert.Gnn.msg (V c (Pipeline.arrRef spec2 0)) (V c (Pipeline.arrRef spec2 1)) (Cert.Gnn.dropMid (V c (Pipeline.arrRef spec2 2)))

/-- The printed index maps over the grid: every window's leading block index is the output's, the source rows move with
    the output rows, every other block index is zero, and the output's block indices stay inside 3 × 30. -/
theorem index_facts2 : ∀ t : Fin cfg2.N,
    win2_0.index t (0 : Fin 3) = win2_3.index t (0 : Fin 3)
    ∧ win2_0.index t (1 : Fin 3) = win2_3.index t (1 : Fin 3)
    ∧ win2_0.index t (2 : Fin 3) = 0
    ∧ win2_1.index t (0 : Fin 3) = win2_3.index t (0 : Fin 3)
    ∧ win2_1.index t (1 : Fin 3) = 0
    ∧ win2_1.index t (2 : Fin 3) = 0
    ∧ win2_2.index t (0 : Fin 3) = win2_3.index t (0 : Fin 3)
    ∧ win2_2.index t (1 : Fin 3) = 0
    ∧ win2_2.index t (2 : Fin 3) = 0
    ∧ win2_3.index t (0 : Fin 3) ≤ 2
    ∧ win2_3.index t (1 : Fin 3) ≤ 29
    ∧ win2_3.index t (2 : Fin 3) = 0 :=
  (by decide +kernel : ∀ t : Fin grid2.N, _)

/-- Every block of the output is some point's. -/
theorem index_onto2 : ∀ (q0 : Fin 3) (q1 : Fin 30), ∃ t : Fin cfg2.N, win2_3.index t = ![q0.val, q1.val, 0] :=
  (by decide +kernel : ∀ (q0 : Fin 3) (q1 : Fin 30), ∃ t : Fin grid2.N, win2_3.index t = ![q0.val, q1.val, 0])

/-- The source block at a point holds rows of the source array: its entry (0, e, k) is the array's entry (a, r, k)
    when a is the block's type and r the block's first row plus e. -/
theorem src_block2_apply (c : Dev nD) (t : Fin cfg2.N) (e : Fin 10000) (k : Fin 128) (a : Fin 3) (r : Fin 300000)
    (ha : a.val = win2_0.index t (0 : Fin 3)) (hr : r.val = win2_0.index t (1 : Fin 3) * 10000 + e.val)
    (hk : win2_0.index t (2 : Fin 3) = 0) :
    (iblk2 V c 0 t : S1x10000x128.Idx → EReal) (ix3 (0 : Fin 1) e k)
      = (V c (Pipeline.arrRef spec2 0) : S3x300000x128.Idx → EReal) (ix3 a r k) := by
  unfold iblk2
  show V c (Pipeline.arrRef spec2 0) (((cfg2.win 0).blk t).view.emb (ix3 (0 : Fin 1) e k)) = V c (Pipeline.arrRef spec2 0) (ix3 a r k)
  refine congrArg _ (funext fun x => Fin.ext ?_)
  match x with
  | ⟨0, _⟩ => show win2_0.index t (0 : Fin 3) * 1 + 1 * 0 = a.val; omega
  | ⟨1, _⟩ => show win2_0.index t (1 : Fin 3) * 10000 + 1 * e.val = r.val; omega
  | ⟨2, _⟩ => show win2_0.index t (2 : Fin 3) * 128 + 1 * k.val = k.val; omega

/-- The weight block at a point is one type's weight matrix. -/
theorem weight_block2_apply (c : Dev nD) (t : Fin cfg2.N) (k d : Fin 128) (a : Fin 3)
    (ha : a.val = win2_1.index t (0 : Fin 3)) (h1 : win2_1.index t (1 : Fin 3) = 0) (h2 : win2_1.index t (2 : Fin 3) = 0) :
    (iblk2 V c 1 t : S1x128x128.Idx → EReal) (ix3 (0 : Fin 1) k d)
      = (V c (Pipeline.arrRef spec2 1) : S3x128x128.Idx → EReal) (ix3 a k d) := by
  unfold iblk2
  show V c (Pipeline.arrRef spec2 1) (((cfg2.win 1).blk t).view.emb (ix3 (0 : Fin 1) k d)) = V c (Pipeline.arrRef spec2 1) (ix3 a k d)
  refine congrArg _ (funext fun x => Fin.ext ?_)
  match x with
  | ⟨0, _⟩ => show win2_1.index t (0 : Fin 3) * 1 + 1 * 0 = a.val; omega
  | ⟨1, _⟩ => show win2_1.index t (1 : Fin 3) * 128 + 1 * k.val = k.val; omega
  | ⟨2, _⟩ => show win2_1.index t (2 : Fin 3) * 128 + 1 * d.val = d.val; omega

/-- The bias block at a point is one type's bias row. -/
theorem bias_block2_apply (c : Dev nD) (t : Fin cfg2.N) (d : Fin 128) (a : Fin 3)
    (ha : a.val = win2_2.index t (0 : Fin 3)) (h1 : win2_2.index t (1 : Fin 3) = 0) (h2 : win2_2.index t (2 : Fin 3) = 0) :
    (iblk2 V c 2 t : S1x1x128.Idx → EReal) (ix3 (0 : Fin 1) (0 : Fin 1) d)
      = (V c (Pipeline.arrRef spec2 2) : S3x1x128.Idx → EReal) (ix3 a (0 : Fin 1) d) := by
  unfold iblk2
  show V c (Pipeline.arrRef spec2 2) (((cfg2.win 2).blk t).view.emb (ix3 (0 : Fin 1) (0 : Fin 1) d)) = V c (Pipeline.arrRef spec2 2) (ix3 a (0 : Fin 1) d)
  refine congrArg _ (funext fun x => Fin.ext ?_)
  match x with
  | ⟨0, _⟩ => show win2_2.index t (0 : Fin 3) * 1 + 1 * 0 = a.val; omega
  | ⟨1, _⟩ => show win2_2.index t (1 : Fin 3) * 1 + 1 * 0 = 0; omega
  | ⟨2, _⟩ => show win2_2.index t (2 : Fin 3) * 128 + 1 * d.val = d.val; omega

/-- The kernel's arithmetic on a point's three blocks is the messages at the output index the block entry lands on. -/
theorem block_messages2 (c : Dev nD) (t : Fin cfg2.N) (e : Fin 10000) (d : Fin 128) (i : S3x300000x128.Idx)
    (h0 : (i 0).val = win2_3.index t (0 : Fin 3)) (h1 : (i 1).val = win2_3.index t (1 : Fin 3) * 10000 + e.val)
    (h2 : (i 2).val = d.val) :
    (k2_pay1 (F := Ideal) (iblk2 V c 0 t) (iblk2 V c 1 t) (iblk2 V c 2 t) : S1x10000x128.Idx → EReal) (ix3 (0 : Fin 1) e d)
      = messages2 V c i := by
  obtain ⟨f00, f01, f02, f10, f11, f12, f20, f21, f22, -, -, -⟩ := index_facts2 t
  obtain ⟨a, r, d', rfl⟩ : ∃ (a : Fin 3) (r : Fin 300000) (d' : Fin 128), i = ix3 a r d' := ⟨i 0, i 1, i 2, eq_ix3 i⟩
  have ha : a.val = win2_3.index t (0 : Fin 3) := h0
  have hr : r.val = win2_3.index t (1 : Fin 3) * 10000 + e.val := h1
  obtain rfl : d' = d := Fin.ext h2
  refine (msg_block2_apply (iblk2 V c 0 t) (iblk2 V c 1 t) (iblk2 V c 2 t) e d').trans ?_
  show _ = Cert.Gnn.msgAt _ _ _ a r d'
  unfold Cert.Gnn.msgAt
  refine congrArg₂ (· + ·) (Finset.sum_congr rfl fun k _ => congrArg₂ (· * ·) ?_ ?_) ?_
  · exact src_block2_apply V c t e k a r (by rw [f00]; exact ha) (by rw [f01]; exact hr) f02
  · exact weight_block2_apply V c t k d' a (by rw [f10]; exact ha) f11 f12
  · exact (bias_block2_apply V c t d' a (by rw [f20]; exact ha) f21 f22).trans (Cert.Gnn.dropMid_ix2 (V c (Pipeline.arrRef spec2 2)) a d').symm

/-- What a point writes back is its block of the messages. -/
theorem flushed2_eq (c : Dev nD) (t : Fin cfg2.N) :
    (dat2 (F := Ideal) V c).flushed 3 t = ((cfg2.win 3).blk t).view.read (Elt Ideal) (messages2 V c) := by
  show (cfg2.win 3).cut (grid2.coords t) ((dat2 V c).after 3 t) = _
  rw [after2_3]
  unfold out2_3
  rw [View.canon_unit_zero zero_offsets]
  simp only [View.ld_unit_zero (S := S1x10000x128) zero_offsets, View.ld_unit_zero (S := S1x128x128) zero_offsets,
    View.ld_unit_zero (S := S1x1x128) zero_offsets]
  refine funext fun (j : S1x10000x128.Idx) => ?_
  obtain ⟨u, e, d, rfl⟩ : ∃ (u : Fin 1) (e : Fin 10000) (d : Fin 128), j = ix3 u e d := ⟨j 0, j 1, j 2, eq_ix3 j⟩
  obtain rfl : u = 0 := Subsingleton.elim _ _
  show (k2_pay1 (F := Ideal) (iblk2 V c 0 t) (iblk2 V c 1 t) (iblk2 V c 2 t) : S1x10000x128.Idx → EReal) (ix3 (0 : Fin 1) e d)
    = messages2 V c (((cfg2.win 3).blk t).view.emb (ix3 (0 : Fin 1) e d))
  refine block_messages2 V c t e d _ ?_ ?_ ?_
  · show win2_3.index t (0 : Fin 3) * 1 + 1 * 0 = win2_3.index t (0 : Fin 3); omega
  · show win2_3.index t (1 : Fin 3) * 10000 + 1 * e.val = win2_3.index t (1 : Fin 3) * 10000 + e.val; omega
  · show win2_3.index t (2 : Fin 3) * 128 + 1 * d.val = d.val
    have := (index_facts2 t).2.2.2.2.2.2.2.2.2.2.2; omega

/-- An index of the output array is in a point's block iff each coordinate is in the block's range on its axis. -/
theorem mem_block2 (t : Fin cfg2.N) (i : S3x300000x128.Idx) :
    i ∈ ((cfg2.win 3).blk t).view.set ↔ ∀ a : Fin 3, win2_3.index t a * S1x10000x128.size a ≤ (i a).val
      ∧ (i a).val < win2_3.index t a * S1x10000x128.size a + S1x10000x128.size a := by
  show i ∈ ((View.whole main_v40).slice (win2_3.rect t)).set ↔ _
  rw [View.set_slice_whole, Rect.mem_set_unit]
  exact Iff.rfl

/-- Every output index is in the block of the point for its type and its row's group of 10000. -/
theorem covered2 (i : S3x300000x128.Idx) :
    ∃ t : Fin cfg2.N, (cfg2.win 3).flush t = true ∧ i ∈ ((cfg2.win 3).blk t).view.set := by
  have hi0 : (i 0).val < 3 := (i 0).isLt
  have hi1 : (i 1).val < 300000 := (i 1).isLt
  have hi2 : (i 2).val < 128 := (i 2).isLt
  obtain ⟨t, ht⟩ := index_onto2 ⟨(i 0).val, hi0⟩ ⟨(i 1).val / 10000, by omega⟩
  have q0 : win2_3.index t (0 : Fin 3) = (i 0).val := congrFun ht 0
  have q1 : win2_3.index t (1 : Fin 3) = (i 1).val / 10000 := congrFun ht 1
  have q2 : win2_3.index t (2 : Fin 3) = 0 := congrFun ht 2
  refine ⟨t, flush2_3 t, ?_⟩
  rw [mem_block2]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 10000 ≤ (i 1).val ∧ (i 1).val < win2_3.index t (1 : Fin 3) * 10000 + 10000; omega
  | ⟨2, _⟩ => show win2_3.index t (2 : Fin 3) * 128 ≤ (i 2).val ∧ (i 2).val < win2_3.index t (2 : Fin 3) * 128 + 128; omega

/-- The output array after the region is the messages of the three arrays the region read, for any entry contents. -/
theorem final2 (V : (c : Dev nD) → (b : Ref sig .tc) → Buf (Elt Ideal) ((c : Thread nD τ).loc b)) (c : Dev nD) :
    (dat2 (F := Ideal) V c).arrAt 3 cfg2.N
      = Cert.Gnn.msg (V c (Pipeline.arrRef spec2 0)) (V c (Pipeline.arrRef spec2 1)) (Cert.Gnn.dropMid (V c (Pipeline.arrRef spec2 2))) :=
  (dat2 (F := Ideal) V c).arrAt_eq_of_cover 3 (messages2 V c) (fun t _ => flushed2_eq V c t) covered2

end Cert.KernelIdeal.MsgValue

end
-- ==== Proof.MsgRegion4.lean ====
/-
  The third message region, read as one array.

  The region runs the message kernel over a grid of 3 × 30 points. Point (a, b) takes rows 10000·b … 10000·b + 9999 of
  edge type a's source states, that type's weight matrix and bias row, and writes the same rows of the output. Every
  output index (a, r, d) lies in the block of point (a, r / 10000), so after the region the output array is
  Σ_k src(a, r, k) · W(a, k, d) + bias(a, 0, d) at every index, whatever the arrays held on entry.
-/
import proofs.«114658_j8254927143009_2_alg».proof.Proof.Gen.KernelIdeal.Frame
import proofs.«114658_j8254927143009_2_alg».proof.Proof.Spec
import proofs.«114658_j8254927143009_2_alg».proof.Proof.MsgPayload
import Idealize.ShloMosaic.Lib.Pipeline.Value

noncomputable section

namespace Cert.KernelIdeal.MsgValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The messages determined by the three arrays the region reads, index by index. -/
abbrev messages4 (c : Dev nD) : S3x300000x128.Idx → EReal :=
  Cert.Gnn.msg (V c (Pipeline.arrRef spec4 0)) (V c (Pipeline.arrRef spec4 1)) (Cert.Gnn.dropMid (V c (Pipeline.arrRef spec4 2)))

/-- The printed index maps over the grid: every window's leading block index is the output's, the source rows move with
    the output rows, every other block index is zero, and the output's block indices stay inside 3 × 30. -/
theorem index_facts4 : ∀ t : Fin cfg4.N,
    win4_0.index t (0 : Fin 3) = win4_3.index t (0 : Fin 3)
    ∧ win4_0.index t (1 : Fin 3) = win4_3.index t (1 : Fin 3)
    ∧ win4_0.index t (2 : Fin 3) = 0
    ∧ win4_1.index t (0 : Fin 3) = win4_3.index t (0 : Fin 3)
    ∧ win4_1.index t (1 : Fin 3) = 0
    ∧ win4_1.index t (2 : Fin 3) = 0
    ∧ win4_2.index t (0 : Fin 3) = win4_3.index t (0 : Fin 3)
    ∧ win4_2.index t (1 : Fin 3) = 0
    ∧ win4_2.index t (2 : Fin 3) = 0
    ∧ win4_3.index t (0 : Fin 3) ≤ 2
    ∧ win4_3.index t (1 : Fin 3) ≤ 29
    ∧ win4_3.index t (2 : Fin 3) = 0 :=
  (by decide +kernel : ∀ t : Fin grid4.N, _)

/-- Every block of the output is some point's. -/
theorem index_onto4 : ∀ (q0 : Fin 3) (q1 : Fin 30), ∃ t : Fin cfg4.N, win4_3.index t = ![q0.val, q1.val, 0] :=
  (by decide +kernel : ∀ (q0 : Fin 3) (q1 : Fin 30), ∃ t : Fin grid4.N, win4_3.index t = ![q0.val, q1.val, 0])

/-- The source block at a point holds rows of the source array: its entry (0, e, k) is the array's entry (a, r, k)
    when a is the block's type and r the block's first row plus e. -/
theorem src_block4_apply (c : Dev nD) (t : Fin cfg4.N) (e : Fin 10000) (k : Fin 128) (a : Fin 3) (r : Fin 300000)
    (ha : a.val = win4_0.index t (0 : Fin 3)) (hr : r.val = win4_0.index t (1 : Fin 3) * 10000 + e.val)
    (hk : win4_0.index t (2 : Fin 3) = 0) :
    (iblk4 V c 0 t : S1x10000x128.Idx → EReal) (ix3 (0 : Fin 1) e k)
      = (V c (Pipeline.arrRef spec4 0) : S3x300000x128.Idx → EReal) (ix3 a r k) := by
  unfold iblk4
  show V c (Pipeline.arrRef spec4 0) (((cfg4.win 0).blk t).view.emb (ix3 (0 : Fin 1) e k)) = V c (Pipeline.arrRef spec4 0) (ix3 a r k)
  refine congrArg _ (funext fun x => Fin.ext ?_)
  match x with
  | ⟨0, _⟩ => show win4_0.index t (0 : Fin 3) * 1 + 1 * 0 = a.val; omega
  | ⟨1, _⟩ => show win4_0.index t (1 : Fin 3) * 10000 + 1 * e.val = r.val; omega
  | ⟨2, _⟩ => show win4_0.index t (2 : Fin 3) * 128 + 1 * k.val = k.val; omega

/-- The weight block at a point is one type's weight matrix. -/
theorem weight_block4_apply (c : Dev nD) (t : Fin cfg4.N) (k d : Fin 128) (a : Fin 3)
    (ha : a.val = win4_1.index t (0 : Fin 3)) (h1 : win4_1.index t (1 : Fin 3) = 0) (h2 : win4_1.index t (2 : Fin 3) = 0) :
    (iblk4 V c 1 t : S1x128x128.Idx → EReal) (ix3 (0 : Fin 1) k d)
      = (V c (Pipeline.arrRef spec4 1) : S3x128x128.Idx → EReal) (ix3 a k d) := by
  unfold iblk4
  show V c (Pipeline.arrRef spec4 1) (((cfg4.win 1).blk t).view.emb (ix3 (0 : Fin 1) k d)) = V c (Pipeline.arrRef spec4 1) (ix3 a k d)
  refine congrArg _ (funext fun x => Fin.ext ?_)
  match x with
  | ⟨0, _⟩ => show win4_1.index t (0 : Fin 3) * 1 + 1 * 0 = a.val; omega
  | ⟨1, _⟩ => show win4_1.index t (1 : Fin 3) * 128 + 1 * k.val = k.val; omega
  | ⟨2, _⟩ => show win4_1.index t (2 : Fin 3) * 128 + 1 * d.val = d.val; omega

/-- The bias block at a point is one type's bias row. -/
theorem bias_block4_apply (c : Dev nD) (t : Fin cfg4.N) (d : Fin 128) (a : Fin 3)
    (ha : a.val = win4_2.index t (0 : Fin 3)) (h1 : win4_2.index t (1 : Fin 3) = 0) (h2 : win4_2.index t (2 : Fin 3) = 0) :
    (iblk4 V c 2 t : S1x1x128.Idx → EReal) (ix3 (0 : Fin 1) (0 : Fin 1) d)
      = (V c (Pipeline.arrRef spec4 2) : S3x1x128.Idx → EReal) (ix3 a (0 : Fin 1) d) := by
  unfold iblk4
  show V c (Pipeline.arrRef spec4 2) (((cfg4.win 2).blk t).view.emb (ix3 (0 : Fin 1) (0 : Fin 1) d)) = V c (Pipeline.arrRef spec4 2) (ix3 a (0 : Fin 1) d)
  refine congrArg _ (funext fun x => Fin.ext ?_)
  match x with
  | ⟨0, _⟩ => show win4_2.index t (0 : Fin 3) * 1 + 1 * 0 = a.val; omega
  | ⟨1, _⟩ => show win4_2.index t (1 : Fin 3) * 1 + 1 * 0 = 0; omega
  | ⟨2, _⟩ => show win4_2.index t (2 : Fin 3) * 128 + 1 * d.val = d.val; omega

/-- The kernel's arithmetic on a point's three blocks is the messages at the output index the block entry lands on. -/
theorem block_messages4 (c : Dev nD) (t : Fin cfg4.N) (e : Fin 10000) (d : Fin 128) (i : S3x300000x128.Idx)
    (h0 : (i 0).val = win4_3.index t (0 : Fin 3)) (h1 : (i 1).val = win4_3.index t (1 : Fin 3) * 10000 + e.val)
    (h2 : (i 2).val = d.val) :
    (k4_pay1 (F := Ideal) (iblk4 V c 0 t) (iblk4 V c 1 t) (iblk4 V c 2 t) : S1x10000x128.Idx → EReal) (ix3 (0 : Fin 1) e d)
      = messages4 V c i := by
  obtain ⟨f00, f01, f02, f10, f11, f12, f20, f21, f22, -, -, -⟩ := index_facts4 t
  obtain ⟨a, r, d', rfl⟩ : ∃ (a : Fin 3) (r : Fin 300000) (d' : Fin 128), i = ix3 a r d' := ⟨i 0, i 1, i 2, eq_ix3 i⟩
  have ha : a.val = win4_3.index t (0 : Fin 3) := h0
  have hr : r.val = win4_3.index t (1 : Fin 3) * 10000 + e.val := h1
  obtain rfl : d' = d := Fin.ext h2
  refine (msg_block4_apply (iblk4 V c 0 t) (iblk4 V c 1 t) (iblk4 V c 2 t) e d').trans ?_
  show _ = Cert.Gnn.msgAt _ _ _ a r d'
  unfold Cert.Gnn.msgAt
  refine congrArg₂ (· + ·) (Finset.sum_congr rfl fun k _ => congrArg₂ (· * ·) ?_ ?_) ?_
  · exact src_block4_apply V c t e k a r (by rw [f00]; exact ha) (by rw [f01]; exact hr) f02
  · exact weight_block4_apply V c t k d' a (by rw [f10]; exact ha) f11 f12
  · exact (bias_block4_apply V c t d' a (by rw [f20]; exact ha) f21 f22).trans (Cert.Gnn.dropMid_ix2 (V c (Pipeline.arrRef spec4 2)) a d').symm

/-- What a point writes back is its block of the messages. -/
theorem flushed4_eq (c : Dev nD) (t : Fin cfg4.N) :
    (dat4 (F := Ideal) V c).flushed 3 t = ((cfg4.win 3).blk t).view.read (Elt Ideal) (messages4 V c) := by
  show (cfg4.win 3).cut (grid4.coords t) ((dat4 V c).after 3 t) = _
  rw [after4_3]
  unfold out4_3
  rw [View.canon_unit_zero zero_offsets]
  simp only [View.ld_unit_zero (S := S1x10000x128) zero_offsets, View.ld_unit_zero (S := S1x128x128) zero_offsets,
    View.ld_unit_zero (S := S1x1x128) zero_offsets]
  refine funext fun (j : S1x10000x128.Idx) => ?_
  obtain ⟨u, e, d, rfl⟩ : ∃ (u : Fin 1) (e : Fin 10000) (d : Fin 128), j = ix3 u e d := ⟨j 0, j 1, j 2, eq_ix3 j⟩
  obtain rfl : u = 0 := Subsingleton.elim _ _
  show (k4_pay1 (F := Ideal) (iblk4 V c 0 t) (iblk4 V c 1 t) (iblk4 V c 2 t) : S1x10000x128.Idx → EReal) (ix3 (0 : Fin 1) e d)
    = messages4 V c (((cfg4.win 3).blk t).view.emb (ix3 (0 : Fin 1) e d))
  refine block_messages4 V c t e d _ ?_ ?_ ?_
  · show win4_3.index t (0 : Fin 3) * 1 + 1 * 0 = win4_3.index t (0 : Fin 3); omega
  · show win4_3.index t (1 : Fin 3) * 10000 + 1 * e.val = win4_3.index t (1 : Fin 3) * 10000 + e.val; omega
  · show win4_3.index t (2 : Fin 3) * 128 + 1 * d.val = d.val
    have := (index_facts4 t).2.2.2.2.2.2.2.2.2.2.2; omega

/-- An index of the output array is in a point's block iff each coordinate is in the block's range on its axis. -/
theorem mem_block4 (t : Fin cfg4.N) (i : S3x300000x128.Idx) :
    i ∈ ((cfg4.win 3).blk t).view.set ↔ ∀ a : Fin 3, win4_3.index t a * S1x10000x128.size a ≤ (i a).val
      ∧ (i a).val < win4_3.index t a * S1x10000x128.size a + S1x10000x128.size a := by
  show i ∈ ((View.whole main_v61).slice (win4_3.rect t)).set ↔ _
  rw [View.set_slice_whole, Rect.mem_set_unit]
  exact Iff.rfl

/-- Every output index is in the block of the point for its type and its row's group of 10000. -/
theorem covered4 (i : S3x300000x128.Idx) :
    ∃ t : Fin cfg4.N, (cfg4.win 3).flush t = true ∧ i ∈ ((cfg4.win 3).blk t).view.set := by
  have hi0 : (i 0).val < 3 := (i 0).isLt
  have hi1 : (i 1).val < 300000 := (i 1).isLt
  have hi2 : (i 2).val < 128 := (i 2).isLt
  obtain ⟨t, ht⟩ := index_onto4 ⟨(i 0).val, hi0⟩ ⟨(i 1).val / 10000, by omega⟩
  have q0 : win4_3.index t (0 : Fin 3) = (i 0).val := congrFun ht 0
  have q1 : win4_3.index t (1 : Fin 3) = (i 1).val / 10000 := congrFun ht 1
  have q2 : win4_3.index t (2 : Fin 3) = 0 := congrFun ht 2
  refine ⟨t, flush4_3 t, ?_⟩
  rw [mem_block4]
  intro a
  match a with
  | ⟨0, _⟩ => show win4_3.index t (0 : Fin 3) * 1 ≤ (i 0).val ∧ (i 0).val < win4_3.index t (0 : Fin 3) * 1 + 1; omega
  | ⟨1, _⟩ => show win4_3.index t (1 : Fin 3) * 10000 ≤ (i 1).val ∧ (i 1).val < win4_3.index t (1 : Fin 3) * 10000 + 10000; omega
  | ⟨2, _⟩ => show win4_3.index t (2 : Fin 3) * 128 ≤ (i 2).val ∧ (i 2).val < win4_3.index t (2 : Fin 3) * 128 + 128; omega

/-- The output array after the region is the messages of the three arrays the region read, for any entry contents. -/
theorem final4 (V : (c : Dev nD) → (b : Ref sig .tc) → Buf (Elt Ideal) ((c : Thread nD τ).loc b)) (c : Dev nD) :
    (dat4 (F := Ideal) V c).arrAt 3 cfg4.N
      = Cert.Gnn.msg (V c (Pipeline.arrRef spec4 0)) (V c (Pipeline.arrRef spec4 1)) (Cert.Gnn.dropMid (V c (Pipeline.arrRef spec4 2))) :=
  (dat4 (F := Ideal) V c).arrAt_eq_of_cover 3 (messages4 V c) (fun t _ => flushed4_eq V c t) covered4

end Cert.KernelIdeal.MsgValue

end
-- ==== Proof.GruCell.lean ====
/-
  The gated recurrent cell on one block of rows, read entry by entry over the exact extended reals.

  A block of R rows of the aggregated messages x (K columns) and of the state h (128 columns) goes through two affine
  maps into 384 columns, x·K + b₀ and h·R + b₁; the three bands of 128 columns of each are combined by
  z = σ(xz + rz), r = σ(xr + rr), and the new state is z·h + (1 − z)·tanh(xh + r·rh).  Each step is read here at a
  row and a column: a product with a zero accumulator is the sum over the shared axis, a bias row stretched over
  the rows is that row's entry, a band of columns is the entry at the band's offset plus the column.  The sums along a
  row use nothing but that row, so the cell of a block is the cell of the whole arrays at the block's rows.
-/
import proofs.«114658_j8254927143009_2_alg».proof.Proof.Spec
import proofs.«114658_j8254927143009_2_alg».proof.Proof.LibPlainProduct
import Idealize.ShloMosaic.Lib.Pipeline.Value

noncomputable section

namespace Cert.KernelIdeal.GruValue

open Idealize.ShloMosaic Idealize.ShloMosaic.ValueIdx

/-- Row n, column j of the affine map x·K + b[row] into 384 columns, for a block of any number of rows. -/
def linAt {R K : ℕ} (x : (⟨2, ![R, K]⟩ : Shape).Idx → EReal) (k : (⟨2, ![K, 384]⟩ : Shape).Idx → EReal)
    (b : (⟨2, ![2, 384]⟩ : Shape).Idx → EReal) (row : Fin 2) (n : Fin R) (j : Fin 384) : EReal :=
  (∑ kk : Fin K, x (ix2 n kk) * k (ix2 kk j)) + b (ix2 row j)

/-- The gated recurrent cell at row n, component c, for a block of any number of rows. -/
def cellAt {R K : ℕ} (x : (⟨2, ![R, K]⟩ : Shape).Idx → EReal) (k : (⟨2, ![K, 384]⟩ : Shape).Idx → EReal)
    (rk : (⟨2, ![128, 384]⟩ : Shape).Idx → EReal) (b : (⟨2, ![2, 384]⟩ : Shape).Idx → EReal)
    (h : (⟨2, ![R, 128]⟩ : Shape).Idx → EReal) (n : Fin R) (c : Fin 128) : EReal :=
  Ideal.logistic (linAt x k b 0 n (Cert.Gnn.col 0 (by omega) c) + linAt h rk b 1 n (Cert.Gnn.col 0 (by omega) c)) * h (ix2 n c)
    + (1 - Ideal.logistic (linAt x k b 0 n (Cert.Gnn.col 0 (by omega) c) + linAt h rk b 1 n (Cert.Gnn.col 0 (by omega) c)))
      * Ideal.tanh (linAt x k b 0 n (Cert.Gnn.col 256 (by omega) c)
          + Ideal.logistic (linAt x k b 0 n (Cert.Gnn.col 128 (by omega) c) + linAt h rk b 1 n (Cert.Gnn.col 128 (by omega) c))
            * linAt h rk b 1 n (Cert.Gnn.col 256 (by omega) c))

/-- On the whole arrays it is the specification's cell. -/
theorem gruAt_eq_cellAt {K : ℕ} (x : (⟨2, ![100000, K]⟩ : Shape).Idx → EReal) (k : (⟨2, ![K, 384]⟩ : Shape).Idx → EReal)
    (rk : (⟨2, ![128, 384]⟩ : Shape).Idx → EReal) (b : (⟨2, ![2, 384]⟩ : Shape).Idx → EReal)
    (h : (⟨2, ![100000, 128]⟩ : Shape).Idx → EReal) (n : Fin 100000) (c : Fin 128) :
    Cert.Gnn.gruAt x k rk b h n c = cellAt x k rk b h n c := rfl

/-- An affine map's row uses only that row of its left operand. -/
theorem linAt_congr {R R' K : ℕ} (x : (⟨2, ![R, K]⟩ : Shape).Idx → EReal) (x' : (⟨2, ![R', K]⟩ : Shape).Idx → EReal)
    (k : (⟨2, ![K, 384]⟩ : Shape).Idx → EReal) (b : (⟨2, ![2, 384]⟩ : Shape).Idx → EReal) (row : Fin 2)
    (n : Fin R) (n' : Fin R') (hx : ∀ kk : Fin K, x (ix2 n kk) = x' (ix2 n' kk)) (j : Fin 384) :
    linAt x k b row n j = linAt x' k b row n' j := by
  unfold linAt
  exact congrArg (· + b (ix2 row j)) (Finset.sum_congr rfl fun kk _ => congrArg (· * k (ix2 kk j)) (hx kk))

/-- The cell at a row uses only that row of the messages and of the state. -/
theorem cellAt_congr {R R' K : ℕ} (x : (⟨2, ![R, K]⟩ : Shape).Idx → EReal) (x' : (⟨2, ![R', K]⟩ : Shape).Idx → EReal)
    (k : (⟨2, ![K, 384]⟩ : Shape).Idx → EReal) (rk : (⟨2, ![128, 384]⟩ : Shape).Idx → EReal)
    (b : (⟨2, ![2, 384]⟩ : Shape).Idx → EReal)
    (h : (⟨2, ![R, 128]⟩ : Shape).Idx → EReal) (h' : (⟨2, ![R', 128]⟩ : Shape).Idx → EReal)
    (n : Fin R) (n' : Fin R') (hx : ∀ kk : Fin K, x (ix2 n kk) = x' (ix2 n' kk))
    (hh : ∀ kk : Fin 128, h (ix2 n kk) = h' (ix2 n' kk)) (c : Fin 128) :
    cellAt x k rk b h n c = cellAt x' k rk b h' n' c := by
  unfold cellAt
  rw [linAt_congr x x' k b 0 n n' hx, linAt_congr x x' k b 0 n n' hx, linAt_congr x x' k b 0 n n' hx,
    linAt_congr h h' rk b 1 n n' hh, linAt_congr h h' rk b 1 n n' hh, linAt_congr h h' rk b 1 n n' hh, hh c]

/-- The logistic function of a block, at an entry. -/
theorem logistic_apply {s : Shape} {φ : FTy} (a : FVec Ideal s φ) (i : s.Idx) : logistic a i = Ideal.logistic (a i) := rfl

/-- The hyperbolic tangent of a block, at an entry. -/
theorem tanh_apply {s : Shape} {φ : FTy} (a : FVec Ideal s φ) (i : s.Idx) : tanh a i = Ideal.tanh (a i) := rfl

/-- The zero offsets of a block that is read and written whole. -/
theorem hz : (![0, 0] : Fin 2 → Nat) = fun _ => 0 := funext fun a => by fin_cases a <;> rfl

/-- A band of 128 columns of a 384-column block, at a row and a column: the entry at the band's offset plus the column. -/
theorem band_apply (o : ℕ) (ho : o + 128 ≤ 384) (v : (⟨2, ![2000, 384]⟩ : Shape).Idx → EReal)
    (hs : (⟨2, ![2000, 384]⟩ : Shape).Slices ![0, o] ⟨2, ![2000, 128]⟩) (r : Fin 2000) (c : Fin 128) :
    extractStridedSlice ⟨2, ![2000, 128]⟩ ![0, o] v hs (ix2 r c) = v (ix2 r (Cert.Gnn.col o ho c)) := by
  refine extractStridedSlice_apply _ _ _ _ _ fun a => ?_
  match a with
  | ⟨0, _⟩ => show r.val = 0 + r.val; omega
  | ⟨1, _⟩ => show o + c.val = o + c.val; rfl

/-- One row of the two bias rows, taken out, flattened and unflattened, and stretched over 2000 rows: at any row it is
    that bias row's entry. -/
theorem bias_row_apply (row : Fin 2) (off : Fin 2 → ℕ) (h0 : off 0 = row.val) (h1 : off 1 = 0)
    (xb : (⟨2, ![2, 384]⟩ : Shape).Idx → EReal)
    (hs : (⟨2, ![2, 384]⟩ : Shape).Slices off ⟨2, ![1, 384]⟩)
    (hc1 : (⟨2, ![1, 384]⟩ : Shape).ShapeCasts ⟨1, ![384]⟩) (hc2 : (⟨1, ![384]⟩ : Shape).ShapeCasts ⟨2, ![1, 384]⟩)
    (hb : (⟨2, ![1, 384]⟩ : Shape).Broadcasts ⟨2, ![2000, 384]⟩) (r : Fin 2000) (j : Fin 384) :
    broadcastTo ⟨2, ![2000, 384]⟩ (shapeCast ⟨2, ![1, 384]⟩ (shapeCast ⟨1, ![384]⟩
      (extractStridedSlice ⟨2, ![1, 384]⟩ off xb hs) hc1) hc2) hb (ix2 r j) = xb (ix2 row j) := by
  rw [shapeCast_shapeCast]
  refine (broadcastTo_apply _ hb (ix2 r j) (ix2 (0 : Fin 1) j) fun a => ?_).trans ?_
  · match a with
    | ⟨0, _⟩ => exact (if_pos rfl).symm
    | ⟨1, _⟩ => exact (if_neg (show ¬ (384 : ℕ) = 1 by decide)).symm
  · refine extractStridedSlice_apply _ _ _ _ _ fun a => ?_
    match a with
    | ⟨0, _⟩ => show row.val = off 0 + 0; omega
    | ⟨1, _⟩ => show j.val = off 1 + j.val; omega

/-- A block of rows, rounded to the narrow format (which the exact reals do not see), times a weight matrix into a zero
    accumulator, plus a stretched bias row: the affine map at a row and a column. -/
theorem affine_apply {K : ℕ} (d : DotDims ⟨2, ![2000, K]⟩ ⟨2, ![K, 384]⟩ ⟨2, ![2000, 384]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![2000, K]⟩ .f32) (w : FVec Ideal ⟨2, ![K, 384]⟩ .f32) (hl : FTy.bf16.bits < FTy.f32.bits)
    (row : Fin 2) (off : Fin 2 → ℕ) (h0 : off 0 = row.val) (h1 : off 1 = 0)
    (xb : FVec Ideal ⟨2, ![2, 384]⟩ .f32)
    (hs : (⟨2, ![2, 384]⟩ : Shape).Slices off ⟨2, ![1, 384]⟩)
    (hc1 : (⟨2, ![1, 384]⟩ : Shape).ShapeCasts ⟨1, ![384]⟩) (hc2 : (⟨1, ![384]⟩ : Shape).ShapeCasts ⟨2, ![1, 384]⟩)
    (hb : (⟨2, ![1, 384]⟩ : Shape).Broadcasts ⟨2, ![2000, 384]⟩) (r : Fin 2000) (j : Fin 384) :
    addf (matmul d none (truncf .bf16 l hl) (truncf .bf16 w hl) (constant ⟨2, ![2000, 384]⟩ .f32 0x00000000#32))
      (broadcastTo ⟨2, ![2000, 384]⟩ (shapeCast ⟨2, ![1, 384]⟩ (shapeCast ⟨1, ![384]⟩
        (extractStridedSlice ⟨2, ![1, 384]⟩ off xb hs) hc1) hc2) hb) (ix2 r j) = linAt l w xb row r j := by
  rw [addf_apply, bias_row_apply row off h0 h1 xb hs hc1 hc2 hb r j]
  exact congrArg (· + xb (ix2 row j)) (matmul_zero_plain_apply d hlc hrc hln hrn hlb hrb none _ _ r j)

end Cert.KernelIdeal.GruValue

end
-- ==== Proof.GruRegion1.lean ====
/-
  The first gated-recurrent-cell region, read as one function of the arrays it finds.

  The region walks 50 grid points; point t takes rows 2000·t … 2000·t + 1999 of the aggregated messages x and of the
  state h, and the whole weight matrices and bias rows, and writes the same rows of the result.  What it writes at a row
  and a column is the cell of the block, which uses only that row of x and h: so it is the cell of the whole arrays at
  row 2000·t + r.  The 50 blocks of 2000 rows cover the 100000 rows, hence the result array is the cell everywhere.
-/
import proofs.«114658_j8254927143009_2_alg».proof.Proof.Gen.KernelIdeal.Frame
import proofs.«114658_j8254927143009_2_alg».proof.Proof.GruCell
import Idealize.ShloMosaic.Lib.Pipeline.Value

noncomputable section

namespace Cert.KernelIdeal.GruValue

open Cert.KernelIdeal Cert.KernelIdeal.Gen Idealize.ShloMosaic Idealize.ShloMosaic.ValueIdx Idealize.ShloMosaic.Pipeline
open Idealize.ShloMosaic.TcCoe

variable (V : (c : Dev nD) → (b : Ref sig .tc) → Buf (Elt Ideal) ((c : Thread nD τ).loc b))

/-- The body's stored value at a row and a column is the cell of its five blocks. -/
theorem pay_R1 (xh xx : Vec Ideal S2000x128 .f32) (xk xrk : Vec Ideal S128x384 .f32) (xb : Vec Ideal S2x384 .f32)
    (r : Fin 2000) (c : Fin 128) :
    k1_pay1 xh xx xk xrk xb (ix2 r c) = cellAt xx xk xrk xb xh r c := by
  unfold k1_pay1
  simp only [shapeCast_self]
  simp only [addf_apply, mulf_apply, subf_apply, broadcast_apply, logistic_apply, tanh_apply]
  simp only [band_apply 0 (by omega), band_apply 128 (by omega), band_apply 256 (by omega)]
  simp only [affine_apply dot_S2000x128_S128x384_S2000x384_1_0_0_1_n_n rfl rfl rfl rfl rfl rfl xx xk bitsLt_bf16_f32 0 ![0, 0] rfl rfl xb,
    affine_apply dot_S2000x128_S128x384_S2000x384_1_0_0_1_n_n rfl rfl rfl rfl rfl rfl xh xrk bitsLt_bf16_f32 1 ![1, 0] rfl rfl xb]
  rw [Ideal.ofBits_def, Cert.Gnn.ofBits_one_f32]
  rfl

/-- The windows' index maps, decided over the grid: the row blocks of x, h and the result move with the point, the
    weights and the bias rows stay whole. -/
theorem idx_R1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of point t's block of x is row 2000·t + r of x. -/
theorem xblk_R1 (c : Dev nD) (t : Fin cfg1.N) (r : Fin 2000) (kk : Fin 128) (n : Fin 100000)
    (hn : n.val = 2000 * t.val + r.val) :
    (iblk1 V c 0 t : Vec Ideal S2000x128 .f32) (ix2 r kk)
      = (V c (Pipeline.arrRef spec1 0) : S100000x128.Idx → EReal) (ix2 n kk) := by
  obtain ⟨e0, e1, -⟩ := idx_R1 t
  unfold iblk1
  rw [View.read_apply]
  refine congrArg (V c (Pipeline.arrRef spec1 0) : S100000x128.Idx → EReal) (funext fun a => Fin.ext ?_)
  match a with
  | ⟨0, _⟩ => show win1_0.index t (0 : Fin 2) * 2000 + 1 * r.val = n.val; omega
  | ⟨1, _⟩ => show win1_0.index t (1 : Fin 2) * 128 + 1 * kk.val = kk.val; omega

/-- Row r of point t's block of h is row 2000·t + r of h. -/
theorem hblk_R1 (c : Dev nD) (t : Fin cfg1.N) (r : Fin 2000) (kk : Fin 128) (n : Fin 100000)
    (hn : n.val = 2000 * t.val + r.val) :
    (iblk1 V c 1 t : Vec Ideal S2000x128 .f32) (ix2 r kk)
      = (V c (Pipeline.arrRef spec1 1) : S100000x128.Idx → EReal) (ix2 n kk) := by
  obtain ⟨-, -, e0, e1, -⟩ := idx_R1 t
  unfold iblk1
  rw [View.read_apply]
  refine congrArg (V c (Pipeline.arrRef spec1 1) : S100000x128.Idx → EReal) (funext fun a => Fin.ext ?_)
  match a with
  | ⟨0, _⟩ => show win1_1.index t (0 : Fin 2) * 2000 + 1 * r.val = n.val; omega
  | ⟨1, _⟩ => show win1_1.index t (1 : Fin 2) * 128 + 1 * kk.val = kk.val; omega

/-- Every point's block of the input weights is the whole matrix. -/
theorem kblk_R1 (c : Dev nD) (t : Fin cfg1.N) :
    (iblk1 V c 2 t : Vec Ideal S128x384 .f32) = (V c (Pipeline.arrRef spec1 2) : S128x384.Idx → EReal) := by
  obtain ⟨-, -, -, -, e0, e1, -⟩ := idx_R1 t
  funext y
  unfold iblk1
  rw [View.read_apply]
  refine congrArg (V c (Pipeline.arrRef spec1 2) : S128x384.Idx → EReal) (funext fun a => Fin.ext ?_)
  match a with
  | ⟨0, _⟩ => show win1_2.index t (0 : Fin 2) * 128 + 1 * (y 0).val = (y 0).val; omega
  | ⟨1, _⟩ => show win1_2.index t (1 : Fin 2) * 384 + 1 * (y 1).val = (y 1).val; omega

/-- Every point's block of the recurrent weights is the whole matrix. -/
theorem rkblk_R1 (c : Dev nD) (t : Fin cfg1.N) :
    (iblk1 V c 3 t : Vec Ideal S128x384 .f32) = (V c (Pipeline.arrRef spec1 3) : S128x384.Idx → EReal) := by
  obtain ⟨-, -, -, -, -, -, e0, e1, -⟩ := idx_R1 t
  funext y
  unfold iblk1
  rw [View.read_apply]
  refine congrArg (V c (Pipeline.arrRef spec1 3) : S128x384.Idx → EReal) (funext fun a => Fin.ext ?_)
  match a with
  | ⟨0, _⟩ => show win1_3.index t (0 : Fin 2) * 128 + 1 * (y 0).val = (y 0).val; omega
  | ⟨1, _⟩ => show win1_3.index t (1 : Fin 2) * 384 + 1 * (y 1).val = (y 1).val; omega

/-- Every point's block of the two bias rows is both rows. -/
theorem bblk_R1 (c : Dev nD) (t : Fin cfg1.N) :
    (iblk1 V c 4 t : Vec Ideal S2x384 .f32) = (V c (Pipeline.arrRef spec1 4) : S2x384.Idx → EReal) := by
  obtain ⟨-, -, -, -, -, -, -, -, e0, e1, -⟩ := idx_R1 t
  funext y
  unfold iblk1
  rw [View.read_apply]
  refine congrArg (V c (Pipeline.arrRef spec1 4) : S2x384.Idx → EReal) (funext fun a => Fin.ext ?_)
  match a with
  | ⟨0, _⟩ => show win1_4.index t (0 : Fin 2) * 2 + 1 * (y 0).val = (y 0).val; omega
  | ⟨1, _⟩ => show win1_4.index t (1 : Fin 2) * 384 + 1 * (y 1).val = (y 1).val; omega

/-- The cell of the arrays the region finds: messages, input weights, recurrent weights, bias rows, state. -/
abbrev cell_R1 (c : Dev nD) : S100000x128.Idx → EReal :=
  Cert.Gnn.gru (V c (Pipeline.arrRef spec1 0)) (V c (Pipeline.arrRef spec1 2)) (V c (Pipeline.arrRef spec1 3))
    (V c (Pipeline.arrRef spec1 4)) (V c (Pipeline.arrRef spec1 1))

/-- What point t writes back is its block of rows of the cell of the whole arrays. -/
theorem flushed_R1 (c : Dev nD) (t : Fin cfg1.N) :
    (dat1 (F := Ideal) V c).flushed 5 t = ((cfg1.win 5).blk t).view.read (Elt Ideal) (cell_R1 V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x384) hz, View.ld_unit_zero (S := S2x384) hz]
  funext j
  obtain ⟨r, cc, rfl⟩ : ∃ (r : Fin 2000) (cc : Fin 128), j = ix2 r cc := ⟨j 0, j 1, eq_ix2 j⟩
  obtain ⟨-, -, -, -, -, -, -, -, -, -, e0, e1⟩ := idx_R1 t
  have ht : t.val < 50 := lt_of_lt_of_eq t.isLt (N_1 : cfg1.N = 50)
  have hr : r.val < 2000 := r.isLt
  refine (pay_R1 (iblk1 V c 1 t) (iblk1 V c 0 t) (iblk1 V c 2 t) (iblk1 V c 3 t) (iblk1 V c 4 t) r cc).trans ?_
  rw [View.read_apply]
  have hemb : ((cfg1.win 5).blk t).view.emb (ix2 r cc) = ix2 (⟨2000 * t.val + r.val, by omega⟩ : Fin 100000) cc :=
    funext fun a => Fin.ext (by
      match a with
      | ⟨0, _⟩ => show win1_5.index t (0 : Fin 2) * 2000 + 1 * r.val = 2000 * t.val + r.val; omega
      | ⟨1, _⟩ => show win1_5.index t (1 : Fin 2) * 128 + 1 * cc.val = cc.val; omega)
  show _ = cell_R1 V c (((cfg1.win 5).blk t).view.emb (ix2 r cc))
  rw [hemb]
  unfold cell_R1
  rw [Cert.Gnn.gru_ix2, gruAt_eq_cellAt, kblk_R1, rkblk_R1, bblk_R1]
  exact cellAt_congr _ _ _ _ _ _ _ r _ (fun kk => xblk_R1 V c t r kk _ rfl) (fun kk => hblk_R1 V c t r kk _ rfl) cc

/-- A row and a column are in point t's block of the result iff the row is among the block's 2000 rows. -/
theorem mem_blk_R1 (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v30).slice (win1_5.rect t)).set ↔ _
  rw [View.set_slice_whole, Rect.mem_set_unit]
  exact Iff.rfl

/-- The 50 blocks of 2000 rows cover the 100000 rows: row n is in the block of point n / 2000. -/
theorem cover_R1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega) (N_1 : cfg1.N = 50).symm⟩, rfl⟩
  obtain ⟨-, -, -, -, -, -, -, -, -, -, e0, e1⟩ := idx_R1 t
  refine ⟨t, flush1_5 t, ?_⟩
  rw [mem_blk_R1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- After the region the result array is the cell of the arrays the region found, at every row and column. -/
theorem final1 (c : Dev nD) :
    (dat1 (F := Ideal) V c).arrAt 5 cfg1.N
      = Cert.Gnn.gru (V c (Pipeline.arrRef spec1 0)) (V c (Pipeline.arrRef spec1 2)) (V c (Pipeline.arrRef spec1 3))
          (V c (Pipeline.arrRef spec1 4)) (V c (Pipeline.arrRef spec1 1)) :=
  (dat1 V c).arrAt_eq_of_cover 5 (cell_R1 V c) (fun t _ => flushed_R1 V c t) (cover_R1)

end Cert.KernelIdeal.GruValue

end
-- ==== Proof.GruRegion3.lean ====
/-
  The second gated-recurrent-cell region, read as one function of the arrays it finds.

  The region walks 50 grid points; point t takes rows 2000·t … 2000·t + 1999 of the aggregated messages x and of the
  state h, and the whole weight matrices and bias rows, and writes the same rows of the result.  What it writes at a row
  and a column is the cell of the block, which uses only that row of x and h: so it is the cell of the whole arrays at
  row 2000·t + r.  The 50 blocks of 2000 rows cover the 100000 rows, hence the result array is the cell everywhere.
-/
import proofs.«114658_j8254927143009_2_alg».proof.Proof.Gen.KernelIdeal.Frame
import proofs.«114658_j8254927143009_2_alg».proof.Proof.GruCell
import Idealize.ShloMosaic.Lib.Pipeline.Value

noncomputable section

namespace Cert.KernelIdeal.GruValue

open Cert.KernelIdeal Cert.KernelIdeal.Gen Idealize.ShloMosaic Idealize.ShloMosaic.ValueIdx Idealize.ShloMosaic.Pipeline
open Idealize.ShloMosaic.TcCoe

variable (V : (c : Dev nD) → (b : Ref sig .tc) → Buf (Elt Ideal) ((c : Thread nD τ).loc b))

/-- The body's stored value at a row and a column is the cell of its five blocks. -/
theorem pay_R3 (xh xx : Vec Ideal S2000x128 .f32) (xk xrk : Vec Ideal S128x384 .f32) (xb : Vec Ideal S2x384 .f32)
    (r : Fin 2000) (c : Fin 128) :
    k3_pay1 xh xx xk xrk xb (ix2 r c) = cellAt xx xk xrk xb xh r c := by
  unfold k3_pay1
  simp only [shapeCast_self]
  simp only [addf_apply, mulf_apply, subf_apply, broadcast_apply, logistic_apply, tanh_apply]
  simp only [band_apply 0 (by omega), band_apply 128 (by omega), band_apply 256 (by omega)]
  simp only [affine_apply dot_S2000x128_S128x384_S2000x384_1_0_0_1_n_n rfl rfl rfl rfl rfl rfl xx xk bitsLt_bf16_f32 0 ![0, 0] rfl rfl xb,
    affine_apply dot_S2000x128_S128x384_S2000x384_1_0_0_1_n_n rfl rfl rfl rfl rfl rfl xh xrk bitsLt_bf16_f32 1 ![1, 0] rfl rfl xb]
  rw [Ideal.ofBits_def, Cert.Gnn.ofBits_one_f32]
  rfl

/-- The windows' index maps, decided over the grid: the row blocks of x, h and the result move with the point, the
    weights and the bias rows stay whole. -/
theorem idx_R3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row r of point t's block of x is row 2000·t + r of x. -/
theorem xblk_R3 (c : Dev nD) (t : Fin cfg3.N) (r : Fin 2000) (kk : Fin 128) (n : Fin 100000)
    (hn : n.val = 2000 * t.val + r.val) :
    (iblk3 V c 0 t : Vec Ideal S2000x128 .f32) (ix2 r kk)
      = (V c (Pipeline.arrRef spec3 0) : S100000x128.Idx → EReal) (ix2 n kk) := by
  obtain ⟨e0, e1, -⟩ := idx_R3 t
  unfold iblk3
  rw [View.read_apply]
  refine congrArg (V c (Pipeline.arrRef spec3 0) : S100000x128.Idx → EReal) (funext fun a => Fin.ext ?_)
  match a with
  | ⟨0, _⟩ => show win3_0.index t (0 : Fin 2) * 2000 + 1 * r.val = n.val; omega
  | ⟨1, _⟩ => show win3_0.index t (1 : Fin 2) * 128 + 1 * kk.val = kk.val; omega

/-- Row r of point t's block of h is row 2000·t + r of h. -/
theorem hblk_R3 (c : Dev nD) (t : Fin cfg3.N) (r : Fin 2000) (kk : Fin 128) (n : Fin 100000)
    (hn : n.val = 2000 * t.val + r.val) :
    (iblk3 V c 1 t : Vec Ideal S2000x128 .f32) (ix2 r kk)
      = (V c (Pipeline.arrRef spec3 1) : S100000x128.Idx → EReal) (ix2 n kk) := by
  obtain ⟨-, -, e0, e1, -⟩ := idx_R3 t
  unfold iblk3
  rw [View.read_apply]
  refine congrArg (V c (Pipeline.arrRef spec3 1) : S100000x128.Idx → EReal) (funext fun a => Fin.ext ?_)
  match a with
  | ⟨0, _⟩ => show win3_1.index t (0 : Fin 2) * 2000 + 1 * r.val = n.val; omega
  | ⟨1, _⟩ => show win3_1.index t (1 : Fin 2) * 128 + 1 * kk.val = kk.val; omega

/-- Every point's block of the input weights is the whole matrix. -/
theorem kblk_R3 (c : Dev nD) (t : Fin cfg3.N) :
    (iblk3 V c 2 t : Vec Ideal S128x384 .f32) = (V c (Pipeline.arrRef spec3 2) : S128x384.Idx → EReal) := by
  obtain ⟨-, -, -, -, e0, e1, -⟩ := idx_R3 t
  funext y
  unfold iblk3
  rw [View.read_apply]
  refine congrArg (V c (Pipeline.arrRef spec3 2) : S128x384.Idx → EReal) (funext fun a => Fin.ext ?_)
  match a with
  | ⟨0, _⟩ => show win3_2.index t (0 : Fin 2) * 128 + 1 * (y 0).val = (y 0).val; omega
  | ⟨1, _⟩ => show win3_2.index t (1 : Fin 2) * 384 + 1 * (y 1).val = (y 1).val; omega

/-- Every point's block of the recurrent weights is the whole matrix. -/
theorem rkblk_R3 (c : Dev nD) (t : Fin cfg3.N) :
    (iblk3 V c 3 t : Vec Ideal S128x384 .f32) = (V c (Pipeline.arrRef spec3 3) : S128x384.Idx → EReal) := by
  obtain ⟨-, -, -, -, -, -, e0, e1, -⟩ := idx_R3 t
  funext y
  unfold iblk3
  rw [View.read_apply]
  refine congrArg (V c (Pipeline.arrRef spec3 3) : S128x384.Idx → EReal) (funext fun a => Fin.ext ?_)
  match a with
  | ⟨0, _⟩ => show win3_3.index t (0 : Fin 2) * 128 + 1 * (y 0).val = (y 0).val; omega
  | ⟨1, _⟩ => show win3_3.index t (1 : Fin 2) * 384 + 1 * (y 1).val = (y 1).val; omega

/-- Every point's block of the two bias rows is both rows. -/
theorem bblk_R3 (c : Dev nD) (t : Fin cfg3.N) :
    (iblk3 V c 4 t : Vec Ideal S2x384 .f32) = (V c (Pipeline.arrRef spec3 4) : S2x384.Idx → EReal) := by
  obtain ⟨-, -, -, -, -, -, -, -, e0, e1, -⟩ := idx_R3 t
  funext y
  unfold iblk3
  rw [View.read_apply]
  refine congrArg (V c (Pipeline.arrRef spec3 4) : S2x384.Idx → EReal) (funext fun a => Fin.ext ?_)
  match a with
  | ⟨0, _⟩ => show win3_4.index t (0 : Fin 2) * 2 + 1 * (y 0).val = (y 0).val; omega
  | ⟨1, _⟩ => show win3_4.index t (1 : Fin 2) * 384 + 1 * (y 1).val = (y 1).val; omega

/-- The cell of the arrays the region finds: messages, input weights, recurrent weights, bias rows, state. -/
abbrev cell_R3 (c : Dev nD) : S100000x128.Idx → EReal :=
  Cert.Gnn.gru (V c (Pipeline.arrRef spec3 0)) (V c (Pipeline.arrRef spec3 2)) (V c (Pipeline.arrRef spec3 3))
    (V c (Pipeline.arrRef spec3 4)) (V c (Pipeline.arrRef spec3 1))

/-- What point t writes back is its block of rows of the cell of the whole arrays. -/
theorem flushed_R3 (c : Dev nD) (t : Fin cfg3.N) :
    (dat3 (F := Ideal) V c).flushed 5 t = ((cfg3.win 5).blk t).view.read (Elt Ideal) (cell_R3 V c) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x384) hz, View.ld_unit_zero (S := S2x384) hz]
  funext j
  obtain ⟨r, cc, rfl⟩ : ∃ (r : Fin 2000) (cc : Fin 128), j = ix2 r cc := ⟨j 0, j 1, eq_ix2 j⟩
  obtain ⟨-, -, -, -, -, -, -, -, -, -, e0, e1⟩ := idx_R3 t
  have ht : t.val < 50 := lt_of_lt_of_eq t.isLt (N_3 : cfg3.N = 50)
  have hr : r.val < 2000 := r.isLt
  refine (pay_R3 (iblk3 V c 1 t) (iblk3 V c 0 t) (iblk3 V c 2 t) (iblk3 V c 3 t) (iblk3 V c 4 t) r cc).trans ?_
  rw [View.read_apply]
  have hemb : ((cfg3.win 5).blk t).view.emb (ix2 r cc) = ix2 (⟨2000 * t.val + r.val, by omega⟩ : Fin 100000) cc :=
    funext fun a => Fin.ext (by
      match a with
      | ⟨0, _⟩ => show win3_5.index t (0 : Fin 2) * 2000 + 1 * r.val = 2000 * t.val + r.val; omega
      | ⟨1, _⟩ => show win3_5.index t (1 : Fin 2) * 128 + 1 * cc.val = cc.val; omega)
  show _ = cell_R3 V c (((cfg3.win 5).blk t).view.emb (ix2 r cc))
  rw [hemb]
  unfold cell_R3
  rw [Cert.Gnn.gru_ix2, gruAt_eq_cellAt, kblk_R3, rkblk_R3, bblk_R3]
  exact cellAt_congr _ _ _ _ _ _ _ r _ (fun kk => xblk_R3 V c t r kk _ rfl) (fun kk => hblk_R3 V c t r kk _ rfl) cc

/-- A row and a column are in point t's block of the result iff the row is among the block's 2000 rows. -/
theorem mem_blk_R3 (t : Fin cfg3.N) (i : S100000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v46).slice (win3_5.rect t)).set ↔ _
  rw [View.set_slice_whole, Rect.mem_set_unit]
  exact Iff.rfl

/-- The 50 blocks of 2000 rows cover the 100000 rows: row n is in the block of point n / 2000. -/
theorem cover_R3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, lt_of_lt_of_eq (by omega) (N_3 : cfg3.N = 50).symm⟩, rfl⟩
  obtain ⟨-, -, -, -, -, -, -, -, -, -, e0, e1⟩ := idx_R3 t
  refine ⟨t, flush3_5 t, ?_⟩
  rw [mem_blk_R3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- After the region the result array is the cell of the arrays the region found, at every row and column. -/
theorem final3 (c : Dev nD) :
    (dat3 (F := Ideal) V c).arrAt 5 cfg3.N
      = Cert.Gnn.gru (V c (Pipeline.arrRef spec3 0)) (V c (Pipeline.arrRef spec3 2)) (V c (Pipeline.arrRef spec3 3))
          (V c (Pipeline.arrRef spec3 4)) (V c (Pipeline.arrRef spec3 1)) :=
  (dat3 V c).arrAt_eq_of_cover 5 (cell_R3 V c) (fun t _ => flushed_R3 V c t) (cover_R3)

end Cert.KernelIdeal.GruValue

end
-- ==== Proof.GruRegion5.lean ====
/-
  The third gated-recurrent-cell region, read as one function of the arrays it finds.

  The region walks 50 grid points; point t takes rows 2000·t … 2000·t + 1999 of the aggregated messages x (256 columns
  in this region, and a 256-row input weight matrix) and of the state h, and the whole weight matrices and bias rows,
  and writes the same rows of the result.  What it writes at a row
  and a column is the cell of the block, which uses only that row of x and h: so it is the cell of the whole arrays at
  row 2000·t + r.  The 50 blocks of 2000 rows cover the 100000 rows, hence the result array is the cell everywhere.
-/
import proofs.«114658_j8254927143009_2_alg».proof.Proof.Gen.KernelIdeal.Frame
import proofs.«114658_j8254927143009_2_alg».proof.Proof.GruCell
import Idealize.ShloMosaic.Lib.Pipeline.Value

noncomputable section

namespace Cert.KernelIdeal.GruValue

open Cert.KernelIdeal Cert.KernelIdeal.Gen Idealize.ShloMosaic Idealize.ShloMosaic.ValueIdx Idealize.ShloMosaic.Pipeline
open Idealize.ShloMosaic.TcCoe

variable (V : (c : Dev nD) → (b : Ref sig .tc) → Buf (Elt Ideal) ((c : Thread nD τ).loc b))

/-- The body's stored value at a row and a column is the cell of its five blocks. -/
theorem pay_R5 (xh : Vec Ideal S2000x128 .f32) (xx : Vec Ideal S2000x256 .f32) (xk : Vec Ideal S256x384 .f32)
    (xrk : Vec Ideal S128x384 .f32) (xb : Vec Ideal S2x384 .f32)
    (r : Fin 2000) (c : Fin 128) :
    k5_pay1 xh xx xk xrk xb (ix2 r c) = cellAt xx xk xrk xb xh r c := by
  unfold k5_pay1
  simp only [shapeCast_self]
  simp only [addf_apply, mulf_apply, subf_apply, broadcast_apply, logistic_apply, tanh_apply]
  simp only [band_apply 0 (by omega), band_apply 128 (by omega), band_apply 256 (by omega)]
  simp only [affine_apply dot_S2000x256_S256x384_S2000x384_1_0_0_1_n_n rfl rfl rfl rfl rfl rfl xx xk bitsLt_bf16_f32 0 ![0, 0] rfl rfl xb,
    affine_apply dot_S2000x128_S128x384_S2000x384_1_0_0_1_n_n rfl rfl rfl rfl rfl rfl xh xrk bitsLt_bf16_f32 1 ![1, 0] rfl rfl xb]
  rw [Ideal.ofBits_def, Cert.Gnn.ofBits_one_f32]
  rfl

/-- The windows' index maps, decided over the grid: the row blocks of x, h and the result move with the point, the
    weights and the bias rows stay whole. -/
theorem idx_R5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row r of point t's block of x is row 2000·t + r of x. -/
theorem xblk_R5 (c : Dev nD) (t : Fin cfg5.N) (r : Fin 2000) (kk : Fin 256) (n : Fin 100000)
    (hn : n.val = 2000 * t.val + r.val) :
    (iblk5 V c 0 t : Vec Ideal S2000x256 .f32) (ix2 r kk)
      = (V c (Pipeline.arrRef spec5 0) : S100000x256.Idx → EReal) (ix2 n kk) := by
  obtain ⟨e0, e1, -⟩ := idx_R5 t
  unfold iblk5
  rw [View.read_apply]
  refine congrArg (V c (Pipeline.arrRef spec5 0) : S100000x256.Idx → EReal) (funext fun a => Fin.ext ?_)
  match a with
  | ⟨0, _⟩ => show win5_0.index t (0 : Fin 2) * 2000 + 1 * r.val = n.val; omega
  | ⟨1, _⟩ => show win5_0.index t (1 : Fin 2) * 256 + 1 * kk.val = kk.val; omega

/-- Row r of point t's block of h is row 2000·t + r of h. -/
theorem hblk_R5 (c : Dev nD) (t : Fin cfg5.N) (r : Fin 2000) (kk : Fin 128) (n : Fin 100000)
    (hn : n.val = 2000 * t.val + r.val) :
    (iblk5 V c 1 t : Vec Ideal S2000x128 .f32) (ix2 r kk)
      = (V c (Pipeline.arrRef spec5 1) : S100000x128.Idx → EReal) (ix2 n kk) := by
  obtain ⟨-, -, e0, e1, -⟩ := idx_R5 t
  unfold iblk5
  rw [View.read_apply]
  refine congrArg (V c (Pipeline.arrRef spec5 1) : S100000x128.Idx → EReal) (funext fun a => Fin.ext ?_)
  match a with
  | ⟨0, _⟩ => show win5_1.index t (0 : Fin 2) * 2000 + 1 * r.val = n.val; omega
  | ⟨1, _⟩ => show win5_1.index t (1 : Fin 2) * 128 + 1 * kk.val = kk.val; omega

/-- Every point's block of the input weights is the whole matrix. -/
theorem kblk_R5 (c : Dev nD) (t : Fin cfg5.N) :
    (iblk5 V c 2 t : Vec Ideal S256x384 .f32) = (V c (Pipeline.arrRef spec5 2) : S256x384.Idx → EReal) := by
  obtain ⟨-, -, -, -, e0, e1, -⟩ := idx_R5 t
  funext y
  unfold iblk5
  rw [View.read_apply]
  refine congrArg (V c (Pipeline.arrRef spec5 2) : S256x384.Idx → EReal) (funext fun a => Fin.ext ?_)
  match a with
  | ⟨0, _⟩ => show win5_2.index t (0 : Fin 2) * 256 + 1 * (y 0).val = (y 0).val; omega
  | ⟨1, _⟩ => show win5_2.index t (1 : Fin 2) * 384 + 1 * (y 1).val = (y 1).val; omega

/-- Every point's block of the recurrent weights is the whole matrix. -/
theorem rkblk_R5 (c : Dev nD) (t : Fin cfg5.N) :
    (iblk5 V c 3 t : Vec Ideal S128x384 .f32) = (V c (Pipeline.arrRef spec5 3) : S128x384.Idx → EReal) := by
  obtain ⟨-, -, -, -, -, -, e0, e1, -⟩ := idx_R5 t
  funext y
  unfold iblk5
  rw [View.read_apply]
  refine congrArg (V c (Pipeline.arrRef spec5 3) : S128x384.Idx → EReal) (funext fun a => Fin.ext ?_)
  match a with
  | ⟨0, _⟩ => show win5_3.index t (0 : Fin 2) * 128 + 1 * (y 0).val = (y 0).val; omega
  | ⟨1, _⟩ => show win5_3.index t (1 : Fin 2) * 384 + 1 * (y 1).val = (y 1).val; omega

/-- Every point's block of the two bias rows is both rows. -/
theorem bblk_R5 (c : Dev nD) (t : Fin cfg5.N) :
    (iblk5 V c 4 t : Vec Ideal S2x384 .f32) = (V c (Pipeline.arrRef spec5 4) : S2x384.Idx → EReal) := by
  obtain ⟨-, -, -, -, -, -, -, -, e0, e1, -⟩ := idx_R5 t
  funext y
  unfold iblk5
  rw [View.read_apply]
  refine congrArg (V c (Pipeline.arrRef spec5 4) : S2x384.Idx → EReal) (funext fun a => Fin.ext ?_)
  match a with
  | ⟨0, _⟩ => show win5_4.index t (0 : Fin 2) * 2 + 1 * (y 0).val = (y 0).val; omega
  | ⟨1, _⟩ => show win5_4.index t (1 : Fin 2) * 384 + 1 * (y 1).val = (y 1).val; omega

/-- The cell of the arrays the region finds: messages, input weights, recurrent weights, bias rows, state. -/
abbrev cell_R5 (c : Dev nD) : S100000x128.Idx → EReal :=
  Cert.Gnn.gru (V c (Pipeline.arrRef spec5 0)) (V c (Pipeline.arrRef spec5 2)) (V c (Pipeline.arrRef spec5 3))
    (V c (Pipeline.arrRef spec5 4)) (V c (Pipeline.arrRef spec5 1))

/-- What point t writes back is its block of rows of the cell of the whole arrays. -/
theorem flushed_R5 (c : Dev nD) (t : Fin cfg5.N) :
    (dat5 (F := Ideal) V c).flushed 5 t = ((cfg5.win 5).blk t).view.read (Elt Ideal) (cell_R5 V c) := by
  show (cfg5.win 5).cut (grid5.coords t) ((dat5 V c).after 5 t) = _
  rw [after5_5]
  unfold out5_5
  rw [View.canon_unit_zero hz]
  simp only [View.ld_unit_zero (S := S2000x128) hz, View.ld_unit_zero (S := S2000x256) hz, View.ld_unit_zero (S := S256x384) hz,
    View.ld_unit_zero (S := S128x384) hz, View.ld_unit_zero (S := S2x384) hz]
  funext j
  obtain ⟨r, cc, rfl⟩ : ∃ (r : Fin 2000) (cc : Fin 128), j = ix2 r cc := ⟨j 0, j 1, eq_ix2 j⟩
  obtain ⟨-, -, -, -, -, -, -, -, -, -, e0, e1⟩ := idx_R5 t
  have ht : t.val < 50 := lt_of_lt_of_eq t.isLt (N_5 : cfg5.N = 50)
  have hr : r.val < 2000 := r.isLt
  refine (pay_R5 (iblk5 V c 1 t) (iblk5 V c 0 t) (iblk5 V c 2 t) (iblk5 V c 3 t) (iblk5 V c 4 t) r cc).trans ?_
  rw [View.read_apply]
  have hemb : ((cfg5.win 5).blk t).view.emb (ix2 r cc) = ix2 (⟨2000 * t.val + r.val, by omega⟩ : Fin 100000) cc :=
    funext fun a => Fin.ext (by
      match a with
      | ⟨0, _⟩ => show win5_5.index t (0 : Fin 2) * 2000 + 1 * r.val = 2000 * t.val + r.val; omega
      | ⟨1, _⟩ => show win5_5.index t (1 : Fin 2) * 128 + 1 * cc.val = cc.val; omega)
  show _ = cell_R5 V c (((cfg5.win 5).blk t).view.emb (ix2 r cc))
  rw [hemb]
  unfold cell_R5
  rw [Cert.Gnn.gru_ix2, gruAt_eq_cellAt, kblk_R5, rkblk_R5, bblk_R5]
  exact cellAt_congr _ _ _ _ _ _ _ r _ (fun kk => xblk_R5 V c t r kk _ rfl) (fun kk => hblk_R5 V c t r kk _ rfl) cc

/-- A row and a column are in point t's block of the result iff the row is among the block's 2000 rows. -/
theorem mem_blk_R5 (t : Fin cfg5.N) (i : S100000x128.Idx) :
    i ∈ ((cfg5.win 5).blk t).view.set ↔ ∀ a : Fin 2, win5_5.index t a * S2000x128.size a ≤ (i a).val
      ∧ (i a).val < win5_5.index t a * S2000x128.size a + S2000x128.size a := by
  show i ∈ ((View.whole main_v68).slice (win5_5.rect t)).set ↔ _
  rw [View.set_slice_whole, Rect.mem_set_unit]
  exact Iff.rfl

/-- The 50 blocks of 2000 rows cover the 100000 rows: row n is in the block of point n / 2000. -/
theorem cover_R5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  obtain ⟨t, ht⟩ : ∃ t : Fin cfg5.N, t.val = (i 0).val / 2000 :=
    ⟨⟨(i 0).val / 2000, lt_of_lt_of_eq (by omega) (N_5 : cfg5.N = 50).symm⟩, rfl⟩
  obtain ⟨-, -, -, -, -, -, -, -, -, -, e0, e1⟩ := idx_R5 t
  refine ⟨t, flush5_5 t, ?_⟩
  rw [mem_blk_R5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 128 ≤ (i 1).val ∧ (i 1).val < win5_5.index t (1 : Fin 2) * 128 + 128; omega

/-- After the region the result array is the cell of the arrays the region found, at every row and column. -/
theorem final5 (c : Dev nD) :
    (dat5 (F := Ideal) V c).arrAt 5 cfg5.N
      = Cert.Gnn.gru (V c (Pipeline.arrRef spec5 0)) (V c (Pipeline.arrRef spec5 2)) (V c (Pipeline.arrRef spec5 3))
          (V c (Pipeline.arrRef spec5 4)) (V c (Pipeline.arrRef spec5 1)) :=
  (dat5 V c).arrAt_eq_of_cover 5 (cell_R5 V c) (fun t _ => flushed_R5 V c t) (cover_R5)

end Cert.KernelIdeal.GruValue

end
-- ==== Proof.RefShapes.lean ====
/-
  The host program's spelling of one layer's pieces, named: the per-type affine map of the gathered states, the two
  affine maps into 384 columns, the gate written with a quotient, and the cell assembled from column bands. Each is
  stated to be the corresponding function of `Cert.Gnn`; the statements are proved in the modules that import this one.
-/
import proofs.«114658_j8254927143009_2_alg».proof.Proof.Gen.ReferenceIdeal
import proofs.«114658_j8254927143009_2_alg».proof.Proof.Spec

noncomputable section

namespace Cert.ReferenceIdeal.RefValue

open Cert.ReferenceIdeal Cert.ReferenceIdeal.Gen Idealize.ShloMosaic

/-- The messages as the host spells them: a product batched over the edge type, plus the bias broadcast twice. -/
def refMsg (src : FVec Ideal S3x300000x128 .f32) (W : FVec Ideal S3x128x128 .f32) (B : FVec Ideal S3x128 .f32) : FVec Ideal S3x300000x128 .f32 :=
  addf (Host.dotGeneral dot_S3x300000x128_S3x128x128_S3x300000x128_2_1_1_2_0_0 none src W) (broadcastInDim S3x300000x128 ![0, 1, 2] bcast_S3x1x128_S3x300000x128_0_1_2 (broadcastInDim S3x1x128 ![0, 2] bcast_S3x128_S3x1x128_0_2 B))

/-- The affine map of the 128-wide input with bias row 0, of the state with bias row 1, and of the 256-wide input with bias row 0. -/
def refLinX (x : FVec Ideal S100000x128 .f32) (k : FVec Ideal S128x384 .f32) (b : FVec Ideal S2x384 .f32) : FVec Ideal S100000x384 .f32 :=
  addf (Host.dotGeneral dot_S100000x128_S128x384_S100000x384_1_0_0_1_n_n none x k) (broadcastInDim S100000x384 ![0, 1] bcast_S1x384_S100000x384_0_1 (broadcastInDim S1x384 ![1] bcast_S384_S1x384_1 (shapeCast _ (extractStridedSlice S1x384 ![0, 0] b slices_S2x384_S1x384_0_0) shapeCasts_S1x384_S384)))
def refLinH (h : FVec Ideal S100000x128 .f32) (k : FVec Ideal S128x384 .f32) (b : FVec Ideal S2x384 .f32) : FVec Ideal S100000x384 .f32 :=
  addf (Host.dotGeneral dot_S100000x128_S128x384_S100000x384_1_0_0_1_n_n none h k) (broadcastInDim S100000x384 ![0, 1] bcast_S1x384_S100000x384_0_1 (broadcastInDim S1x384 ![1] bcast_S384_S1x384_1 (shapeCast _ (extractStridedSlice S1x384 ![1, 0] b slices_S2x384_S1x384_1_0) shapeCasts_S1x384_S384)))
def refLinX2 (x : FVec Ideal S100000x256 .f32) (k : FVec Ideal S256x384 .f32) (b : FVec Ideal S2x384 .f32) : FVec Ideal S100000x384 .f32 :=
  addf (Host.dotGeneral dot_S100000x256_S256x384_S100000x384_1_0_0_1_n_n none x k) (broadcastInDim S100000x384 ![0, 1] bcast_S1x384_S100000x384_0_1 (broadcastInDim S1x384 ![1] bcast_S384_S1x384_1 (shapeCast _ (extractStridedSlice S1x384 ![0, 0] b slices_S2x384_S1x384_0_0) shapeCasts_S1x384_S384)))

/-- The update gate, and the cell, from the two affine maps `P` (of the input) and `Q` (of the state). -/
def refZ (P Q : FVec Ideal S100000x384 .f32) : FVec Ideal S100000x128 .f32 :=
  Host.divf (broadcastInDim S100000x128 ![] bcast_S_S100000x128 (constant S_ .f32 0x3F800000#32)) (addf (broadcastInDim S100000x128 ![] bcast_S_S100000x128 (constant S_ .f32 0x3F800000#32)) (Host.exp (Host.negf (addf (extractStridedSlice S100000x128 ![0, 0] P slices_S100000x384_S100000x128_0_0) (extractStridedSlice S100000x128 ![0, 0] Q slices_S100000x384_S100000x128_0_0)))))
def refCell (P Q : FVec Ideal S100000x384 .f32) (h : FVec Ideal S100000x128 .f32) : FVec Ideal S100000x128 .f32 :=
  addf (mulf (refZ P Q) h) (mulf (subf (broadcastInDim S100000x128 ![] bcast_S_S100000x128 (constant S_ .f32 0x3F800000#32)) (refZ P Q)) (Host.tanh (addf (extractStridedSlice S100000x128 ![0, 256] P slices_S100000x384_S100000x128_0_256) (mulf (Host.divf (broadcastInDim S100000x128 ![] bcast_S_S100000x128 (constant S_ .f32 0x3F800000#32)) (addf (broadcastInDim S100000x128 ![] bcast_S_S100000x128 (constant S_ .f32 0x3F800000#32)) (Host.exp (Host.negf (addf (extractStridedSlice S100000x128 ![0, 128] P slices_S100000x384_S100000x128_0_128) (extractStridedSlice S100000x128 ![0, 128] Q slices_S100000x384_S100000x128_0_128)))))) (extractStridedSlice S100000x128 ![0, 256] Q slices_S100000x384_S100000x128_0_256)))))

/-- The three statements that join the host's spelling to the mathematics. -/
def RefMsgEq : Prop := ∀ (src : FVec Ideal S3x300000x128 .f32) (W : FVec Ideal S3x128x128 .f32) (B : FVec Ideal S3x128 .f32),
  refMsg src W B = Cert.Gnn.msg src W B
def RefGruEq : Prop := ∀ (x h : FVec Ideal S100000x128 .f32) (k rk : FVec Ideal S128x384 .f32) (b : FVec Ideal S2x384 .f32),
  refCell (refLinX x k b) (refLinH h rk b) h = Cert.Gnn.gru x k rk b h
def RefGruEq2 : Prop := ∀ (x : FVec Ideal S100000x256 .f32) (h : FVec Ideal S100000x128 .f32) (k : FVec Ideal S256x384 .f32) (rk : FVec Ideal S128x384 .f32) (b : FVec Ideal S2x384 .f32),
  refCell (refLinX2 x k b) (refLinH h rk b) h = Cert.Gnn.gru x k rk b h

end Cert.ReferenceIdeal.RefValue

end
-- ==== Proof.RefMsg.lean ====
/-
  The host's message layer is the specification's.

  The host computes all messages of a layer as a product of two stacks, matrix by matrix — the stack of the three
  edge types' source-state matrices by the stack of the three weight matrices — and adds the bias after giving it a
  unit edge axis and copying it along all edges. Read at edge type t, edge e, component d this is
  Σ_k src[t,e,k] · W[t,k,d] + B[t,d].
-/
import proofs.«114658_j8254927143009_2_alg».proof.Proof.RefShapes
import Idealize.ShloMosaic.Lib.StackMember
import Idealize.ShloMosaic.Lib.Pipeline.Value

noncomputable section

namespace Cert.ReferenceIdeal.RefValue

open Cert.ReferenceIdeal Cert.ReferenceIdeal.Gen Idealize.ShloMosaic Idealize.ShloMosaic.ValueIdx

/-- The bias matrix, given a unit edge axis and then copied along all edges, read at edge `e` of type `t`:
    the edge does not matter. -/
theorem bias_along_edges (B : FVec Ideal S3x128 .f32) (t : Fin 3) (e : Fin 300000) (d : Fin 128) :
    broadcastInDim S3x300000x128 ![0, 1, 2] bcast_S3x1x128_S3x300000x128_0_1_2
      (broadcastInDim S3x1x128 ![0, 2] bcast_S3x128_S3x1x128_0_2 B) (ix3 t e d) = B (ix2 t d) := by
  rw [broadcastInDim_apply _ _ _ (ix3 t e d) (ix3 t (0 : Fin 1) d) (fun a => by
      match a with
      | ⟨0, _⟩ => rfl
      | ⟨1, _⟩ => rfl
      | ⟨2, _⟩ => rfl),
    broadcastInDim_apply _ _ _ (ix3 t (0 : Fin 1) d) (ix2 t d) (fun a => by
      match a with
      | ⟨0, _⟩ => rfl
      | ⟨1, _⟩ => rfl)]

/-- The product of the two stacks, read at edge type `t`, edge `e`, component `d`: the sum over the shared
    coordinate of the products of the entries of member `t` of each stack. -/
theorem stack_product_apply (src : FVec Ideal S3x300000x128 .f32) (W : FVec Ideal S3x128x128 .f32)
    (t : Fin 3) (e : Fin 300000) (d : Fin 128) :
    Host.dotGeneral dot_S3x300000x128_S3x128x128_S3x300000x128_2_1_1_2_0_0 none src W (ix3 t e d)
      = ∑ k : Fin 128, src (ix3 t e k) * W (ix3 t k d) :=
  StackMember.dotGeneral_stack_apply dot_S3x300000x128_S3x128x128_S3x300000x128_2_1_1_2_0_0_wf none src W t e d

/-- The batched product plus the doubly copied bias is the message array of the specification. -/
theorem ref_msg_eq : RefMsgEq := by
  intro src W B
  unfold refMsg
  funext i
  obtain ⟨t, e, d, rfl⟩ : ∃ (t : Fin 3) (e : Fin 300000) (d : Fin 128), i = ix3 t e d := ⟨i 0, i 1, i 2, eq_ix3 i⟩
  rw [addf_apply, bias_along_edges, stack_product_apply, Cert.Gnn.msg_ix3]
  rfl

end Cert.ReferenceIdeal.RefValue

end
-- ==== Proof.RefGru.lean ====
/-
  The host's gated recurrent cell is the specification's.

  The host forms two affine maps into 384 columns — the received messages through the input weights plus row 0 of
  the bias pair, the state through the recurrent weights plus row 1 — cuts each into three bands of 128 columns, and
  combines the bands: z = 1/(1+e^(−(xz+rz))), r = 1/(1+e^(−(xr+rr))), new state = z·h + (1−z)·tanh(xh + r·rh).
  Read at node n, component c, every step is an operation on single entries, a plain matrix product read at an index
  is the sum over the shared coordinate, and a band's column c is column (offset + c) of the affine map.
-/
import proofs.«114658_j8254927143009_2_alg».proof.Proof.RefShapes
import proofs.«114658_j8254927143009_2_alg».proof.Proof.LibPlainProduct
import Idealize.ShloMosaic.Lib.Pipeline.Value

noncomputable section

namespace Cert.ReferenceIdeal.RefValue

open Cert.ReferenceIdeal Cert.ReferenceIdeal.Gen Idealize.ShloMosaic Idealize.ShloMosaic.ValueIdx

/-- One row of the bias pair — cut out at row offset `off 0`, flattened to a vector, given a unit row axis and copied
    to every node — read at node `n`, column `j`: the node does not matter. -/
theorem bias_row_apply (b : FVec Ideal S2x384 .f32) (off : Fin 2 → ℕ) (hs : S2x384.Slices off S1x384) (row : Fin 2)
    (h0 : off 0 = row.val) (h1 : off 1 = 0) (n : Fin 100000) (j : Fin 384) :
    broadcastInDim S100000x384 ![0, 1] bcast_S1x384_S100000x384_0_1 (broadcastInDim S1x384 ![1] bcast_S384_S1x384_1
      (shapeCast _ (extractStridedSlice S1x384 off b hs) shapeCasts_S1x384_S384)) (ix2 n j) = b (ix2 row j) := by
  rw [broadcastInDim_apply _ _ _ (ix2 n j) (ix2 (0 : Fin 1) j) (fun a => by
      match a with
      | ⟨0, _⟩ => rfl
      | ⟨1, _⟩ => rfl),
    broadcastInDim_apply _ _ _ (ix2 (0 : Fin 1) j) (ix1 j) (fun a => by
      match a with
      | ⟨0, _⟩ => rfl),
    shapeCast_apply _ _ (ix1 j) (ix2 (0 : Fin 1) j) (by
      rw [Shape.rowMajor_val_two, Shape.rowMajor_val_one]
      show 0 * 384 + j.val = j.val
      omega),
    extractStridedSlice_apply off b hs (ix2 (0 : Fin 1) j) (ix2 row j) (fun a => by
      match a with
      | ⟨0, _⟩ => show row.val = off 0 + 0; omega
      | ⟨1, _⟩ => show j.val = off 1 + j.val; omega)]

/-- The host's affine map into 384 columns — a plain product plus a row of the bias pair — read at node `n`,
    column `j`, is the specification's `lin`. General in the inner extent. -/
theorem affine_apply {K : ℕ} (D : DotDims ⟨2, ![100000, K]⟩ ⟨2, ![K, 384]⟩ ⟨2, ![100000, 384]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![100000, K]⟩ .f32) (k : FVec Ideal ⟨2, ![K, 384]⟩ .f32) (b : FVec Ideal S2x384 .f32)
    (off : Fin 2 → ℕ) (hs : S2x384.Slices off S1x384) (row : Fin 2) (h0 : off 0 = row.val) (h1 : off 1 = 0)
    (n : Fin 100000) (j : Fin 384) :
    addf (Host.dotGeneral (F := Ideal) D none x k) (broadcastInDim S100000x384 ![0, 1] bcast_S1x384_S100000x384_0_1
      (broadcastInDim S1x384 ![1] bcast_S384_S1x384_1 (shapeCast _ (extractStridedSlice S1x384 off b hs) shapeCasts_S1x384_S384)))
      (ix2 n j) = Cert.Gnn.lin x k b row n j := by
  rw [addf_apply, bias_row_apply b off hs row h0 h1]
  exact congrArg (· + b (ix2 row j)) (dotGeneral_plain_apply D hlc hrc hln hrn hlb hrb none _ x k n j)

/-- Column `c` of the band of 128 columns cut out at column offset `o` is column `o + c`. -/
theorem band_apply (o : ℕ) (ho : o + 128 ≤ 384) (off : Fin 2 → ℕ) (hs : S100000x384.Slices off S100000x128)
    (h0 : off 0 = 0) (h1 : off 1 = o) (P : FVec Ideal S100000x384 .f32) (n : Fin 100000) (c : Fin 128) :
    extractStridedSlice S100000x128 off P hs (ix2 n c) = P (ix2 n (Cert.Gnn.col o ho c)) :=
  extractStridedSlice_apply off P hs (ix2 n c) (ix2 n (Cert.Gnn.col o ho c)) (fun a => by
    match a with
    | ⟨0, _⟩ => show n.val = off 0 + n.val; omega
    | ⟨1, _⟩ => show o + c.val = off 1 + c.val; omega)

/-- The constant one, copied to every entry, is the number one at every entry. -/
theorem one_apply (i : S100000x128.Idx) :
    broadcastInDim S100000x128 ![] bcast_S_S100000x128 (constant (F := Ideal) S_ .f32 0x3F800000#32) i = 1 := by
  rw [broadcastInDim_apply _ _ _ i ix0 (fun a => a.elim0), constant_apply, Cert.Gnn.ofBits_one_f32]

/-- The three affine maps of the host, read at node `n`, column `j`. -/
theorem refLinX_apply (x : FVec Ideal S100000x128 .f32) (k : FVec Ideal S128x384 .f32) (b : FVec Ideal S2x384 .f32)
    (n : Fin 100000) (j : Fin 384) : refLinX x k b (ix2 n j) = Cert.Gnn.lin x k b 0 n j := by
  unfold refLinX
  exact affine_apply dot_S100000x128_S128x384_S100000x384_1_0_0_1_n_n rfl rfl rfl rfl rfl rfl x k b ![0, 0] slices_S2x384_S1x384_0_0 0 rfl rfl n j

theorem refLinH_apply (h : FVec Ideal S100000x128 .f32) (rk : FVec Ideal S128x384 .f32) (b : FVec Ideal S2x384 .f32)
    (n : Fin 100000) (j : Fin 384) : refLinH h rk b (ix2 n j) = Cert.Gnn.lin h rk b 1 n j := by
  unfold refLinH
  exact affine_apply dot_S100000x128_S128x384_S100000x384_1_0_0_1_n_n rfl rfl rfl rfl rfl rfl h rk b ![1, 0] slices_S2x384_S1x384_1_0 1 rfl rfl n j

theorem refLinX2_apply (x : FVec Ideal S100000x256 .f32) (k : FVec Ideal S256x384 .f32) (b : FVec Ideal S2x384 .f32)
    (n : Fin 100000) (j : Fin 384) : refLinX2 x k b (ix2 n j) = Cert.Gnn.lin x k b 0 n j := by
  unfold refLinX2
  exact affine_apply dot_S100000x256_S256x384_S100000x384_1_0_0_1_n_n rfl rfl rfl rfl rfl rfl x k b ![0, 0] slices_S2x384_S1x384_0_0 0 rfl rfl n j

set_option maxHeartbeats 400000 in
/-- The host's combination of the two affine maps' bands and the state, read at node `n`, component `c`. -/
theorem cell_apply (P Q : FVec Ideal S100000x384 .f32) (h : FVec Ideal S100000x128 .f32) (n : Fin 100000) (c : Fin 128) :
    refCell P Q h (ix2 n c)
      = Ideal.logistic (P (ix2 n (Cert.Gnn.col 0 (by omega) c)) + Q (ix2 n (Cert.Gnn.col 0 (by omega) c))) * h (ix2 n c)
        + (1 - Ideal.logistic (P (ix2 n (Cert.Gnn.col 0 (by omega) c)) + Q (ix2 n (Cert.Gnn.col 0 (by omega) c))))
          * Ideal.tanh (P (ix2 n (Cert.Gnn.col 256 (by omega) c)) + Ideal.logistic (P (ix2 n (Cert.Gnn.col 128 (by omega) c)) + Q (ix2 n (Cert.Gnn.col 128 (by omega) c))) * Q (ix2 n (Cert.Gnn.col 256 (by omega) c))) := by
  unfold refCell refZ
  generalize hO : broadcastInDim S100000x128 ![] bcast_S_S100000x128 (constant (F := Ideal) S_ .f32 0x3F800000#32) = O
  have hO1 : O (ix2 n c) = 1 := by rw [← hO]; exact one_apply _
  simp only [addf_apply, mulf_apply, subf_apply, Host.divf, Host.exp, Host.negf, Host.tanh, Ideal.hostDivf_def,
    Ideal.hostUnary_exp_def, Ideal.hostUnary_tanh_def, Ideal.hostNegf_def, Ideal.negf_def, hO1,
    band_apply 0 (by omega) ![0, 0] slices_S100000x384_S100000x128_0_0 rfl rfl,
    band_apply 128 (by omega) ![0, 128] slices_S100000x384_S100000x128_0_128 rfl rfl,
    band_apply 256 (by omega) ![0, 256] slices_S100000x384_S100000x128_0_256 rfl rfl,
    Cert.Gnn.div_one_add_exp_neg]

set_option maxHeartbeats 400000 in
/-- The host's cell over 128-wide received messages is the specification's cell. -/
theorem ref_gru_eq : RefGruEq := by
  intro x h k rk b
  funext i
  obtain ⟨n, c, rfl⟩ : ∃ (n : Fin 100000) (c : Fin 128), i = ix2 n c := ⟨i 0, i 1, eq_ix2 i⟩
  rw [cell_apply, Cert.Gnn.gru_ix2]
  simp only [refLinX_apply, refLinH_apply]
  rfl

set_option maxHeartbeats 400000 in
/-- The host's cell over 256-wide inputs (the initial states joined to the received messages) is the specification's cell. -/
theorem ref_gru_eq2 : RefGruEq2 := by
  intro x h k rk b
  funext i
  obtain ⟨n, c, rfl⟩ : ∃ (n : Fin 100000) (c : Fin 128), i = ix2 n c := ⟨i 0, i 1, eq_ix2 i⟩
  rw [cell_apply, Cert.Gnn.gru_ix2]
  simp only [refLinX2_apply, refLinH_apply]
  rfl

end Cert.ReferenceIdeal.RefValue

end
-- ==== Proof.RefNet.lean ====
/-
  The reference's run, read as the network: each named intermediate of its run is one function of `Cert.Gnn` of
  the earlier ones — the pooled embeddings, then a step of the first layer twice, then the step of the second layer —,
  given that the host's spelling of the messages and of the cell are `Cert.Gnn.msg` and `Cert.Gnn.gru`.
-/
import proofs.«114658_j8254927143009_2_alg».proof.Proof.Gen.ReferenceIdeal.Run
import proofs.«114658_j8254927143009_2_alg».proof.Proof.RefShapes
import proofs.«114658_j8254927143009_2_alg».proof.Proof.Net

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal))

/-- The initial states are the pooled embeddings. -/
theorem v9_eq : res_main_v9 V0 = Cert.Gnn.embed (V0 (Proc.devRef .tc main_arg0)) (V0 (Proc.devRef .tc main_arg1)) (V0 (Proc.devRef .tc main_arg4)) := rfl

/-- A step's two affine maps and its cell, in the host's spelling, over the states `S` it starts from. -/
theorem v35_eq : res_main_v35 V0 = refLinX (Cert.Gnn.aggOf (refMsg (Cert.Gnn.srcOf (res_main_v9 V0) (V0 (Proc.devRef .tc main_arg2))) (Cert.Gnn.wts0 (V0 (Proc.devRef .tc main_arg5))) (Cert.Gnn.bias0 (V0 (Proc.devRef .tc main_arg6)))) (V0 (Proc.devRef .tc main_arg3))) (V0 (Proc.devRef .tc main_arg7)) (V0 (Proc.devRef .tc main_arg9)) := rfl
theorem v41_eq : res_main_v41 V0 = refLinH (res_main_v9 V0) (V0 (Proc.devRef .tc main_arg8)) (V0 (Proc.devRef .tc main_arg9)) := rfl
theorem v69_cell : res_main_v69 V0 = refCell (res_main_v35 V0) (res_main_v41 V0) (res_main_v9 V0) := rfl
theorem v95_eq : res_main_v95 V0 = refLinX (Cert.Gnn.aggOf (refMsg (Cert.Gnn.srcOf (res_main_v69 V0) (V0 (Proc.devRef .tc main_arg2))) (Cert.Gnn.wts0 (V0 (Proc.devRef .tc main_arg5))) (Cert.Gnn.bias0 (V0 (Proc.devRef .tc main_arg6)))) (V0 (Proc.devRef .tc main_arg3))) (V0 (Proc.devRef .tc main_arg7)) (V0 (Proc.devRef .tc main_arg9)) := rfl
theorem v101_eq : res_main_v101 V0 = refLinH (res_main_v69 V0) (V0 (Proc.devRef .tc main_arg8)) (V0 (Proc.devRef .tc main_arg9)) := rfl
theorem v129_cell : res_main_v129 V0 = refCell (res_main_v95 V0) (res_main_v101 V0) (res_main_v69 V0) := rfl
theorem v156_eq : res_main_v156 V0 = refLinX2 (Cert.Gnn.cat (res_main_v9 V0) (Cert.Gnn.aggOf (refMsg (Cert.Gnn.srcOf (res_main_v129 V0) (V0 (Proc.devRef .tc main_arg2))) (Cert.Gnn.wts1 (V0 (Proc.devRef .tc main_arg5))) (Cert.Gnn.bias1 (V0 (Proc.devRef .tc main_arg6)))) (V0 (Proc.devRef .tc main_arg3)))) (V0 (Proc.devRef .tc main_arg10)) (V0 (Proc.devRef .tc main_arg12)) := rfl
theorem v162_eq : res_main_v162 V0 = refLinH (res_main_v129 V0) (V0 (Proc.devRef .tc main_arg11)) (V0 (Proc.devRef .tc main_arg12)) := rfl

/-- The first step, the second step. -/
theorem v69_eq (hm : RefMsgEq) (hg : RefGruEq) : res_main_v69 V0
    = Cert.Gnn.step (res_main_v9 V0) (V0 (Proc.devRef .tc main_arg2)) (V0 (Proc.devRef .tc main_arg3)) (Cert.Gnn.wts0 (V0 (Proc.devRef .tc main_arg5))) (Cert.Gnn.bias0 (V0 (Proc.devRef .tc main_arg6))) (V0 (Proc.devRef .tc main_arg7)) (V0 (Proc.devRef .tc main_arg8)) (V0 (Proc.devRef .tc main_arg9)) := by
  rw [v69_cell, v35_eq, v41_eq, hm, hg]
  rfl
theorem v129_eq (hm : RefMsgEq) (hg : RefGruEq) : res_main_v129 V0
    = Cert.Gnn.step (res_main_v69 V0) (V0 (Proc.devRef .tc main_arg2)) (V0 (Proc.devRef .tc main_arg3)) (Cert.Gnn.wts0 (V0 (Proc.devRef .tc main_arg5))) (Cert.Gnn.bias0 (V0 (Proc.devRef .tc main_arg6))) (V0 (Proc.devRef .tc main_arg7)) (V0 (Proc.devRef .tc main_arg8)) (V0 (Proc.devRef .tc main_arg9)) := by
  rw [v129_cell, v95_eq, v101_eq, hm, hg]
  rfl

/-- The run's result term is the cell of the second layer's two affine maps over the states after two steps. -/
theorem term_cell : addf (mulf (res_main_v175 V0) (res_main_v129 V0)) (mulf (subf (broadcastInDim S100000x128 ![] bcast_S_S100000x128 (constant S_ .f32 0x3F800000#32)) (res_main_v175 V0)) (Host.tanh (addf (extractStridedSlice S100000x128 ![0, 256] (res_main_v156 V0) slices_S100000x384_S100000x128_0_256) (mulf (Host.divf (broadcastInDim S100000x128 ![] bcast_S_S100000x128 (constant S_ .f32 0x3F800000#32)) (addf (broadcastInDim S100000x128 ![] bcast_S_S100000x128 (constant S_ .f32 0x3F800000#32)) (Host.exp (Host.negf (addf (extractStridedSlice S100000x128 ![0, 128] (res_main_v156 V0) slices_S100000x384_S100000x128_0_128) (extractStridedSlice S100000x128 ![0, 128] (res_main_v162 V0) slices_S100000x384_S100000x128_0_128)))))) (extractStridedSlice S100000x128 ![0, 256] (res_main_v162 V0) slices_S100000x384_S100000x128_0_256)))))
    = refCell (res_main_v156 V0) (res_main_v162 V0) (res_main_v129 V0) := rfl

/-- THE REFERENCE'S RESULT is the network of the launch contents of the thirteen arguments. -/
theorem ref_value (hm : RefMsgEq) (hg : RefGruEq) (hg2 : RefGruEq2) : addf (mulf (res_main_v175 V0) (res_main_v129 V0)) (mulf (subf (broadcastInDim S100000x128 ![] bcast_S_S100000x128 (constant S_ .f32 0x3F800000#32)) (res_main_v175 V0)) (Host.tanh (addf (extractStridedSlice S100000x128 ![0, 256] (res_main_v156 V0) slices_S100000x384_S100000x128_0_256) (mulf (Host.divf (broadcastInDim S100000x128 ![] bcast_S_S100000x128 (constant S_ .f32 0x3F800000#32)) (addf (broadcastInDim S100000x128 ![] bcast_S_S100000x128 (constant S_ .f32 0x3F800000#32)) (Host.exp (Host.negf (addf (extractStridedSlice S100000x128 ![0, 128] (res_main_v156 V0) slices_S100000x384_S100000x128_0_128) (extractStridedSlice S100000x128 ![0, 128] (res_main_v162 V0) slices_S100000x384_S100000x128_0_128)))))) (extractStridedSlice S100000x128 ![0, 256] (res_main_v162 V0) slices_S100000x384_S100000x128_0_256)))))
    = Cert.Gnn.net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [term_cell, v156_eq, v162_eq, hm, hg2, v129_eq V0 hm hg, v69_eq V0 hm hg, v9_eq]
  rfl

/-- The reference's run with its result named. -/
theorem run_net (hm : RefMsgEq) (hg : RefGruEq) (hg2 : RefGruEq2) (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v190) = Cert.Gnn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (ref_value (launchContents m c) hm hg hg2), (h c).2⟩) (Value.run (F := Ideal) m ρ)

end Cert.ReferenceIdeal.RefValue

end
-- ==== Proof.lean ====
/-
  A graph neural network — pooled token embeddings, then three message-passing steps, each a gather of the source
  nodes' states, a per-edge-type affine map, a sum over incoming edges and a gated recurrent cell — computed by six
  pallas regions among host operations, against the same network written with plain array operations.

  Over the exact extended reals the two programs are one function of the thirteen argument arrays, `Cert.Gnn.net`:
  a message region's blocks tile the array of all messages, each block being the whole-array function
  Σ_k src[t,e,k]·W[t,k,d] + B[t,d] restricted to it; a cell region's blocks tile the array of new states, each the
  whole-array cell restricted to a stretch of 2000 nodes; changes of float format are the identity; the kernel's
  logistic function is the reference's 1 / (1 + e^(−u)); and the gathers, the sums over incoming edges and the join of
  two state arrays are the same host operations on both sides. No law of arithmetic beyond these identifications is
  used, so the precondition (finite inputs) is never opened. The idealization rewrote nothing: `preserves` is trivial.
-/
import proofs.«114658_j8254927143009_2_alg».proof.Defs
import proofs.«114658_j8254927143009_2_alg».proof.Proof.Gen.Kernel
import proofs.«114658_j8254927143009_2_alg».proof.Proof.Gen.Kernel.Frame
import proofs.«114658_j8254927143009_2_alg».proof.Proof.Gen.KernelIdeal
import proofs.«114658_j8254927143009_2_alg».proof.Proof.Gen.KernelIdeal.Frame
import proofs.«114658_j8254927143009_2_alg».proof.Proof.Gen.ReferenceIdeal
import proofs.«114658_j8254927143009_2_alg».proof.Proof.Gen.ReferenceIdeal.Run
import proofs.«114658_j8254927143009_2_alg».proof.Proof.Gen.Pre_finite_inputs
import proofs.«114658_j8254927143009_2_alg».proof.Proof.KernelRun
import proofs.«114658_j8254927143009_2_alg».proof.Proof.KernelFold
import proofs.«114658_j8254927143009_2_alg».proof.Proof.MsgRegion0
import proofs.«114658_j8254927143009_2_alg».proof.Proof.MsgRegion2
import proofs.«114658_j8254927143009_2_alg».proof.Proof.MsgRegion4
import proofs.«114658_j8254927143009_2_alg».proof.Proof.GruRegion1
import proofs.«114658_j8254927143009_2_alg».proof.Proof.GruRegion3
import proofs.«114658_j8254927143009_2_alg».proof.Proof.GruRegion5
import proofs.«114658_j8254927143009_2_alg».proof.Proof.RefMsg
import proofs.«114658_j8254927143009_2_alg».proof.Proof.RefGru
import proofs.«114658_j8254927143009_2_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the returned array at the network of the argument arrays, which agree. -/
theorem algebraic : Cert.algebraic_KernelIdeal_ReferenceIdeal := by
  intro m ρ m' ρ' _ hagree
  refine ⟨_, (θ_run Cert.KernelIdeal.defs _ _).mono (fun r h c => ⟨(h c).1.trans
      (Cert.KernelIdeal.NetValue.W12_v68 m ρ Cert.KernelIdeal.MsgValue.final0 Cert.KernelIdeal.GruValue.final1
        Cert.KernelIdeal.MsgValue.final2 Cert.KernelIdeal.GruValue.final3 Cert.KernelIdeal.MsgValue.final4
        Cert.KernelIdeal.GruValue.final5 c), (h c).2⟩) (Cert.KernelIdeal.NetValue.run_last m ρ), ?_⟩
  refine (θ_run Cert.ReferenceIdeal.defs _ _).mono (fun r h c => ⟨(h c).1.trans ?_, (h c).2⟩)
    (Cert.ReferenceIdeal.RefValue.run_net Cert.ReferenceIdeal.RefValue.ref_msg_eq Cert.ReferenceIdeal.RefValue.ref_gru_eq
      Cert.ReferenceIdeal.RefValue.ref_gru_eq2 m' ρ')
  obtain ⟨e0, e1, e2, e3, e4, e5, e6, e7, e8, e9, e10, e11, e12⟩ := hagree c
  rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
